-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46_1)) (v1 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_1) = v0 c
          ∧ r.2.mem ((c.tc : Thread Cert.KernelIdeal.nD Cert.KernelIdeal.τ).loc Cert.KernelIdeal.main_arg5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1280 : Shape := ⟨2, ![50000, 1280]⟩
abbrev S50000x64 : Shape := ⟨2, ![50000, 64]⟩
abbrev S3000000 : Shape := ⟨1, ![3000000]⟩
abbrev S100000x64 : Shape := ⟨2, ![100000, 64]⟩
abbrev S1280x256 : Shape := ⟨2, ![1280, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x1280 : S_.BroadcastsInDim S50000x1280 (![] : Fin 0 → Fin S50000x1280.rank)
  reducesTo_S50000x1280_S_d0_1 : S50000x1280.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3000000 : S_.BroadcastsInDim S3000000 (![] : Fin 0 → Fin S3000000.rank)
  reducesTo_S3000000_S_d0 : S3000000.ReducesTo [0] S_
  bcast_S_S100000x64 : S_.BroadcastsInDim S100000x64 (![] : Fin 0 → Fin S100000x64.rank)
  reducesTo_S100000x64_S_d0_1 : S100000x64.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S1280x256 .f32) (main_arg7 : FVec F S256 .f32) (main_arg8 : FVec F S256x64 .f32) (main_arg9 : FVec F S64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S1280x256 .f32 := Host.absf main_arg6
  let main_cst_6 : FVec F S_ .f32 := constant S_ .f32 0x7F800000#32
  let main_v20 : FVec F S1280x256 .f32 := broadcastInDim S1280x256 ![] bcast_S_S1280x256 main_cst_6
  let main_v21 : IVec S1280x256 1 := cmpf .olt main_v19 main_v20
  let main_c_7 : IVec S_ 1 := constantI S_ 1 1#1
  let main_v22 : IVec S_ 1 := (fun x v => Host.reduce IntOp.andi x v reducesTo_S1280x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S50000x1280 .f32) (main_arg1 : FVec F S50000x64 .f32) (main_arg2 : IVec S3000000 32) (main_arg3 : IVec S3000000 32) (main_arg4 : FVec F S3000000 .f32) (main_arg5 : FVec F S100000x64 .f32) (main_arg6 : FVec F S1280x256 .f32) (main_arg7 : FVec F S256 .f32) (main_arg8 : FVec F S256x64 .f32) (main_arg9 : FVec F S64 .f32) : IVec S_ 1 :=
  let main_v0 : FVec F S50000x1280 .f32 := Host.absf main_arg0
  let main_cst : FVec F S_ .f32 := constant S_ .f32 0x7F800000#32
  let main_v1 : FVec F S50000x1280 .f32 := broadcastInDim S50000x1280 ![] bcast_S_S50000x1280 main_cst
  let main_v2 : IVec S50000x1280 1 := cmpf .olt main_v0 main_v1
  let main_c : IVec S_ 1 := constantI S_ 1 1#1
  let main_v3 : IVec S_ 1 := (fun x v => Host.reduce IntOp.andi x v reducesTo_S50000x1280_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3000000 .f32 := Host.absf main_arg4
  let main_cst_2 : FVec F S_ .f32 := constant S_ .f32 0x7F800000#32
  let main_v10 : FVec F S3000000 .f32 := broadcastInDim S3000000 ![] bcast_S_S3000000 main_cst_2
  let main_v11 : IVec S3000000 1 := cmpf .olt main_v9 main_v10
  let main_c_3 : IVec S_ 1 := constantI S_ 1 1#1
  let main_v12 : IVec S_ 1 := (fun x v => Host.reduce IntOp.andi x v reducesTo_S3000000_S_d0 h_S_) main_v11 main_c_3
  let main_v13 : IVec S_ 1 := andi main_v8 main_v12
  let main_v14 : FVec F S100000x64 .f32 := Host.absf main_arg5
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg6 main_arg7 main_arg8 main_arg9 main_v13 main_v16
-- ==== Kernel.lean ====
abbrev S50000x1280 : Shape := ⟨2, ![50000, 1280]⟩
abbrev S50000x64 : Shape := ⟨2, ![50000, 64]⟩
abbrev S3000000 : Shape := ⟨1, ![3000000]⟩
abbrev S100000x64 : Shape := ⟨2, ![100000, 64]⟩
abbrev S1280x256 : Shape := ⟨2, ![1280, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S1000x1280 : Shape := ⟨2, ![1000, 1280]⟩
abbrev S1000x64 : Shape := ⟨2, ![1000, 64]⟩
abbrev S1000x256 : Shape := ⟨2, ![1000, 256]⟩
abbrev S150000x64 : Shape := ⟨2, ![150000, 64]⟩
abbrev S3000x64 : Shape := ⟨2, ![3000, 64]⟩
abbrev S3000 : Shape := ⟨1, ![3000]⟩
abbrev S3000x1 : Shape := ⟨2, ![3000, 1]⟩
abbrev S3000000x1 : Shape := ⟨2, ![3000000, 1]⟩
abbrev S_ : Shape := ⟨0, ![]⟩
abbrev S3000000x64 : Shape := ⟨2, ![3000000, 64]⟩

abbrev nBuf : Space → Nat
  | .hbm => 69
  | .vmem => 44
  | .smem => 0
  | _ => 0

abbrev bufTy : (tb : Table) → Fin (tcTables nBuf tb) → BufTy
  | .hbm, ⟨0, _⟩ => ⟨S50000x1280, .f32⟩
  | .hbm, ⟨1, _⟩ => ⟨S50000x64, .f32⟩
  | .hbm, ⟨2, _⟩ => ⟨S3000000, .i32⟩
  | .hbm, ⟨3, _⟩ => ⟨S3000000, .i32⟩
  | .hbm, ⟨4, _⟩ => ⟨S3000000, .f32⟩
  | .hbm, ⟨5, _⟩ => ⟨S100000x64, .f32⟩
  | .hbm, ⟨6, _⟩ => ⟨S1280x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S1x256, .f32⟩
  | .hbm, ⟨11, _⟩ => ⟨S1x64, .f32⟩
  | .hbm, ⟨12, _⟩ => ⟨S50000x64, .f32⟩
  | .hbm, ⟨13, _⟩ => ⟨S150000x64, .f32⟩
  | .hbm, ⟨14, _⟩ => ⟨S150000x64, .f32⟩
  | .hbm, ⟨15, _⟩ => ⟨S3000000x1, .f32⟩
  | .hbm, ⟨16, _⟩ => ⟨S_, .i32⟩
  | .hbm, ⟨17, _⟩ => ⟨S3000000, .i32⟩
  | .hbm, ⟨18, _⟩ => ⟨S3000000, .i1⟩
  | .hbm, ⟨19, _⟩ => ⟨S_, .i32⟩
  | .hbm, ⟨20, _⟩ => ⟨S3000000, .i32⟩
  | .hbm, ⟨21, _⟩ => ⟨S3000000, .i32⟩
  | .hbm, ⟨22, _⟩ => ⟨S3000000, .i32⟩
  | .hbm, ⟨23, _⟩ => ⟨S3000000x1, .i32⟩
  | .hbm, ⟨24, _⟩ => ⟨S3000000x64, .f32⟩
  | .hbm, ⟨25, _⟩ => ⟨S3000000x64, .f32⟩
  | .hbm, ⟨26, _⟩ => ⟨S3000000x64, .f32⟩
  | .hbm, ⟨27, _⟩ => ⟨S_, .f32⟩
  | .hbm, ⟨28, _⟩ => ⟨S150000x64, .f32⟩
  | .hbm, ⟨29, _⟩ => ⟨S3000000x1, .i32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S3000000x1, .f32⟩
  | .hbm, ⟨34, _⟩ => ⟨S_, .i32⟩
  | .hbm, ⟨35, _⟩ => ⟨S3000000, .i32⟩
  | .hbm, ⟨36, _⟩ => ⟨S3000000, .i1⟩
  | .hbm, ⟨37, _⟩ => ⟨S_, .i32⟩
  | .hbm, ⟨38, _⟩ => ⟨S3000000, .i32⟩
  | .hbm, ⟨39, _⟩ => ⟨S3000000, .i32⟩
  | .hbm, ⟨40, _⟩ => ⟨S3000000, .i32⟩
  | .hbm, ⟨41, _⟩ => ⟨S3000000x1, .i32⟩
  | .hbm, ⟨42, _⟩ => ⟨S3000000x64, .f32⟩
  | .hbm, ⟨43, _⟩ => ⟨S3000000x64, .f32⟩
  | .hbm, ⟨44, _⟩ => ⟨S3000000x64, .f32⟩
  | .hbm, ⟨45, _⟩ => ⟨S_, .f32⟩
  | .hbm, ⟨46, _⟩ => ⟨S150000x64, .f32⟩
  | .hbm, ⟨47, _⟩ => ⟨S3000000x1, .i32⟩
  | .hbm, ⟨48, _⟩ => ⟨S150000x64, .f32⟩
  | .hbm, ⟨49, _⟩ => ⟨S150000x64, .f32⟩
  | .hbm, ⟨50, _⟩ => ⟨S150000x64, .f32⟩
  | .hbm, ⟨51, _⟩ => ⟨S3000000x1, .f32⟩
  | .hbm, ⟨52, _⟩ => ⟨S_, .i32⟩
  | .hbm, ⟨53, _⟩ => ⟨S3000000, .i32⟩
  | .hbm, ⟨54, _⟩ => ⟨S3000000, .i1⟩
  | .hbm, ⟨55, _⟩ => ⟨S_, .i32⟩
  | .hbm, ⟨56, _⟩ => ⟨S3000000, .i32⟩
  | .hbm, ⟨57, _⟩ => ⟨S3000000, .i32⟩
  | .hbm, ⟨58, _⟩ => ⟨S3000000, .i32⟩
  | .hbm, ⟨59, _⟩ => ⟨S3000000x1, .i32⟩
  | .hbm, ⟨60, _⟩ => ⟨S3000000x64, .f32⟩
  | .hbm, ⟨61, _⟩ => ⟨S3000000x64, .f32⟩
  | .hbm, ⟨62, _⟩ => ⟨S3000000x64, .f32⟩
  | .hbm, ⟨63, _⟩ => ⟨S_, .f32⟩
  | .hbm, ⟨64, _⟩ => ⟨S150000x64, .f32⟩
  | .hbm, ⟨65, _⟩ => ⟨S3000000x1, .i32⟩
  | .hbm, ⟨66, _⟩ => ⟨S150000x64, .f32⟩
  | .hbm, ⟨67, _⟩ => ⟨S150000x64, .f32⟩
  | .hbm, ⟨68, _⟩ => ⟨S150000x64, .f32⟩
  | .local _ .vmem, ⟨0, _⟩ => ⟨S1000x1280, .f32⟩
  | .local _ .vmem, ⟨1, _⟩ => ⟨S1000x1280, .f32⟩
  | .local _ .vmem, ⟨2, _⟩ => ⟨S1000x64, .f32⟩
  | .local _ .vmem, ⟨3, _⟩ => ⟨S1000x64, .f32⟩
  | .local _ .vmem, ⟨4, _⟩ => ⟨S1280x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S1000x64, .f32⟩
  | .local _ .vmem, ⟨9, _⟩ => ⟨S1000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x64, .f32⟩
  | .local _ .vmem, ⟨17, _⟩ => ⟨S3000x64, .f32⟩
  | .local _ .vmem, ⟨18, _⟩ => ⟨S3000x64, .f32⟩
  | .local _ .vmem, ⟨19, _⟩ => ⟨S3000x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S3000x64, .f32⟩
  | .local _ .vmem, ⟨29, _⟩ => ⟨S3000x64, .f32⟩
  | .local _ .vmem, ⟨30, _⟩ => ⟨S3000x64, .f32⟩
  | .local _ .vmem, ⟨31, _⟩ => ⟨S3000x64, .f32⟩
  | .local _ .vmem, ⟨32, _⟩ => ⟨S3000x64, .f32⟩
  | .local _ .vmem, ⟨33, _⟩ => ⟨S3000x64, .f32⟩
  | .local _ .vmem, ⟨34, _⟩ => ⟨S3000x64, .f32⟩
  | .local _ .vmem, ⟨35, _⟩ => ⟨S3000x64, .f32⟩
  | .local _ .vmem, ⟨36, _⟩ => ⟨S3000x64, .f32⟩
  | .local _ .vmem, ⟨37, _⟩ => ⟨S3000x64, .f32⟩
  | .local _ .vmem, ⟨38, _⟩ => ⟨S3000x64, .f32⟩
  | .local _ .vmem, ⟨39, _⟩ => ⟨S3000x64, .f32⟩
  | .local _ .vmem, ⟨40, _⟩ => ⟨S3000x64, .f32⟩
  | .local _ .vmem, ⟨41, _⟩ => ⟨S3000x64, .f32⟩
  | .local _ .vmem, ⟨42, _⟩ => ⟨S3000x64, .f32⟩
  | .local _ .vmem, ⟨43, _⟩ => ⟨S3000x64, .f32⟩
  | _, _ => ⟨S50000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S3000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S3000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S3000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  shapeCasts_S256_S1x256 : S256.ShapeCasts S1x256
  shapeCasts_S64_S1x64 : S64.ShapeCasts S1x64
  inb_S1000x1280_S1000x1280_0_0 : ∀ a, (![0, 0] : Fin 2 → Nat) a + S1000x1280.size a ≤ S1000x1280.size a
  h_S1000x1280 : 0 < S1000x1280.numel
  bitsLt_bf16_f32 : FTy.bits .bf16 < FTy.bits .f32
  inb_S1280x256_S1280x256_0_0 : ∀ a, (![0, 0] : Fin 2 → Nat) a + S1280x256.size a ≤ S1280x256.size a
  h_S1280x256 : 0 < S1280x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  concatenates_S100000x64_S50000x64_S150000x64_d0 : Shape.Concatenates [S100000x64, S50000x64] S150000x64 0
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  reduces_S3000x64_S3000 : S3000x64.Reduces [1] S3000
  shapeCasts_S3000_S3000x1 : S3000.ShapeCasts S3000x1
  broadcasts_S3000x1_S3000x64 : S3000x1.Broadcasts S3000x64
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  dot_S1000x1280_S1280x256_S1000x256_1_0_0_1_n_n_wf : DotDims.WF S1000x1280 S1280x256 S1000x256 [1] [0] [0] [1] [] []
  dot_S1000x256_S256x64_S1000x64_1_0_0_1_n_n_wf : DotDims.WF S1000x256 S256x64 S1000x64 [1] [0] [0] [1] [] []
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1280.size a ≤ S50000x1280.size a
  hwx0_0 : ∀ i : grid0.Coords, EltTy.bits .f32 = 32 ∨ (Rect.block (s := S50000x1280) S1000x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S50000x64.size a
  hwx0_1 : ∀ i : grid0.Coords, EltTy.bits .f32 = 32 ∨ (Rect.block (s := S50000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S1280x256.size a
  hwx0_2 : ∀ i : grid0.Coords, EltTy.bits .f32 = 32 ∨ (Rect.block (s := S1280x256) S1280x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x64.size a ≤ S50000x64.size a
  hwx0_6 : ∀ i : grid0.Coords, EltTy.bits .f32 = 32 ∨ (Rect.block (s := S50000x64) S1000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S150000x64.size a
  hwx2_2 : ∀ i : grid2.Coords, EltTy.bits .f32 = 32 ∨ (Rect.block (s := S150000x64) S3000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x64.size a ≤ S150000x64.size a
  hwx2_3 : ∀ i : grid2.Coords, EltTy.bits .f32 = 32 ∨ (Rect.block (s := S150000x64) S3000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x64.size a ≤ S150000x64.size a
  hwx2_4 : ∀ i : grid2.Coords, EltTy.bits .f32 = 32 ∨ (Rect.block (s := S150000x64) S3000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x64.size a ≤ S150000x64.size a
  hwx3_0 : ∀ i : grid3.Coords, EltTy.bits .f32 = 32 ∨ (Rect.block (s := S150000x64) S3000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x64.size a ≤ S150000x64.size a
  hwx3_1 : ∀ i : grid3.Coords, EltTy.bits .f32 = 32 ∨ (Rect.block (s := S150000x64) S3000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x64.size a ≤ S150000x64.size a
  hwx3_2 : ∀ i : grid3.Coords, EltTy.bits .f32 = 32 ∨ (Rect.block (s := S150000x64) S3000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3000x64.size a ≤ S150000x64.size a
  hwx3_3 : ∀ i : grid3.Coords, EltTy.bits .f32 = 32 ∨ (Rect.block (s := S150000x64) S3000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S3000x64.size a ≤ S150000x64.size a
  hwx3_4 : ∀ i : grid3.Coords, EltTy.bits .f32 = 32 ∨ (Rect.block (s := S150000x64) S3000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3000x64.size a ≤ S150000x64.size a
  hwx4_0 : ∀ i : grid4.Coords, EltTy.bits .f32 = 32 ∨ (Rect.block (s := S150000x64) S3000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3000x64.size a ≤ S150000x64.size a
  hwx4_1 : ∀ i : grid4.Coords, EltTy.bits .f32 = 32 ∨ (Rect.block (s := S150000x64) S3000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3000x64.size a ≤ S150000x64.size a
  hwx4_2 : ∀ i : grid4.Coords, EltTy.bits .f32 = 32 ∨ (Rect.block (s := S150000x64) S3000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S3000x64.size a ≤ S150000x64.size a
  hwx4_3 : ∀ i : grid4.Coords, EltTy.bits .f32 = 32 ∨ (Rect.block (s := S150000x64) S3000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3000x64.size a ≤ S150000x64.size a
  hwx4_4 : ∀ i : grid4.Coords, EltTy.bits .f32 = 32 ∨ (Rect.block (s := S150000x64) S3000x64.size (cc4_transform_4 i) (hinb4_4 i)).WholeWords (EltTy.packing .f32)

variable [Facts₀]

def dot_S1000x1280_S1280x256_S1000x256_1_0_0_1_n_n : DotDims S1000x1280 S1280x256 S1000x256 where
  lhsContracting := [1]
  rhsContracting := [0]
  lhsNonContracting := [0]
  rhsNonContracting := [1]
  lhsBatch := []
  rhsBatch := []
  wf := dot_S1000x1280_S1280x256_S1000x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

abbrev win0_0 : Pipeline.Window sig grid0 :=
  Pipeline.Window.ofSpec (Memref.whole main_arg0) S1000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1280x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S3000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v17) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S3000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18_0) S3000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18_1) S3000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v31) S3000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S3000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18_1) S3000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32_0) S3000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v32_1) S3000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S3000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S3000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32_1) S3000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v46_0) S3000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v46_1) S3000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x1280 : Shape := ⟨2, ![50000, 1280]⟩
abbrev S50000x64 : Shape := ⟨2, ![50000, 64]⟩
abbrev S3000000 : Shape := ⟨1, ![3000000]⟩
abbrev S100000x64 : Shape := ⟨2, ![100000, 64]⟩
abbrev S1280x256 : Shape := ⟨2, ![1280, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S1x256 : Shape := ⟨2, ![1, 256]⟩
abbrev S_ : Shape := ⟨0, ![]⟩
abbrev S1x64 : Shape := ⟨2, ![1, 64]⟩
abbrev S150000x64 : Shape := ⟨2, ![150000, 64]⟩
abbrev S150000 : Shape := ⟨1, ![150000]⟩
abbrev S150000x1 : Shape := ⟨2, ![150000, 1]⟩
abbrev S3000000x1 : Shape := ⟨2, ![3000000, 1]⟩
abbrev S3000000x64 : Shape := ⟨2, ![3000000, 64]⟩

abbrev nBuf : Space → Nat
  | .hbm => 164
  | .vmem => 0
  | .smem => 0
  | _ => 0

abbrev hbmTy0_0 (i : Nat) : BufTy := match i % 128 with
  | 0 => ⟨S50000x1280, .f32⟩
  | 1 => ⟨S50000x64, .f32⟩
  | 2 => ⟨S3000000, .i32⟩
  | 3 => ⟨S3000000, .i32⟩
  | 4 => ⟨S3000000, .f32⟩
  | 5 => ⟨S100000x64, .f32⟩
  | 6 => ⟨S1280x256, .f32⟩
  | 7 => ⟨S256, .f32⟩
  | 8 => ⟨S256x64, .f32⟩
  | 9 => ⟨S64, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .i1⟩
  | 17 => ⟨S_, .f32⟩
  | 18 => ⟨S50000x256, .f32⟩
  | 19 => ⟨S50000x256, .f32⟩
  | 20 => ⟨S50000x256, .f32⟩
  | 21 => ⟨S50000x64, .f32⟩
  | 22 => ⟨S1x64, .f32⟩
  | 23 => ⟨S50000x64, .f32⟩
  | 24 => ⟨S50000x64, .f32⟩
  | 25 => ⟨S50000x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S50000x64, .f32⟩
  | 36 => ⟨S150000x64, .f32⟩
  | 37 => ⟨S150000x64, .f32⟩
  | 38 => ⟨S_, .f32⟩
  | 39 => ⟨S150000, .f32⟩
  | 40 => ⟨S150000x1, .f32⟩
  | 41 => ⟨S150000x1, .f32⟩
  | 42 => ⟨S_, .f32⟩
  | 43 => ⟨S150000x1, .f32⟩
  | 44 => ⟨S150000x1, .f32⟩
  | 45 => ⟨S150000x64, .f32⟩
  | 46 => ⟨S150000x64, .f32⟩
  | 47 => ⟨S3000000x1, .f32⟩
  | 48 => ⟨S_, .i32⟩
  | 49 => ⟨S3000000, .i32⟩
  | 50 => ⟨S3000000, .i1⟩
  | 51 => ⟨S_, .i32⟩
  | 52 => ⟨S3000000, .i32⟩
  | 53 => ⟨S3000000, .i32⟩
  | 54 => ⟨S3000000, .i32⟩
  | 55 => ⟨S3000000x1, .i32⟩
  | 56 => ⟨S3000000x64, .f32⟩
  | 57 => ⟨S3000000x64, .f32⟩
  | 58 => ⟨S3000000x64, .f32⟩
  | 59 => ⟨S_, .f32⟩
  | 60 => ⟨S150000x64, .f32⟩
  | 61 => ⟨S3000000x1, .i32⟩
  | 62 => ⟨S150000x64, .f32⟩
  | 63 => ⟨S150000x64, .f32⟩
  | 64 => ⟨S_, .f32⟩
  | 65 => ⟨S150000, .f32⟩
  | 66 => ⟨S150000, .f32⟩
  | 67 => ⟨S_, .f32⟩
  | 68 => ⟨S150000, .f32⟩
  | 69 => ⟨S150000, .f32⟩
  | 70 => ⟨S150000x64, .f32⟩
  | 71 => ⟨S_, .f32⟩
  | 72 => ⟨S150000, .f32⟩
  | 73 => ⟨S150000, .f32⟩
  | 74 => ⟨S_, .f32⟩
  | 75 => ⟨S150000, .f32⟩
  | 76 => ⟨S150000, .f32⟩
  | 77 => ⟨S150000x64, .f32⟩
  | 78 => ⟨S_, .f32⟩
  | 79 => ⟨S150000, .f32⟩
  | 80 => ⟨S150000, .f32⟩
  | 81 => ⟨S150000, .f32⟩
  | 82 => ⟨S150000x1, .f32⟩
  | 83 => ⟨S150000x64, .f32⟩
  | 84 => ⟨S150000x64, .f32⟩
  | 85 => ⟨S150000x64, .f32⟩
  | 86 => ⟨S3000000x1, .f32⟩
  | 87 => ⟨S_, .i32⟩
  | 88 => ⟨S3000000, .i32⟩
  | 89 => ⟨S3000000, .i1⟩
  | 90 => ⟨S_, .i32⟩
  | 91 => ⟨S3000000, .i32⟩
  | 92 => ⟨S3000000, .i32⟩
  | 93 => ⟨S3000000, .i32⟩
  | 94 => ⟨S3000000x1, .i32⟩
  | 95 => ⟨S3000000x64, .f32⟩
  | 96 => ⟨S3000000x64, .f32⟩
  | 97 => ⟨S3000000x64, .f32⟩
  | 98 => ⟨S_, .f32⟩
  | 99 => ⟨S150000x64, .f32⟩
  | 100 => ⟨S3000000x1, .i32⟩
  | 101 => ⟨S150000x64, .f32⟩
  | 102 => ⟨S150000x64, .f32⟩
  | 103 => ⟨S_, .f32⟩
  | 104 => ⟨S150000, .f32⟩
  | 105 => ⟨S150000, .f32⟩
  | 106 => ⟨S_, .f32⟩
  | 107 => ⟨S150000, .f32⟩
  | 108 => ⟨S150000, .f32⟩
  | 109 => ⟨S150000x64, .f32⟩
  | 110 => ⟨S_, .f32⟩
  | 111 => ⟨S150000, .f32⟩
  | 112 => ⟨S150000, .f32⟩
  | 113 => ⟨S_, .f32⟩
  | 114 => ⟨S150000, .f32⟩
  | 115 => ⟨S150000, .f32⟩
  | 116 => ⟨S150000x64, .f32⟩
  | 117 => ⟨S_, .f32⟩
  | 118 => ⟨S150000, .f32⟩
  | 119 => ⟨S150000, .f32⟩
  | 120 => ⟨S150000, .f32⟩
  | 121 => ⟨S150000x1, .f32⟩
  | 122 => ⟨S150000x64, .f32⟩
  | 123 => ⟨S150000x64, .f32⟩
  | 124 => ⟨S150000x64, .f32⟩
  | 125 => ⟨S3000000x1, .f32⟩
  | 126 => ⟨S_, .i32⟩
  | 127 => ⟨S3000000, .i32⟩
  | _ => ⟨S50000x1280, .f32⟩

abbrev hbmTy0_1 (i : Nat) : BufTy := match i % 128 with
  | 0 => ⟨S3000000, .i1⟩
  | 1 => ⟨S_, .i32⟩
  | 2 => ⟨S3000000, .i32⟩
  | 3 => ⟨S3000000, .i32⟩
  | 4 => ⟨S3000000, .i32⟩
  | 5 => ⟨S3000000x1, .i32⟩
  | 6 => ⟨S3000000x64, .f32⟩
  | 7 => ⟨S3000000x64, .f32⟩
  | 8 => ⟨S3000000x64, .f32⟩
  | 9 => ⟨S_, .f32⟩
  | 10 => ⟨S150000x64, .f32⟩
  | 11 => ⟨S3000000x1, .i32⟩
  | 12 => ⟨S150000x64, .f32⟩
  | 13 => ⟨S150000x64, .f32⟩
  | 14 => ⟨S_, .f32⟩
  | 15 => ⟨S150000, .f32⟩
  | 16 => ⟨S150000, .f32⟩
  | 17 => ⟨S_, .f32⟩
  | 18 => ⟨S150000, .f32⟩
  | 19 => ⟨S150000, .f32⟩
  | 20 => ⟨S150000x64, .f32⟩
  | 21 => ⟨S_, .f32⟩
  | 22 => ⟨S150000, .f32⟩
  | 23 => ⟨S150000, .f32⟩
  | 24 => ⟨S_, .f32⟩
  | 25 => ⟨S150000, .f32⟩
  | 26 => ⟨S150000, .f32⟩
  | 27 => ⟨S150000x64, .f32⟩
  | 28 => ⟨S_, .f32⟩
  | 29 => ⟨S150000, .f32⟩
  | 30 => ⟨S150000, .f32⟩
  | 31 => ⟨S150000, .f32⟩
  | 32 => ⟨S150000x1, .f32⟩
  | 33 => ⟨S150000x64, .f32⟩
  | 34 => ⟨S150000x64, .f32⟩
  | 35 => ⟨S150000x64, .f32⟩
  | _ => ⟨S50000x1280, .f32⟩

abbrev hbmTy (i : Nat) : BufTy := match i / 128 with
  | 0 => hbmTy0_0 i
  | 1 => hbmTy0_1 i
  | _ => ⟨S50000x1280, .f32⟩

abbrev bufTy : (tb : Table) → Fin (tcTables nBuf tb) → BufTy
  | .hbm, ⟨i, _⟩ => hbmTy i
  | _, _ => ⟨S50000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_20 : Ref sig .tc := ⟨.hbm, 126, rfl⟩
abbrev main_v94 : Ref sig .tc := ⟨.hbm, 127, rfl⟩
abbrev main_v95 : Ref sig .tc := ⟨.hbm, 128, rfl⟩
abbrev main_c_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_cst_24 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_25 : Ref sig .tc := ⟨.hbm, 149, rfl⟩
abbrev main_v112 : Ref sig .tc := ⟨.hbm, 150, rfl⟩
abbrev main_v113 : Ref sig .tc := ⟨.hbm, 151, rfl⟩
abbrev main_cst_26 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_27 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S100000x64_S50000x64_S150000x64_d0 : Shape.Concatenates [S100000x64, S50000x64] S150000x64 0
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  bcast_S_S150000 : S_.BroadcastsInDim S150000 (![] : Fin 0 → Fin S150000.rank)
  dot_S50000x1280_S1280x256_S50000x256_1_0_0_1_n_n_wf : DotDims.WF S50000x1280 S1280x256 S50000x256 [1] [0] [0] [1] [] []
  dot_S50000x256_S256x64_S50000x64_1_0_0_1_n_n_wf : DotDims.WF S50000x256 S256x64 S50000x64 [1] [0] [0] [1] [] []
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1

variable [Facts₀]

def dot_S50000x1280_S1280x256_S50000x256_1_0_0_1_n_n : DotDims S50000x1280 S1280x256 S50000x256 where
  lhsContracting := [1]
  rhsContracting := [0]
  lhsNonContracting := [0]
  rhsNonContracting := [1]
  lhsBatch := []
  rhsBatch := []
  wf := dot_S50000x1280_S1280x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

class Facts : Prop extends Facts₀ where

variable [Facts]
-- ==== Proof.BReg0.lean ====
/-
  The first kernel region (the item network: two dense layers on rows of a [50000, 1280] feature table, in 50
  blocks of 1000 rows), at any float instance and at any contents `V` of the core's buffers when the region is
  entered. A grid point reads a block of 1000 feature rows and of 1000 id-embedding rows and the whole of the
  two weight matrices and the two bias rows, and writes the block
  sqrt |(id^2 + (leaky(x W1 + b1) W2 + b2)^2) * 0.5 + 1e-8|, a function of those six blocks alone. The record says
  so point by point.
-/
import proofs.«120298_j9921374454291_1_alg».proof.Proof.Gen.Kernel.Launch
import proofs.«120298_j9921374454291_1_alg».proof.Proof.Gen.Kernel.Skeleton
import proofs.«120298_j9921374454291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: each a whole block -/

abbrev r0_0 : Rect S1000x1280 := Rect.unit (s := S1000x1280) ![0, 0] S1000x1280.size inb_S1000x1280_S1000x1280_0_0
abbrev r0_1 : Rect S1000x64 := Rect.unit (s := S1000x64) ![0, 0] S1000x64.size inb_S1000x64_S1000x64_0_0
abbrev r0_2 : Rect S1280x256 := Rect.unit (s := S1280x256) ![0, 0] S1280x256.size inb_S1280x256_S1280x256_0_0
abbrev r0_3 : Rect S1x256 := Rect.unit (s := S1x256) ![0, 0] S1x256.size inb_S1x256_S1x256_0_0
abbrev r0_4 : Rect S256x64 := Rect.unit (s := S256x64) ![0, 0] S256x64.size inb_S256x64_S256x64_0_0
abbrev r0_5 : Rect S1x64 := Rect.unit (s := S1x64) ![0, 0] S1x64.size inb_S1x64_S1x64_0_0
abbrev r0_6 : Rect S1000x64 := Rect.unit (s := S1000x64) ![0, 0] S1000x64.size inb_S1000x64_S1000x64_0_0

/-- What the body leaves in the output window's buffer: its one store. -/
def out0_6 (x0 : Vec F S1000x1280 .f32) (x1 : Vec F S1000x64 .f32) (x2 : Vec F S1280x256 .f32) (x3 : Vec F S1x256 .f32) (x4 : Vec F S256x64 .f32) (x5 : Vec F S1x64 .f32) : Vec F S1000x64 .f32 :=
  View.canon [⟨r0_6, k0_pay1 (View.ld x0 r0_0) (View.ld x2 r0_2) (View.ld x3 r0_3) (View.ld x4 r0_4) (View.ld x5 r0_5) (View.ld x1 r0_1)⟩]

/-- One store of the whole block covers the buffer. -/
theorem cover0 (p0 : Vec F S1000x64 .f32) (y : S1000x64.Idx) :
    ∃ pc ∈ ([⟨r0_6, p0⟩] : List (View.Piece (Elt F) S1000x64 .f32)), y ∈ pc.1.set :=
  View.cover_of_tiled [⟨r0_6, p0⟩] S1000x64.size (by rfl) y

/-! ## The body's triple -/

set_option maxHeartbeats 4000000 in
/-- The body on whole staging memrefs, the inputs' at contents `x0 … x5` and the output's at anything, ends with the
    inputs' unchanged and the output's at `out0_6 x0 … x5`. -/
theorem sound_kernel0 (c : Dev nD) (E : Set ℕ) (i : grid0.Coords)
    (arg0 : Memref sig .tc .vmem S1000x1280 .f32) (harg0 : arg0.IsWhole) (arg1 : Memref sig .tc .vmem S1000x64 .f32) (harg1 : arg1.IsWhole) (arg2 : Memref sig .tc .vmem S1280x256 .f32) (harg2 : arg2.IsWhole) (arg3 : Memref sig .tc .vmem S1x256 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x1280 .f32) (x1 : Vec F S1000x64 .f32) (x2 : Vec F S1280x256 .f32) (x3 : Vec F S1x256 .f32) (x4 : Vec F S256x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E (cc0__mlp_kernel i arg0 harg0 arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-! ## The region's proof data -/

/-- The arrays as the region finds them; after the body at point `t` each input's buffer at its block and the
    output's at the body's value over the six input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.BReg1.lean ====
/-
  The second kernel region (row-wise L2 normalisation of a [150000, 64] table in 50 blocks of 3000 rows), at
  any float instance and at any contents `V` of the core's buffers when the region is entered.
  Each grid point reads one block of 3000 rows and writes the block x / max(sqrt(sum_j x_j^2), 1e-12),
  a function of that block alone; the region's record says so point by point: what the input window's
  staging buffer holds before the body (the block), what the body leaves in the output window's buffer
  (the one store of the body's value over the block), and the body's triple.
-/
import proofs.«120298_j9921374454291_1_alg».proof.Proof.Gen.Kernel.Launch
import proofs.«120298_j9921374454291_1_alg».proof.Proof.Gen.Kernel.Skeleton
import proofs.«120298_j9921374454291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's one rectangle: the whole block -/

abbrev r1_0 : Rect S3000x64 := Rect.unit (s := S3000x64) ![0, 0] S3000x64.size inb_S3000x64_S3000x64_0_0

/-- What the body leaves in the output window's buffer: its one store, of the normalised block. -/
def out1_1 (x0 : Vec F S3000x64 .f32) : Vec F S3000x64 .f32 :=
  View.canon [⟨r1_0, k1_pay1 (View.ld x0 r1_0)⟩]

/-- The store covers the buffer. -/
theorem cover1_1 (p0 : Vec F S3000x64 .f32) (y : S3000x64.Idx) :
    ∃ pc ∈ ([⟨r1_0, p0⟩] : List (View.Piece (Elt F) S3000x64 .f32)), y ∈ pc.1.set :=
  View.cover_of_tiled [⟨r1_0, p0⟩] S3000x64.size (by rfl) y

/-! ## The body's triple -/

set_option maxHeartbeats 1000000 in
/-- The body on whole staging memrefs, the input's at contents `x0` and the output's at anything, ends with the
    input's unchanged and the output's at `out1_1 x0`. -/
theorem sound_kernel1 (c : Dev nD) (E : Set ℕ) (i : grid1.Coords) (arg0 : Memref sig .tc .vmem S3000x64 .f32) (harg0 : arg0.IsWhole) (arg1 : Memref sig .tc .vmem S3000x64 .f32) (harg1 : arg1.IsWhole)
    (x0 : Vec F S3000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__l2norm_kernel i arg0 harg0 arg1 harg1) K := by
  simp only [cc1__l2norm_kernel_eq_skeleton]; unfold cc1__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The region's proof data -/

/-- The arrays as the region finds them; after the body at point `t` the input's buffer at its block and the
    output's at the normalised block; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.BReg2.lean ====
/-
  A cosine-similarity reweighting region (region 2 of five), at any float instance and at any contents `V` of the
  core's buffers when the region is entered. Three input windows (the aggregated embeddings a, the
  normalised embeddings e, the running total s) and two output windows, all in 50 blocks of 3000 rows of
  [150000, 64]. At a grid point the body computes, row by row of its blocks,
  w = <a,e> / (max(|a|, 1e-8) * max(|e|, 1e-8)), stores a*w into the first output's block and s + a*w into the
  second's: both functions of the three blocks alone. The record says so point by point.
  In this region the second and the third input window read ONE array (the normalised embeddings are also
  the first running total), so each window holds half of that array's ownership: reading needs no more.
-/
import proofs.«120298_j9921374454291_1_alg».proof.Proof.Gen.Kernel.Launch
import proofs.«120298_j9921374454291_1_alg».proof.Proof.Gen.Kernel.Skeleton
import proofs.«120298_j9921374454291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one rectangle: a whole block -/

abbrev r2_0 : Rect S3000x64 := Rect.unit (s := S3000x64) ![0, 0] S3000x64.size inb_S3000x64_S3000x64_0_0

/-- What the body leaves in the first output window's buffer: its one store, of a*w. -/
def out2_3 (x0 x1 : Vec F S3000x64 .f32) : Vec F S3000x64 .f32 :=
  View.canon [⟨r2_0, k2_pay1 (View.ld x0 r2_0) (View.ld x1 r2_0)⟩]

/-- What the body leaves in the second output window's buffer: its one store, of s + a*w. -/
def out2_4 (x0 x1 x2 : Vec F S3000x64 .f32) : Vec F S3000x64 .f32 :=
  View.canon [⟨r2_0, k2_pay2 (View.ld x0 r2_0) (View.ld x1 r2_0) (View.ld x2 r2_0)⟩]

/-- One store of the whole block covers the buffer. -/
theorem cover2 (p0 : Vec F S3000x64 .f32) (y : S3000x64.Idx) :
    ∃ pc ∈ ([⟨r2_0, p0⟩] : List (View.Piece (Elt F) S3000x64 .f32)), y ∈ pc.1.set :=
  View.cover_of_tiled [⟨r2_0, p0⟩] S3000x64.size (by rfl) y

/-! ## The body's triple -/

set_option maxHeartbeats 2000000 in
/-- The body on whole staging memrefs, the inputs' at contents `x0 x1 x2` and the outputs' at anything, ends with the
    inputs' unchanged and the outputs' at `out2_3 x0 x1` and `out2_4 x0 x1 x2`. -/
theorem sound_kernel2 (c : Dev nD) (E : Set ℕ) (i : grid2.Coords) (arg0 : Memref sig .tc .vmem S3000x64 .f32) (harg0 : arg0.IsWhole) (arg1 : Memref sig .tc .vmem S3000x64 .f32) (harg1 : arg1.IsWhole)
    (arg2 : Memref sig .tc .vmem S3000x64 .f32) (harg2 : arg2.IsWhole) (arg3 : Memref sig .tc .vmem S3000x64 .f32) (harg3 : arg3.IsWhole) (arg4 : Memref sig .tc .vmem S3000x64 .f32) (harg4 : arg4.IsWhole)
    (x0 x1 x2 : Vec F S3000x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1) ∗ owns (c : Thread nD τ) arg4 fullShare (out2_4 x0 x1 x2)) -∗ K ⟨⟩))
      ⊢ wp frame (wpE (defs₀ (F := F)) Variants.none c none) E (cc2__reweight_kernel i arg0 harg0 arg1 harg1 arg2 harg2 arg3 harg3 arg4 harg4) K := by
  simp only [cc2__reweight_kernel_eq_skeleton]; unfold cc2__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-! ## The region's proof data -/

/-- The arrays as the region finds them; after the body at point `t` each input's buffer at its block and each
    output's at the body's value over the three input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q w := match w with
    | ⟨1, _⟩ => PosShare.left fullShare
    | ⟨2, _⟩ => PosShare.right fullShare
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.BReg3.lean ====
/-
  A cosine-similarity reweighting region (region 3 of five), at any float instance and at any contents `V` of the
  core's buffers when the region is entered. Three input windows (the aggregated embeddings a, the
  normalised embeddings e, the running total s) and two output windows, all in 50 blocks of 3000 rows of
  [150000, 64]. At a grid point the body computes, row by row of its blocks,
  w = <a,e> / (max(|a|, 1e-8) * max(|e|, 1e-8)), stores a*w into the first output's block and s + a*w into the
  second's: both functions of the three blocks alone. The record says so point by point.
-/
import proofs.«120298_j9921374454291_1_alg».proof.Proof.Gen.Kernel.Launch
import proofs.«120298_j9921374454291_1_alg».proof.Proof.Gen.Kernel.Skeleton
import proofs.«120298_j9921374454291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's one rectangle: a whole block -/

abbrev r3_0 : Rect S3000x64 := Rect.unit (s := S3000x64) ![0, 0] S3000x64.size inb_S3000x64_S3000x64_0_0

/-- What the body leaves in the first output window's buffer: its one store, of a*w. -/
def out3_3 (x0 x1 : Vec F S3000x64 .f32) : Vec F S3000x64 .f32 :=
  View.canon [⟨r3_0, k3_pay1 (View.ld x0 r3_0) (View.ld x1 r3_0)⟩]

/-- What the body leaves in the second output window's buffer: its one store, of s + a*w. -/
def out3_4 (x0 x1 x2 : Vec F S3000x64 .f32) : Vec F S3000x64 .f32 :=
  View.canon [⟨r3_0, k3_pay2 (View.ld x0 r3_0) (View.ld x1 r3_0) (View.ld x2 r3_0)⟩]

/-- One store of the whole block covers the buffer. -/
theorem cover3 (p0 : Vec F S3000x64 .f32) (y : S3000x64.Idx) :
    ∃ pc ∈ ([⟨r3_0, p0⟩] : List (View.Piece (Elt F) S3000x64 .f32)), y ∈ pc.1.set :=
  View.cover_of_tiled [⟨r3_0, p0⟩] S3000x64.size (by rfl) y

/-! ## The body's triple -/

set_option maxHeartbeats 2000000 in
/-- The body on whole staging memrefs, the inputs' at contents `x0 x1 x2` and the outputs' at anything, ends with the
    inputs' unchanged and the outputs' at `out3_3 x0 x1` and `out3_4 x0 x1 x2`. -/
theorem sound_kernel3 (c : Dev nD) (E : Set ℕ) (i : grid3.Coords) (arg0 : Memref sig .tc .vmem S3000x64 .f32) (harg0 : arg0.IsWhole) (arg1 : Memref sig .tc .vmem S3000x64 .f32) (harg1 : arg1.IsWhole)
    (arg2 : Memref sig .tc .vmem S3000x64 .f32) (harg2 : arg2.IsWhole) (arg3 : Memref sig .tc .vmem S3000x64 .f32) (harg3 : arg3.IsWhole) (arg4 : Memref sig .tc .vmem S3000x64 .f32) (harg4 : arg4.IsWhole)
    (x0 x1 x2 : Vec F S3000x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1) ∗ owns (c : Thread nD τ) arg4 fullShare (out3_4 x0 x1 x2)) -∗ K ⟨⟩))
      ⊢ wp frame (wpE (defs₀ (F := F)) Variants.none c none) E (cc3__reweight_kernel i arg0 harg0 arg1 harg1 arg2 harg2 arg3 harg3 arg4 harg4) K := by
  simp only [cc3__reweight_kernel_eq_skeleton]; unfold cc3__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-! ## The region's proof data -/

/-- The arrays as the region finds them; after the body at point `t` each input's buffer at its block and each
    output's at the body's value over the three input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.BReg4.lean ====
/-
  A cosine-similarity reweighting region (region 4 of five), at any float instance and at any contents `V` of the
  core's buffers when the region is entered. Three input windows (the aggregated embeddings a, the
  normalised embeddings e, the running total s) and two output windows, all in 50 blocks of 3000 rows of
  [150000, 64]. At a grid point the body computes, row by row of its blocks,
  w = <a,e> / (max(|a|, 1e-8) * max(|e|, 1e-8)), stores a*w into the first output's block and s + a*w into the
  second's: both functions of the three blocks alone. The record says so point by point.
-/
import proofs.«120298_j9921374454291_1_alg».proof.Proof.Gen.Kernel.Launch
import proofs.«120298_j9921374454291_1_alg».proof.Proof.Gen.Kernel.Skeleton
import proofs.«120298_j9921374454291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one rectangle: a whole block -/

abbrev r4_0 : Rect S3000x64 := Rect.unit (s := S3000x64) ![0, 0] S3000x64.size inb_S3000x64_S3000x64_0_0

/-- What the body leaves in the first output window's buffer: its one store, of a*w. -/
def out4_3 (x0 x1 : Vec F S3000x64 .f32) : Vec F S3000x64 .f32 :=
  View.canon [⟨r4_0, k4_pay1 (View.ld x0 r4_0) (View.ld x1 r4_0)⟩]

/-- What the body leaves in the second output window's buffer: its one store, of s + a*w. -/
def out4_4 (x0 x1 x2 : Vec F S3000x64 .f32) : Vec F S3000x64 .f32 :=
  View.canon [⟨r4_0, k4_pay2 (View.ld x0 r4_0) (View.ld x1 r4_0) (View.ld x2 r4_0)⟩]

/-- One store of the whole block covers the buffer. -/
theorem cover4 (p0 : Vec F S3000x64 .f32) (y : S3000x64.Idx) :
    ∃ pc ∈ ([⟨r4_0, p0⟩] : List (View.Piece (Elt F) S3000x64 .f32)), y ∈ pc.1.set :=
  View.cover_of_tiled [⟨r4_0, p0⟩] S3000x64.size (by rfl) y

/-! ## The body's triple -/

set_option maxHeartbeats 2000000 in
/-- The body on whole staging memrefs, the inputs' at contents `x0 x1 x2` and the outputs' at anything, ends with the
    inputs' unchanged and the outputs' at `out4_3 x0 x1` and `out4_4 x0 x1 x2`. -/
theorem sound_kernel4 (c : Dev nD) (E : Set ℕ) (i : grid4.Coords) (arg0 : Memref sig .tc .vmem S3000x64 .f32) (harg0 : arg0.IsWhole) (arg1 : Memref sig .tc .vmem S3000x64 .f32) (harg1 : arg1.IsWhole)
    (arg2 : Memref sig .tc .vmem S3000x64 .f32) (harg2 : arg2.IsWhole) (arg3 : Memref sig .tc .vmem S3000x64 .f32) (harg3 : arg3.IsWhole) (arg4 : Memref sig .tc .vmem S3000x64 .f32) (harg4 : arg4.IsWhole)
    (x0 x1 x2 : Vec F S3000x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1) ∗ owns (c : Thread nD τ) arg4 fullShare (out4_4 x0 x1 x2)) -∗ K ⟨⟩))
      ⊢ wp frame (wpE (defs₀ (F := F)) Variants.none c none) E (cc4__reweight_kernel i arg0 harg0 arg1 harg1 arg2 harg2 arg3 harg3 arg4 harg4) K := by
  simp only [cc4__reweight_kernel_eq_skeleton]; unfold cc4__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4 _)
  iexists _; isplitr
  swap; · iexact H4
  ipureintro
  exact View.read_writes_eq_canon _ _ _ (cover4 _)

/-! ## The region's proof data -/

/-- The arrays as the region finds them; after the body at point `t` each input's buffer at its block and each
    output's at the body's value over the three input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.BRun.lean ====
/-
  The whole run of the five-region program, at any float instance: the contents of every buffer the host
  can see at each boundary between a stretch of host operations and a kernel region, as a fold from the launch
  memory; each region's record over the thread state "every such buffer at the boundary's contents"; and the
  run: every weakly fair execution terminates without a fault, in a state whose buffers hold the last
  boundary's contents. Region 2 reads one array through two windows, so its entry splits that array's
  ownership into two halves and its exit joins them again (the two lemmas below the boundaries).
-/
import proofs.«120298_j9921374454291_1_alg».proof.Proof.BReg0
import proofs.«120298_j9921374454291_1_alg».proof.Proof.BReg1
import proofs.«120298_j9921374454291_1_alg».proof.Proof.BReg2
import proofs.«120298_j9921374454291_1_alg».proof.Proof.BReg3
import proofs.«120298_j9921374454291_1_alg».proof.Proof.BReg4

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the next stretch of host operations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the next stretch of host operations (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its two output arrays at what the pipeline leaves, every other buffer (its three inputs'
    two arrays among them) as entered. -/
def W6 (c : Dev nD) : Valuation τ sig (Elt F) :=
  Function.update (Function.update (W5 m ρ c) (Proc.devRef .tc main_v18_0) ((dat2 (V5 m ρ) c).arrAt 3 cfg2.N))
    (Proc.devRef .tc main_v18_1) ((dat2 (V5 m ρ) c).arrAt 4 cfg2.N)
abbrev V6 : (c : Dev nD) → (b : Ref sig .tc) → Buf (Elt F) ((c : Thread nD τ).loc b) := fun c b => W6 m ρ c b
theorem W6_of_ne (c : Dev nD) (b : Ref sig .tc) (h0 : b ≠ main_v18_0) (h1 : b ≠ main_v18_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
theorem hF2 (c : Dev nD) : ∀ w : Fin cfg2.W, (dat2 (V5 m ρ) c).arrAt w cfg2.N = V6 m ρ c (Pipeline.arrRef spec2 w)
  | ⟨0, _⟩ => (((dat2 (V5 m ρ) c).arrAt_in 0 rfl _).trans (A_eq2 (V5 m ρ) c 0)).trans (W6_of_ne m ρ c _ (by decide) (by decide)).symm
  | ⟨1, _⟩ => (((dat2 (V5 m ρ) c).arrAt_in 1 rfl _).trans (A_eq2 (V5 m ρ) c 1)).trans (W6_of_ne m ρ c _ (by decide) (by decide)).symm
  | ⟨2, _⟩ => (((dat2 (V5 m ρ) c).arrAt_in 2 rfl _).trans (A_eq2 (V5 m ρ) c 2)).trans (W6_of_ne m ρ c _ (by decide) (by decide)).symm
  | ⟨3, _⟩ => by
      show _ = W6 m ρ c (Proc.devRef .tc main_v18_0)
      unfold W6
      rw [Function.update_of_ne (StableHlo.devRef_ne_of_ne (by decide)), Function.update_self]
      rfl
  | ⟨4, _⟩ => by
      show _ = W6 m ρ c (Proc.devRef .tc main_v18_1)
      unfold W6
      rw [Function.update_self]
      rfl
theorem hrest2 (c : Dev nD) : ∀ b, b ∉ Finset.univ.image (Pipeline.arrRef spec2) → V6 m ρ c b = V5 m ρ c b :=
  fun b hb => W6_of_ne m ρ c b
    (fun e => hb (Finset.mem_image.mpr ⟨3, Finset.mem_univ _, e.symm⟩))
    (fun e => hb (Finset.mem_image.mpr ⟨4, Finset.mem_univ _, e.symm⟩))

/-- After the fourth stretch of host operations (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the next stretch of host operations (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## Region 2's arrays among the core's buffers: one array behind two windows -/

theorem share2_0 (V : (c : Dev nD) → (b : Ref sig .tc) → Buf (Elt F) ((c : Thread nD τ).loc b)) (c : Dev nD) : (dat2 V c).share 0 = fullShare := rfl
theorem share2_1 (V : (c : Dev nD) → (b : Ref sig .tc) → Buf (Elt F) ((c : Thread nD τ).loc b)) (c : Dev nD) : (dat2 V c).share 1 = PosShare.left fullShare := rfl
theorem share2_2 (V : (c : Dev nD) → (b : Ref sig .tc) → Buf (Elt F) ((c : Thread nD τ).loc b)) (c : Dev nD) : (dat2 V c).share 2 = PosShare.right fullShare := rfl
theorem share2_3 (V : (c : Dev nD) → (b : Ref sig .tc) → Buf (Elt F) ((c : Thread nD τ).loc b)) (c : Dev nD) : (dat2 V c).share 3 = fullShare := rfl
theorem share2_4 (V : (c : Dev nD) → (b : Ref sig .tc) → Buf (Elt F) ((c : Thread nD τ).loc b)) (c : Dev nD) : (dat2 V c).share 4 = fullShare := rfl

/-- The four buffers behind region 2's five windows. -/
theorem image2 : (Finset.univ.image (Pipeline.arrRef spec2) : Finset (Ref sig .tc)) = {main_v17, main_v4, main_v18_0, main_v18_1} := by decide

/-- Those four buffers, whole, one by one. -/
theorem arrBufs2_eq (c : Dev nD) (U : (b : Ref sig .tc) → Buf (Elt F) ((c.tc : Thread nD τ).loc b)) :
    (Pipeline.arrBufs spec2 c U : sProp 𝕄) = iprop((((c.tc : Thread nD τ).loc main_v17) ↦{fullShare} U main_v17) ∗ (((c.tc : Thread nD τ).loc main_v4) ↦{fullShare} U main_v4)
      ∗ (((c.tc : Thread nD τ).loc main_v18_0) ↦{fullShare} U main_v18_0) ∗ (((c.tc : Thread nD τ).loc main_v18_1) ↦{fullShare} U main_v18_1)) := by
  unfold Pipeline.arrBufs
  rw [image2, bigSep_insert (by decide), bigSep_insert (by decide), bigSep_insert (by decide), bigSep_singleton]
  rfl

/-- The four buffers whole at contents `U` are the five windows' arrays at `A`, when `A` reads `U` at each
    window's array: the shared array's ownership is its two halves. -/
theorem arrays2_iff (V : (c : Dev nD) → (b : Ref sig .tc) → Buf (Elt F) ((c : Thread nD τ).loc b)) (c : Dev nD)
    (U : (b : Ref sig .tc) → Buf (Elt F) ((c.tc : Thread nD τ).loc b))
    (A : (w : Fin cfg2.W) → Buf (Elt F) ((cfg2.win w).arr.view.loc (c.tc : Thread nD τ)))
    (hA : ∀ w, A w = U (Pipeline.arrRef spec2 w)) :
    ((dat2 V c).arrays A : sProp 𝕄) ⊣⊢ Pipeline.arrBufs spec2 c U := by
  unfold Dat.arrays
  rw [arrBufs2_eq, bigSep_W2,
    (arr_whole2 0).set_eq_univ, (arr_whole2 1).set_eq_univ, (arr_whole2 3).set_eq_univ, (arr_whole2 4).set_eq_univ,
    share2_0, share2_1, share2_2, share2_3, share2_4, hA 0, hA 1, hA 2, hA 3, hA 4]
  constructor
  · iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · iintro ⟨H0, H12, H3, H4⟩
    ihave H := (pointsTo_share (PosShare.mem_left_op_right fullShare)).1 $$ H12
    icases H with ⟨H1, H2⟩
    isplitl [H0]; · iexact H0
    isplitl [H1]; · iexact H1
    isplitl [H2]; · iexact H2
    isplitl [H3]; · iexact H3
    iexact H4

/-! ## The proof data family and the thread state -/

/-- No pallas_call has a prefetched table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; the array its second
    and third window share enters as two halves and leaves joined. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit : (unscopedBufs c (V5 m ρ c) : sProp 𝕄) ⊢ iprop((pdats m ρ 2 c).arrays ((pdats m ρ 2 c).arrAt · 0) ∗ Pipeline.unscopedRest spec2 c (V5 m ρ c)) := by
      rw [Pipeline.unscopedBufs_split₀ (Ix := Unit) (Name := ℕ) (U := UR sig nD τ) (Lvl := ℕ) cfgs 2 winFacts₀2.arr_unscoped c (V5 m ρ c)]
      exact sep_mono (arrays2_iff (V5 m ρ) c (V5 m ρ c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V5 m ρ c)) ⊢ (unscopedBufs c (V6 m ρ c) : sProp 𝕄) := by
      rw [Pipeline.unscopedBufs_split₀ (Ix := Unit) (Name := ℕ) (U := UR sig nD τ) (Lvl := ℕ) cfgs 2 winFacts₀2.arr_unscoped c (V6 m ρ c)]
      refine sep_mono (arrays2_iff (V5 m ρ) c (V6 m ρ c) _ (hF2 m ρ c)).1 (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- @main's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each buffer the host can see holds the last boundary's contents `W10`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Reg

end
-- ==== Proof.BKeep.lean ====
/-
  What each stretch of host operations and each kernel region leaves alone: a buffer that a stretch does not write,
  or that is not an output of a region, holds after it what it held before. Hence every argument array ends the run
  holding its launch contents (no operation writes one, and a region only reads it through an input window), which
  is the program's frame.
-/
import proofs.«120298_j9921374454291_1_alg».proof.Proof.BRun
import proofs.«120298_j9921374454291_1_alg».proof.Proof.Gen.Kernel.Regions

set_option maxRecDepth 16384

noncomputable section

namespace Cert.Kernel.Reg

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-- The stretch of host operations writes its own results only. -/
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h

/-- Region 0 changes its output only: every other buffer keeps its contents. -/
theorem W2_keep (c : Dev nD) (b : Ref sig .tc) (h0 : b ≠ main_v2) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact ((dat0 (V1 m ρ) c).arrAt_in 3 rfl _).trans (A_eq0 (V1 m ρ) c 3)
    | ⟨4, _⟩ => exact ((dat0 (V1 m ρ) c).arrAt_in 4 rfl _).trans (A_eq0 (V1 m ρ) c 4)
    | ⟨5, _⟩ => exact ((dat0 (V1 m ρ) c).arrAt_in 5 rfl _).trans (A_eq0 (V1 m ρ) c 5)
    | ⟨6, _⟩ => exact absurd rfl h0
  · exact W2_of_ne m ρ c b fun w e => h ⟨w, e⟩

/-- The stretch of host operations writes its own results only. -/
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h

/-- Region 1 changes its output only: every other buffer keeps its contents. -/
theorem W4_keep (c : Dev nD) (b : Ref sig .tc) (h0 : b ≠ main_v4) :
    W4 m ρ c (Proc.devRef .tc b) = W3 m ρ c (Proc.devRef .tc b) := by
  by_cases h : ∃ w, Pipeline.arrRef spec1 w = b
  · obtain ⟨w, rfl⟩ := h
    rw [W4_arr]
    match w with
    | ⟨0, _⟩ => exact ((dat1 (V3 m ρ) c).arrAt_in 0 rfl _).trans (A_eq1 (V3 m ρ) c 0)
    | ⟨1, _⟩ => exact absurd rfl h0
  · exact W4_of_ne m ρ c b fun w e => h ⟨w, e⟩

/-- The stretch of host operations writes its own results only. -/
theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h

/-- The stretch of host operations writes its own results only. -/
theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h

/-- Region 3 changes its outputs only: every other buffer keeps its contents. -/
theorem W8_keep (c : Dev nD) (b : Ref sig .tc) (h0 : b ≠ main_v32_0) (h1 : b ≠ main_v32_1) :
    W8 m ρ c (Proc.devRef .tc b) = W7 m ρ c (Proc.devRef .tc b) := by
  by_cases h : ∃ w, Pipeline.arrRef spec3 w = b
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact absurd rfl h0
    | ⟨4, _⟩ => exact absurd rfl h1
  · exact W8_of_ne m ρ c b fun w e => h ⟨w, e⟩

/-- The stretch of host operations writes its own results only. -/
theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h

/-- Region 4 changes its outputs only: every other buffer keeps its contents. -/
theorem W10_keep (c : Dev nD) (b : Ref sig .tc) (h0 : b ≠ main_v46_0) (h1 : b ≠ main_v46_1) :
    W10 m ρ c (Proc.devRef .tc b) = W9 m ρ c (Proc.devRef .tc b) := by
  by_cases h : ∃ w, Pipeline.arrRef spec4 w = b
  · obtain ⟨w, rfl⟩ := h
    rw [W10_arr]
    match w with
    | ⟨0, _⟩ => exact ((dat4 (V9 m ρ) c).arrAt_in 0 rfl _).trans (A_eq4 (V9 m ρ) c 0)
    | ⟨1, _⟩ => exact ((dat4 (V9 m ρ) c).arrAt_in 1 rfl _).trans (A_eq4 (V9 m ρ) c 1)
    | ⟨2, _⟩ => exact ((dat4 (V9 m ρ) c).arrAt_in 2 rfl _).trans (A_eq4 (V9 m ρ) c 2)
    | ⟨3, _⟩ => exact absurd rfl h0
    | ⟨4, _⟩ => exact absurd rfl h1
  · exact W10_of_ne m ρ c b fun w e => h ⟨w, e⟩

/-! ## The arguments end as launched -/

/-- Argument 0 reaches the end as launched. -/
theorem W10_main_arg0 (c : Dev nD) : W10 m ρ c (Proc.devRef .tc main_arg0) = m ((c : Thread nD τ).loc main_arg0) :=
  (W10_keep m ρ c main_arg0 (by decide) (by decide)).trans <| (W9_keep m ρ c main_arg0 (by decide)).trans <| (W8_keep m ρ c main_arg0 (by decide) (by decide)).trans <|
  (W7_keep m ρ c main_arg0 (by decide)).trans <| (W6_of_ne m ρ c main_arg0 (by decide) (by decide)).trans <| (W5_keep m ρ c main_arg0 (by decide)).trans <|
  (W4_keep m ρ c main_arg0 (by decide)).trans <| (W3_keep m ρ c main_arg0 (by decide)).trans <| (W2_keep m ρ c main_arg0 (by decide)).trans <|
  (W1_keep m ρ c main_arg0 (by decide)).trans rfl

/-- Argument 1 reaches the end as launched. -/
theorem W10_main_arg1 (c : Dev nD) : W10 m ρ c (Proc.devRef .tc main_arg1) = m ((c : Thread nD τ).loc main_arg1) :=
  (W10_keep m ρ c main_arg1 (by decide) (by decide)).trans <| (W9_keep m ρ c main_arg1 (by decide)).trans <| (W8_keep m ρ c main_arg1 (by decide) (by decide)).trans <|
  (W7_keep m ρ c main_arg1 (by decide)).trans <| (W6_of_ne m ρ c main_arg1 (by decide) (by decide)).trans <| (W5_keep m ρ c main_arg1 (by decide)).trans <|
  (W4_keep m ρ c main_arg1 (by decide)).trans <| (W3_keep m ρ c main_arg1 (by decide)).trans <| (W2_keep m ρ c main_arg1 (by decide)).trans <|
  (W1_keep m ρ c main_arg1 (by decide)).trans rfl

/-- Argument 2 reaches the end as launched. -/
theorem W10_main_arg2 (c : Dev nD) : W10 m ρ c (Proc.devRef .tc main_arg2) = m ((c : Thread nD τ).loc main_arg2) :=
  (W10_keep m ρ c main_arg2 (by decide) (by decide)).trans <| (W9_keep m ρ c main_arg2 (by decide)).trans <| (W8_keep m ρ c main_arg2 (by decide) (by decide)).trans <|
  (W7_keep m ρ c main_arg2 (by decide)).trans <| (W6_of_ne m ρ c main_arg2 (by decide) (by decide)).trans <| (W5_keep m ρ c main_arg2 (by decide)).trans <|
  (W4_keep m ρ c main_arg2 (by decide)).trans <| (W3_keep m ρ c main_arg2 (by decide)).trans <| (W2_keep m ρ c main_arg2 (by decide)).trans <|
  (W1_keep m ρ c main_arg2 (by decide)).trans rfl

/-- Argument 3 reaches the end as launched. -/
theorem W10_main_arg3 (c : Dev nD) : W10 m ρ c (Proc.devRef .tc main_arg3) = m ((c : Thread nD τ).loc main_arg3) :=
  (W10_keep m ρ c main_arg3 (by decide) (by decide)).trans <| (W9_keep m ρ c main_arg3 (by decide)).trans <| (W8_keep m ρ c main_arg3 (by decide) (by decide)).trans <|
  (W7_keep m ρ c main_arg3 (by decide)).trans <| (W6_of_ne m ρ c main_arg3 (by decide) (by decide)).trans <| (W5_keep m ρ c main_arg3 (by decide)).trans <|
  (W4_keep m ρ c main_arg3 (by decide)).trans <| (W3_keep m ρ c main_arg3 (by decide)).trans <| (W2_keep m ρ c main_arg3 (by decide)).trans <|
  (W1_keep m ρ c main_arg3 (by decide)).trans rfl

/-- Argument 4 reaches the end as launched. -/
theorem W10_main_arg4 (c : Dev nD) : W10 m ρ c (Proc.devRef .tc main_arg4) = m ((c : Thread nD τ).loc main_arg4) :=
  (W10_keep m ρ c main_arg4 (by decide) (by decide)).trans <| (W9_keep m ρ c main_arg4 (by decide)).trans <| (W8_keep m ρ c main_arg4 (by decide) (by decide)).trans <|
  (W7_keep m ρ c main_arg4 (by decide)).trans <| (W6_of_ne m ρ c main_arg4 (by decide) (by decide)).trans <| (W5_keep m ρ c main_arg4 (by decide)).trans <|
  (W4_keep m ρ c main_arg4 (by decide)).trans <| (W3_keep m ρ c main_arg4 (by decide)).trans <| (W2_keep m ρ c main_arg4 (by decide)).trans <|
  (W1_keep m ρ c main_arg4 (by decide)).trans rfl

/-- Argument 5 reaches the end as launched. -/
theorem W10_main_arg5 (c : Dev nD) : W10 m ρ c (Proc.devRef .tc main_arg5) = m ((c : Thread nD τ).loc main_arg5) :=
  (W10_keep m ρ c main_arg5 (by decide) (by decide)).trans <| (W9_keep m ρ c main_arg5 (by decide)).trans <| (W8_keep m ρ c main_arg5 (by decide) (by decide)).trans <|
  (W7_keep m ρ c main_arg5 (by decide)).trans <| (W6_of_ne m ρ c main_arg5 (by decide) (by decide)).trans <| (W5_keep m ρ c main_arg5 (by decide)).trans <|
  (W4_keep m ρ c main_arg5 (by decide)).trans <| (W3_keep m ρ c main_arg5 (by decide)).trans <| (W2_keep m ρ c main_arg5 (by decide)).trans <|
  (W1_keep m ρ c main_arg5 (by decide)).trans rfl

/-- Argument 6 reaches the end as launched. -/
theorem W10_main_arg6 (c : Dev nD) : W10 m ρ c (Proc.devRef .tc main_arg6) = m ((c : Thread nD τ).loc main_arg6) :=
  (W10_keep m ρ c main_arg6 (by decide) (by decide)).trans <| (W9_keep m ρ c main_arg6 (by decide)).trans <| (W8_keep m ρ c main_arg6 (by decide) (by decide)).trans <|
  (W7_keep m ρ c main_arg6 (by decide)).trans <| (W6_of_ne m ρ c main_arg6 (by decide) (by decide)).trans <| (W5_keep m ρ c main_arg6 (by decide)).trans <|
  (W4_keep m ρ c main_arg6 (by decide)).trans <| (W3_keep m ρ c main_arg6 (by decide)).trans <| (W2_keep m ρ c main_arg6 (by decide)).trans <|
  (W1_keep m ρ c main_arg6 (by decide)).trans rfl

/-- Argument 7 reaches the end as launched. -/
theorem W10_main_arg7 (c : Dev nD) : W10 m ρ c (Proc.devRef .tc main_arg7) = m ((c : Thread nD τ).loc main_arg7) :=
  (W10_keep m ρ c main_arg7 (by decide) (by decide)).trans <| (W9_keep m ρ c main_arg7 (by decide)).trans <| (W8_keep m ρ c main_arg7 (by decide) (by decide)).trans <|
  (W7_keep m ρ c main_arg7 (by decide)).trans <| (W6_of_ne m ρ c main_arg7 (by decide) (by decide)).trans <| (W5_keep m ρ c main_arg7 (by decide)).trans <|
  (W4_keep m ρ c main_arg7 (by decide)).trans <| (W3_keep m ρ c main_arg7 (by decide)).trans <| (W2_keep m ρ c main_arg7 (by decide)).trans <|
  (W1_keep m ρ c main_arg7 (by decide)).trans rfl

/-- Argument 8 reaches the end as launched. -/
theorem W10_main_arg8 (c : Dev nD) : W10 m ρ c (Proc.devRef .tc main_arg8) = m ((c : Thread nD τ).loc main_arg8) :=
  (W10_keep m ρ c main_arg8 (by decide) (by decide)).trans <| (W9_keep m ρ c main_arg8 (by decide)).trans <| (W8_keep m ρ c main_arg8 (by decide) (by decide)).trans <|
  (W7_keep m ρ c main_arg8 (by decide)).trans <| (W6_of_ne m ρ c main_arg8 (by decide) (by decide)).trans <| (W5_keep m ρ c main_arg8 (by decide)).trans <|
  (W4_keep m ρ c main_arg8 (by decide)).trans <| (W3_keep m ρ c main_arg8 (by decide)).trans <| (W2_keep m ρ c main_arg8 (by decide)).trans <|
  (W1_keep m ρ c main_arg8 (by decide)).trans rfl

/-- Argument 9 reaches the end as launched. -/
theorem W10_main_arg9 (c : Dev nD) : W10 m ρ c (Proc.devRef .tc main_arg9) = m ((c : Thread nD τ).loc main_arg9) :=
  (W10_keep m ρ c main_arg9 (by decide) (by decide)).trans <| (W9_keep m ρ c main_arg9 (by decide)).trans <| (W8_keep m ρ c main_arg9 (by decide) (by decide)).trans <|
  (W7_keep m ρ c main_arg9 (by decide)).trans <| (W6_of_ne m ρ c main_arg9 (by decide) (by decide)).trans <| (W5_keep m ρ c main_arg9 (by decide)).trans <|
  (W4_keep m ρ c main_arg9 (by decide)).trans <| (W3_keep m ρ c main_arg9 (by decide)).trans <| (W2_keep m ρ c main_arg9 (by decide)).trans <|
  (W1_keep m ρ c main_arg9 (by decide)).trans rfl

/-- The frame: every weakly fair execution terminates, nothing faulting, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c)⟩)
    (run_main m ρ)

end Cert.Kernel.Reg

end
-- ==== Proof.IReg0.lean ====
/-
  The first kernel region (the item network: two dense layers on rows of a [50000, 1280] feature table, in 50
  blocks of 1000 rows), at any float instance and at any contents `V` of the core's buffers when the region is
  entered. A grid point reads a block of 1000 feature rows and of 1000 id-embedding rows and the whole of the
  two weight matrices and the two bias rows, and writes the block
  sqrt |(id^2 + (leaky(x W1 + b1) W2 + b2)^2) * 0.5 + 1e-8|, a function of those six blocks alone. The record says
  so point by point.
-/
import proofs.«120298_j9921374454291_1_alg».proof.Proof.Gen.KernelIdeal.Launch
import proofs.«120298_j9921374454291_1_alg».proof.Proof.Gen.KernelIdeal.Skeleton
import proofs.«120298_j9921374454291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: each a whole block -/

abbrev r0_0 : Rect S1000x1280 := Rect.unit (s := S1000x1280) ![0, 0] S1000x1280.size inb_S1000x1280_S1000x1280_0_0
abbrev r0_1 : Rect S1000x64 := Rect.unit (s := S1000x64) ![0, 0] S1000x64.size inb_S1000x64_S1000x64_0_0
abbrev r0_2 : Rect S1280x256 := Rect.unit (s := S1280x256) ![0, 0] S1280x256.size inb_S1280x256_S1280x256_0_0
abbrev r0_3 : Rect S1x256 := Rect.unit (s := S1x256) ![0, 0] S1x256.size inb_S1x256_S1x256_0_0
abbrev r0_4 : Rect S256x64 := Rect.unit (s := S256x64) ![0, 0] S256x64.size inb_S256x64_S256x64_0_0
abbrev r0_5 : Rect S1x64 := Rect.unit (s := S1x64) ![0, 0] S1x64.size inb_S1x64_S1x64_0_0
abbrev r0_6 : Rect S1000x64 := Rect.unit (s := S1000x64) ![0, 0] S1000x64.size inb_S1000x64_S1000x64_0_0

/-- What the body leaves in the output window's buffer: its one store. -/
def out0_6 (x0 : Vec F S1000x1280 .f32) (x1 : Vec F S1000x64 .f32) (x2 : Vec F S1280x256 .f32) (x3 : Vec F S1x256 .f32) (x4 : Vec F S256x64 .f32) (x5 : Vec F S1x64 .f32) : Vec F S1000x64 .f32 :=
  View.canon [⟨r0_6, k0_pay1 (View.ld x0 r0_0) (View.ld x2 r0_2) (View.ld x3 r0_3) (View.ld x4 r0_4) (View.ld x5 r0_5) (View.ld x1 r0_1)⟩]

/-- One store of the whole block covers the buffer. -/
theorem cover0 (p0 : Vec F S1000x64 .f32) (y : S1000x64.Idx) :
    ∃ pc ∈ ([⟨r0_6, p0⟩] : List (View.Piece (Elt F) S1000x64 .f32)), y ∈ pc.1.set :=
  View.cover_of_tiled [⟨r0_6, p0⟩] S1000x64.size (by rfl) y

/-! ## The body's triple -/

set_option maxHeartbeats 4000000 in
/-- The body on whole staging memrefs, the inputs' at contents `x0 … x5` and the output's at anything, ends with the
    inputs' unchanged and the output's at `out0_6 x0 … x5`. -/
theorem sound_kernel0 (c : Dev nD) (E : Set ℕ) (i : grid0.Coords)
    (arg0 : Memref sig .tc .vmem S1000x1280 .f32) (harg0 : arg0.IsWhole) (arg1 : Memref sig .tc .vmem S1000x64 .f32) (harg1 : arg1.IsWhole) (arg2 : Memref sig .tc .vmem S1280x256 .f32) (harg2 : arg2.IsWhole) (arg3 : Memref sig .tc .vmem S1x256 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x1280 .f32) (x1 : Vec F S1000x64 .f32) (x2 : Vec F S1280x256 .f32) (x3 : Vec F S1x256 .f32) (x4 : Vec F S256x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E (cc0__mlp_kernel i arg0 harg0 arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-! ## The region's proof data -/

/-- The arrays as the region finds them; after the body at point `t` each input's buffer at its block and the
    output's at the body's value over the six input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.IReg1.lean ====
/-
  The second kernel region (row-wise L2 normalisation of a [150000, 64] table in 50 blocks of 3000 rows), at
  any float instance and at any contents `V` of the core's buffers when the region is entered.
  Each grid point reads one block of 3000 rows and writes the block x / max(sqrt(sum_j x_j^2), 1e-12),
  a function of that block alone; the region's record says so point by point: what the input window's
  staging buffer holds before the body (the block), what the body leaves in the output window's buffer
  (the one store of the body's value over the block), and the body's triple.
-/
import proofs.«120298_j9921374454291_1_alg».proof.Proof.Gen.KernelIdeal.Launch
import proofs.«120298_j9921374454291_1_alg».proof.Proof.Gen.KernelIdeal.Skeleton
import proofs.«120298_j9921374454291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's one rectangle: the whole block -/

abbrev r1_0 : Rect S3000x64 := Rect.unit (s := S3000x64) ![0, 0] S3000x64.size inb_S3000x64_S3000x64_0_0

/-- What the body leaves in the output window's buffer: its one store, of the normalised block. -/
def out1_1 (x0 : Vec F S3000x64 .f32) : Vec F S3000x64 .f32 :=
  View.canon [⟨r1_0, k1_pay1 (View.ld x0 r1_0)⟩]

/-- The store covers the buffer. -/
theorem cover1_1 (p0 : Vec F S3000x64 .f32) (y : S3000x64.Idx) :
    ∃ pc ∈ ([⟨r1_0, p0⟩] : List (View.Piece (Elt F) S3000x64 .f32)), y ∈ pc.1.set :=
  View.cover_of_tiled [⟨r1_0, p0⟩] S3000x64.size (by rfl) y

/-! ## The body's triple -/

set_option maxHeartbeats 1000000 in
/-- The body on whole staging memrefs, the input's at contents `x0` and the output's at anything, ends with the
    input's unchanged and the output's at `out1_1 x0`. -/
theorem sound_kernel1 (c : Dev nD) (E : Set ℕ) (i : grid1.Coords) (arg0 : Memref sig .tc .vmem S3000x64 .f32) (harg0 : arg0.IsWhole) (arg1 : Memref sig .tc .vmem S3000x64 .f32) (harg1 : arg1.IsWhole)
    (x0 : Vec F S3000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__l2norm_kernel i arg0 harg0 arg1 harg1) K := by
  simp only [cc1__l2norm_kernel_eq_skeleton]; unfold cc1__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The region's proof data -/

/-- The arrays as the region finds them; after the body at point `t` the input's buffer at its block and the
    output's at the normalised block; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.IReg2.lean ====
/-
  A cosine-similarity reweighting region (region 2 of five), at any float instance and at any contents `V` of the
  core's buffers when the region is entered. Three input windows (the aggregated embeddings a, the
  normalised embeddings e, the running total s) and two output windows, all in 50 blocks of 3000 rows of
  [150000, 64]. At a grid point the body computes, row by row of its blocks,
  w = <a,e> / (max(|a|, 1e-8) * max(|e|, 1e-8)), stores a*w into the first output's block and s + a*w into the
  second's: both functions of the three blocks alone. The record says so point by point.
  In this region the second and the third input window read ONE array (the normalised embeddings are also
  the first running total), so each window holds half of that array's ownership: reading needs no more.
-/
import proofs.«120298_j9921374454291_1_alg».proof.Proof.Gen.KernelIdeal.Launch
import proofs.«120298_j9921374454291_1_alg».proof.Proof.Gen.KernelIdeal.Skeleton
import proofs.«120298_j9921374454291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one rectangle: a whole block -/

abbrev r2_0 : Rect S3000x64 := Rect.unit (s := S3000x64) ![0, 0] S3000x64.size inb_S3000x64_S3000x64_0_0

/-- What the body leaves in the first output window's buffer: its one store, of a*w. -/
def out2_3 (x0 x1 : Vec F S3000x64 .f32) : Vec F S3000x64 .f32 :=
  View.canon [⟨r2_0, k2_pay1 (View.ld x0 r2_0) (View.ld x1 r2_0)⟩]

/-- What the body leaves in the second output window's buffer: its one store, of s + a*w. -/
def out2_4 (x0 x1 x2 : Vec F S3000x64 .f32) : Vec F S3000x64 .f32 :=
  View.canon [⟨r2_0, k2_pay2 (View.ld x0 r2_0) (View.ld x1 r2_0) (View.ld x2 r2_0)⟩]

/-- One store of the whole block covers the buffer. -/
theorem cover2 (p0 : Vec F S3000x64 .f32) (y : S3000x64.Idx) :
    ∃ pc ∈ ([⟨r2_0, p0⟩] : List (View.Piece (Elt F) S3000x64 .f32)), y ∈ pc.1.set :=
  View.cover_of_tiled [⟨r2_0, p0⟩] S3000x64.size (by rfl) y

/-! ## The body's triple -/

set_option maxHeartbeats 2000000 in
/-- The body on whole staging memrefs, the inputs' at contents `x0 x1 x2` and the outputs' at anything, ends with the
    inputs' unchanged and the outputs' at `out2_3 x0 x1` and `out2_4 x0 x1 x2`. -/
theorem sound_kernel2 (c : Dev nD) (E : Set ℕ) (i : grid2.Coords) (arg0 : Memref sig .tc .vmem S3000x64 .f32) (harg0 : arg0.IsWhole) (arg1 : Memref sig .tc .vmem S3000x64 .f32) (harg1 : arg1.IsWhole)
    (arg2 : Memref sig .tc .vmem S3000x64 .f32) (harg2 : arg2.IsWhole) (arg3 : Memref sig .tc .vmem S3000x64 .f32) (harg3 : arg3.IsWhole) (arg4 : Memref sig .tc .vmem S3000x64 .f32) (harg4 : arg4.IsWhole)
    (x0 x1 x2 : Vec F S3000x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1) ∗ owns (c : Thread nD τ) arg4 fullShare (out2_4 x0 x1 x2)) -∗ K ⟨⟩))
      ⊢ wp frame (wpE (defs₀ (F := F)) Variants.none c none) E (cc2__reweight_kernel i arg0 harg0 arg1 harg1 arg2 harg2 arg3 harg3 arg4 harg4) K := by
  simp only [cc2__reweight_kernel_eq_skeleton]; unfold cc2__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-! ## The region's proof data -/

/-- The arrays as the region finds them; after the body at point `t` each input's buffer at its block and each
    output's at the body's value over the three input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q w := match w with
    | ⟨1, _⟩ => PosShare.left fullShare
    | ⟨2, _⟩ => PosShare.right fullShare
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.IReg3.lean ====
/-
  A cosine-similarity reweighting region (region 3 of five), at any float instance and at any contents `V` of the
  core's buffers when the region is entered. Three input windows (the aggregated embeddings a, the
  normalised embeddings e, the running total s) and two output windows, all in 50 blocks of 3000 rows of
  [150000, 64]. At a grid point the body computes, row by row of its blocks,
  w = <a,e> / (max(|a|, 1e-8) * max(|e|, 1e-8)), stores a*w into the first output's block and s + a*w into the
  second's: both functions of the three blocks alone. The record says so point by point.
-/
import proofs.«120298_j9921374454291_1_alg».proof.Proof.Gen.KernelIdeal.Launch
import proofs.«120298_j9921374454291_1_alg».proof.Proof.Gen.KernelIdeal.Skeleton
import proofs.«120298_j9921374454291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's one rectangle: a whole block -/

abbrev r3_0 : Rect S3000x64 := Rect.unit (s := S3000x64) ![0, 0] S3000x64.size inb_S3000x64_S3000x64_0_0

/-- What the body leaves in the first output window's buffer: its one store, of a*w. -/
def out3_3 (x0 x1 : Vec F S3000x64 .f32) : Vec F S3000x64 .f32 :=
  View.canon [⟨r3_0, k3_pay1 (View.ld x0 r3_0) (View.ld x1 r3_0)⟩]

/-- What the body leaves in the second output window's buffer: its one store, of s + a*w. -/
def out3_4 (x0 x1 x2 : Vec F S3000x64 .f32) : Vec F S3000x64 .f32 :=
  View.canon [⟨r3_0, k3_pay2 (View.ld x0 r3_0) (View.ld x1 r3_0) (View.ld x2 r3_0)⟩]

/-- One store of the whole block covers the buffer. -/
theorem cover3 (p0 : Vec F S3000x64 .f32) (y : S3000x64.Idx) :
    ∃ pc ∈ ([⟨r3_0, p0⟩] : List (View.Piece (Elt F) S3000x64 .f32)), y ∈ pc.1.set :=
  View.cover_of_tiled [⟨r3_0, p0⟩] S3000x64.size (by rfl) y

/-! ## The body's triple -/

set_option maxHeartbeats 2000000 in
/-- The body on whole staging memrefs, the inputs' at contents `x0 x1 x2` and the outputs' at anything, ends with the
    inputs' unchanged and the outputs' at `out3_3 x0 x1` and `out3_4 x0 x1 x2`. -/
theorem sound_kernel3 (c : Dev nD) (E : Set ℕ) (i : grid3.Coords) (arg0 : Memref sig .tc .vmem S3000x64 .f32) (harg0 : arg0.IsWhole) (arg1 : Memref sig .tc .vmem S3000x64 .f32) (harg1 : arg1.IsWhole)
    (arg2 : Memref sig .tc .vmem S3000x64 .f32) (harg2 : arg2.IsWhole) (arg3 : Memref sig .tc .vmem S3000x64 .f32) (harg3 : arg3.IsWhole) (arg4 : Memref sig .tc .vmem S3000x64 .f32) (harg4 : arg4.IsWhole)
    (x0 x1 x2 : Vec F S3000x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1) ∗ owns (c : Thread nD τ) arg4 fullShare (out3_4 x0 x1 x2)) -∗ K ⟨⟩))
      ⊢ wp frame (wpE (defs₀ (F := F)) Variants.none c none) E (cc3__reweight_kernel i arg0 harg0 arg1 harg1 arg2 harg2 arg3 harg3 arg4 harg4) K := by
  simp only [cc3__reweight_kernel_eq_skeleton]; unfold cc3__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-! ## The region's proof data -/

/-- The arrays as the region finds them; after the body at point `t` each input's buffer at its block and each
    output's at the body's value over the three input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.IReg4.lean ====
/-
  A cosine-similarity reweighting region (region 4 of five), at any float instance and at any contents `V` of the
  core's buffers when the region is entered. Three input windows (the aggregated embeddings a, the
  normalised embeddings e, the running total s) and two output windows, all in 50 blocks of 3000 rows of
  [150000, 64]. At a grid point the body computes, row by row of its blocks,
  w = <a,e> / (max(|a|, 1e-8) * max(|e|, 1e-8)), stores a*w into the first output's block and s + a*w into the
  second's: both functions of the three blocks alone. The record says so point by point.
-/
import proofs.«120298_j9921374454291_1_alg».proof.Proof.Gen.KernelIdeal.Launch
import proofs.«120298_j9921374454291_1_alg».proof.Proof.Gen.KernelIdeal.Skeleton
import proofs.«120298_j9921374454291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one rectangle: a whole block -/

abbrev r4_0 : Rect S3000x64 := Rect.unit (s := S3000x64) ![0, 0] S3000x64.size inb_S3000x64_S3000x64_0_0

/-- What the body leaves in the first output window's buffer: its one store, of a*w. -/
def out4_3 (x0 x1 : Vec F S3000x64 .f32) : Vec F S3000x64 .f32 :=
  View.canon [⟨r4_0, k4_pay1 (View.ld x0 r4_0) (View.ld x1 r4_0)⟩]

/-- What the body leaves in the second output window's buffer: its one store, of s + a*w. -/
def out4_4 (x0 x1 x2 : Vec F S3000x64 .f32) : Vec F S3000x64 .f32 :=
  View.canon [⟨r4_0, k4_pay2 (View.ld x0 r4_0) (View.ld x1 r4_0) (View.ld x2 r4_0)⟩]

/-- One store of the whole block covers the buffer. -/
theorem cover4 (p0 : Vec F S3000x64 .f32) (y : S3000x64.Idx) :
    ∃ pc ∈ ([⟨r4_0, p0⟩] : List (View.Piece (Elt F) S3000x64 .f32)), y ∈ pc.1.set :=
  View.cover_of_tiled [⟨r4_0, p0⟩] S3000x64.size (by rfl) y

/-! ## The body's triple -/

set_option maxHeartbeats 2000000 in
/-- The body on whole staging memrefs, the inputs' at contents `x0 x1 x2` and the outputs' at anything, ends with the
    inputs' unchanged and the outputs' at `out4_3 x0 x1` and `out4_4 x0 x1 x2`. -/
theorem sound_kernel4 (c : Dev nD) (E : Set ℕ) (i : grid4.Coords) (arg0 : Memref sig .tc .vmem S3000x64 .f32) (harg0 : arg0.IsWhole) (arg1 : Memref sig .tc .vmem S3000x64 .f32) (harg1 : arg1.IsWhole)
    (arg2 : Memref sig .tc .vmem S3000x64 .f32) (harg2 : arg2.IsWhole) (arg3 : Memref sig .tc .vmem S3000x64 .f32) (harg3 : arg3.IsWhole) (arg4 : Memref sig .tc .vmem S3000x64 .f32) (harg4 : arg4.IsWhole)
    (x0 x1 x2 : Vec F S3000x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1) ∗ owns (c : Thread nD τ) arg4 fullShare (out4_4 x0 x1 x2)) -∗ K ⟨⟩))
      ⊢ wp frame (wpE (defs₀ (F := F)) Variants.none c none) E (cc4__reweight_kernel i arg0 harg0 arg1 harg1 arg2 harg2 arg3 harg3 arg4 harg4) K := by
  simp only [cc4__reweight_kernel_eq_skeleton]; unfold cc4__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4 _)
  iexists _; isplitr
  swap; · iexact H4
  ipureintro
  exact View.read_writes_eq_canon _ _ _ (cover4 _)

/-! ## The region's proof data -/

/-- The arrays as the region finds them; after the body at point `t` each input's buffer at its block and each
    output's at the body's value over the three input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.Spec.lean ====
/-
  The mathematics both programs compute, as four whole-array functions at the exact extended reals, each written
  in the host's own operations, and their composition.
    itemNet   rows of item features through two dense layers (leaky slope 0.01), combined with the id embedding:
              sqrt |(id^2 + (leaky(x W1 + b1) W2 + b2)^2) / 2 + 1e-8|
    rowNormalise   x / max(sqrt(sum_j x_j^2), 1e-12), row by row
    neighbourSum   the sparse adjacency product: gather rows at the edges' columns (negative indices wrapped by
              150000), scale by the edge values, scatter-add at the edges' rows into zeros
    cosineScale    w * a with w = <a,e> / (max(|a|,1e-8) * max(|e|,1e-8)), row by row
  The result is ego + the three successively propagated and rescaled embeddings.
-/
import proofs.«120298_j9921374454291_1_alg».proof.Proof.Gen.ReferenceIdeal
import Idealize.ShloMosaic.PureOps.Ideal

noncomputable section

namespace Cert.Spec

open Idealize.ShloMosaic Cert.ReferenceIdeal Cert.ReferenceIdeal.Gen

/-- A float array of shape `S` at the exact extended reals. -/
abbrev Arr (S : Shape) := FVec Ideal S .f32
/-- A 32-bit integer array of shape `S`. -/
abbrev IArr (S : Shape) := IVec S 32

/-- Row `p` of the `t`-th block of 3000 rows, as a row of the 150000-row table. -/
def row3000 (t : Fin 50) (p : Fin 3000) : Fin 150000 := ⟨3000 * t.val + p.val, by have := t.isLt; have := p.isLt; omega⟩
/-- Row `p` of the `t`-th block of 1000 rows, as a row of the 50000-row item table. -/
def row1000 (t : Fin 50) (p : Fin 1000) : Fin 50000 := ⟨1000 * t.val + p.val, by have := t.isLt; have := p.isLt; omega⟩

/-- The item network on all 50000 rows. -/
def itemNet (x0 : Arr S50000x1280) (x1 : Arr S50000x64) (x6 : Arr S1280x256) (x7 : Arr S256) (x8 : Arr S256x64) (x9 : Arr S64) : Arr S50000x64 :=
  have v0 : Arr S50000x256 := Host.dotGeneral (F := Ideal) dot_S50000x1280_S1280x256_S50000x256_1_0_0_1_n_n none x0 x6
  have v2 : Arr S50000x256 := broadcastInDim S50000x256 ![0, 1] bcast_S1x256_S50000x256_0_1 (broadcastInDim S1x256 ![1] bcast_S256_S1x256_1 x7)
  have v3 : Arr S50000x256 := addf v0 v2
  have v4 : Arr S50000x256 := broadcastInDim S50000x256 ![] bcast_S_S50000x256 (constant (F := Ideal) S_ .f32 0x00000000#32)
  have v6 : Arr S50000x256 := broadcastInDim S50000x256 ![] bcast_S_S50000x256 (constant (F := Ideal) S_ .f32 0x3C23D70A#32)
  have v8 : Arr S50000x256 := select (cmpf .oge v3 v4) v3 (mulf v6 v3)
  have v9 : Arr S50000x64 := Host.dotGeneral (F := Ideal) dot_S50000x256_S256x64_S50000x64_1_0_0_1_n_n none v8 x8
  have v11 : Arr S50000x64 := broadcastInDim S50000x64 ![0, 1] bcast_S1x64_S50000x64_0_1 (broadcastInDim S1x64 ![1] bcast_S64_S1x64_1 x9)
  have v12 : Arr S50000x64 := addf v9 v11
  have v15 : Arr S50000x64 := addf (mulf x1 x1) (mulf v12 v12)
  have v16 : Arr S50000x64 := broadcastInDim S50000x64 ![] bcast_S_S50000x64 (constant (F := Ideal) S_ .f32 0x40000000#32)
  have v18 : Arr S50000x64 := broadcastInDim S50000x64 ![] bcast_S_S50000x64 (constant (F := Ideal) S_ .f32 0x322BCC77#32)
  Host.sqrt (F := Ideal) (Host.absf (F := Ideal) (addf (Host.divf (F := Ideal) v15 v16) v18))

/-- The user preferences stacked over the item embeddings. -/
def stack (x5 : Arr S100000x64) (t : Arr S50000x64) : Arr S150000x64 :=
  concatenate S150000x64 0 [⟨S100000x64, x5⟩, ⟨S50000x64, t⟩] concatenates_S100000x64_S50000x64_S150000x64_d0

/-- Every row divided by its Euclidean norm, the norm kept above 1e-12. -/
def rowNormalise (x : Arr S150000x64) : Arr S150000x64 :=
  have v24 : Arr S150000 := Host.reduceAdd (F := Ideal) (mulf x x) (constant (F := Ideal) S_ .f32 0x00000000#32) reducesTo_S150000x64_S150000_d1 h_S_
  have v26 : Arr S150000x1 := Host.sqrt (F := Ideal) (broadcastInDim S150000x1 ![0] bcast_S150000_S150000x1_0 v24)
  have v27 : Arr S150000x1 := broadcastInDim S150000x1 ![] bcast_S_S150000x1 (constant (F := Ideal) S_ .f32 0x2B8CBCCC#32)
  Host.divf (F := Ideal) x (broadcastInDim S150000x64 ![0, 1] bcast_S150000x1_S150000x64_0_1 (maximumf v26 v27))

/-- The sparse adjacency product of the node table `e`: edge rows `x2`, edge columns `x3`, edge values `x4`. -/
def neighbourSum (x2 x3 : IArr S3000000) (x4 : Arr S3000000) (e : Arr S150000x64) : Arr S150000x64 :=
  have v31 : Arr S3000000x1 := broadcastInDim S3000000x1 ![0] bcast_S3000000_S3000000x1_0 x4
  have v32 : IArr S3000000 := broadcastInDim S3000000 ![] bcast_S_S3000000 (constantI S_ 32 0#32)
  have v34 : IArr S3000000 := broadcastInDim S3000000 ![] bcast_S_S3000000 (constantI S_ 32 150000#32)
  have v36 : IArr S3000000 := select (cmpi .slt x3 v32) (addi x3 v34) x3
  have v37 : IArr S3000000x1 := broadcastInDim S3000000x1 ![0] bcast_S3000000_S3000000x1_0 v36
  have v38 : Arr S3000000x64 := Host.gather gather_S150000x64_S3000000x1_S3000000x64_1_0_n_n_0_1_164 e v37
  have v40 : Arr S3000000x64 := mulf (broadcastInDim S3000000x64 ![0, 1] bcast_S3000000x1_S3000000x64_0_1 v31) v38
  have v41 : Arr S150000x64 := broadcastInDim S150000x64 ![] bcast_S_S150000x64 (constant (F := Ideal) S_ .f32 0x00000000#32)
  have v42 : IArr S3000000x1 := broadcastInDim S3000000x1 ![0] bcast_S3000000_S3000000x1_0 x2
  Host.scatterAdd (F := Ideal) scatter_S150000x64_S3000000x1_S3000000x64_1_0_0_1 v41 v42 v40

/-- The row norm kept above 1e-8. -/
def rowNorm8 (a : Arr S150000x64) : Arr S150000 :=
  maximumf (Host.sqrt (F := Ideal) (Host.reduceAdd (F := Ideal) (mulf a a) (constant (F := Ideal) S_ .f32 0x00000000#32) reducesTo_S150000x64_S150000_d1 h_S_))
    (broadcastInDim S150000 ![] bcast_S_S150000 (constant (F := Ideal) S_ .f32 0x322BCC77#32))

/-- Every row of `a` scaled by its cosine similarity with the same row of `e`. -/
def cosineScale (a e : Arr S150000x64) : Arr S150000x64 :=
  have v55 : Arr S150000 := Host.reduceAdd (F := Ideal) (mulf a e) (constant (F := Ideal) S_ .f32 0x00000000#32) reducesTo_S150000x64_S150000_d1 h_S_
  have v57 : Arr S150000 := Host.divf (F := Ideal) v55 (mulf (rowNorm8 a) (rowNorm8 e))
  mulf (broadcastInDim S150000x64 ![0, 1] bcast_S150000x1_S150000x64_0_1 (broadcastInDim S150000x1 ![0] bcast_S150000_S150000x1_0 v57)) a

/-- The normalised node table. -/
def ego (x0 : Arr S50000x1280) (x1 : Arr S50000x64) (x5 : Arr S100000x64) (x6 : Arr S1280x256) (x7 : Arr S256) (x8 : Arr S256x64) (x9 : Arr S64) : Arr S150000x64 :=
  rowNormalise (stack x5 (itemNet x0 x1 x6 x7 x8 x9))

/-- One layer: propagate `p` along the edges and rescale against `e`. -/
def layer (x2 x3 : IArr S3000000) (x4 : Arr S3000000) (e p : Arr S150000x64) : Arr S150000x64 :=
  cosineScale (neighbourSum x2 x3 x4 p) e

/-- The whole computation: the normalised table plus its three successive layers. -/
def refSpec (x0 : Arr S50000x1280) (x1 : Arr S50000x64) (x2 x3 : IArr S3000000) (x4 : Arr S3000000) (x5 : Arr S100000x64) (x6 : Arr S1280x256) (x7 : Arr S256) (x8 : Arr S256x64) (x9 : Arr S64) : Arr S150000x64 :=
  have e : Arr S150000x64 := ego x0 x1 x5 x6 x7 x8 x9
  have p1 : Arr S150000x64 := layer x2 x3 x4 e e
  have p2 : Arr S150000x64 := layer x2 x3 x4 e p1
  have p3 : Arr S150000x64 := layer x2 x3 x4 e p2
  addf (addf (addf e p1) p2) p3

end Cert.Spec

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«120298_j9921374454291_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibRowSumBroadcast.lean ====
/-
  A row sum kept along a unit axis and broadcast back, read at an index given by coordinates, over the extended reals.

  For a matrix `src` of shape `[a, b]`, the sum along each row taken into the zero accumulator (the f32 word `0x00000000`, with the
  accumulator's side condition stated as the equation `0x00000000 = 0x00000000` it is printed with):
    • `rowSum`: at row `r` it is `Σ_{k < b} src (r, k)`;
    • `colBroadcast`: kept as the column `[a, 1]` (a sum with `keepdims`) and broadcast to `[a, n]`, at `(p, q)` it is the sum along row `p`;
    • `rowBroadcast`: kept as the row `[1, a]` and broadcast to `[n, a]`, at `(p, q)` it is the sum along row `q`.
  Stated with the side conditions as hypotheses of exactly these types, the three rewrite a printed body directly.
  Needs `LibColumn.lean` and `LibRowReduce.lean` (with its `LibRowColumn.lean`) beside it.
-/
import proofs.«120298_j9921374454291_1_alg».proof.Proof.LibColumn
import proofs.«120298_j9921374454291_1_alg».proof.Proof.LibRowReduce
import Idealize.ShloMosaic.Lib.ValueLayout

noncomputable section

open scoped BigOperators

namespace Idealize.ShloMosaic.RowSumBroadcast

open Idealize.ShloMosaic Idealize.ShloMosaic.ValueIdx

/-- The sum along row `r` of a matrix, as a reduction into the zero accumulator computes it. -/
theorem rowSum {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  RowReduce.multiReduction_add_cols src _ h hφ hacc r

/-- A row sum kept as a column and broadcast along the other axis reads, at `(p, q)`, the sum along row `p`. -/
theorem colBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) (p : Fin a) (q : Fin n) :
    broadcastTo ⟨2, ![a, n]⟩ (shapeCast ⟨2, ![a, 1]⟩ (multiReduction .add [1] ⟨1, ![a]⟩ src 0x00000000#32 h hφ hacc) hc) hb (ix2 p q)
      = ∑ k : Fin b, src (ix2 p k) := by
  rw [Column.broadcastTo_a1_ab_apply, Column.shapeCast_a_a1_apply, rowSum]

/-- A row sum kept as a row and broadcast along the other axis reads, at `(p, q)`, the sum along row `q`. -/
theorem rowBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![1, a]⟩) (hb : (⟨2, ![1, a]⟩ : Shape).Broadcasts ⟨2, ![n, a]⟩) (p : Fin n) (q : Fin a) :
    broadcastTo ⟨2, ![n, a]⟩ (shapeCast ⟨2, ![1, a]⟩ (multiReduction .add [1] ⟨1, ![a]⟩ src 0x00000000#32 h hφ hacc) hc) hb (ix2 p q)
      = ∑ k : Fin b, src (ix2 q k) := by
  rw [broadcastTo_1b_ab_apply, shapeCast_a_1a_apply, rowSum]

end Idealize.ShloMosaic.RowSumBroadcast

end
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«120298_j9921374454291_1_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.MathRows.lean ====
/-
  Row-wise blocks against whole tables: a block of 3000 rows of a [150000, 64] table, pushed through a kernel body's
  arithmetic, gives at each entry what the whole-table function gives at the same row of the table, because
  every operation involved reads one row only.
-/
import proofs.«120298_j9921374454291_1_alg».proof.Proof.Spec
import proofs.«120298_j9921374454291_1_alg».proof.Proof.Gen.KernelIdeal.Skeleton
import proofs.«120298_j9921374454291_1_alg».proof.Proof.LibRowSumBroadcast
import proofs.«120298_j9921374454291_1_alg».proof.Proof.LibHostRow
import Idealize.ShloMosaic.Lib.ValueIdx
import Idealize.ShloMosaic.Lib.IdealHost
import Idealize.ShloMosaic.PureOps.Ideal.Laws

noncomputable section

open scoped BigOperators

namespace Cert.Bridge

open Idealize.ShloMosaic Idealize.ShloMosaic.ValueIdx Cert.Spec

/-! ## The row formulas

  Each of the three bodies computes, at entry `(p, q)`, a function of row `p` alone. The formulas below are written over
  a row given as a function of its 64 columns. -/

/-- Entry `q` of a row divided by the row's Euclidean norm, the norm kept above the f32 word `0x2B8CBCCC` (1e-12). -/
def l2Row (f : Fin 64 → EReal) (q : Fin 64) : EReal :=
  Ideal.div (f q) (max (Ideal.sqrt (∑ k : Fin 64, f k * f k)) (Ideal.ofBits .f32 0x2B8CBCCC#32))

/-- The kernel's square root at an index is the extended reals' square root of the element. -/
theorem sqrt_apply {s : Shape} {φ : FTy} (a : FVec Ideal s φ) (i : s.Idx) : sqrt a i = Ideal.sqrt (a i) := rfl

/-- The host's square root at an index is the same function of the element. -/
theorem hostSqrt_apply {s : Shape} {φ : FTy} (a : FVec Ideal s φ) (i : s.Idx) : Host.sqrt a i = Ideal.sqrt (a i) := rfl

/-! ## The reductions along a row -/

/-- The kernel's sum along axis 1 of a [3000, 64] block into the zero accumulator, at row `p`: the sum of the row's entries. -/
theorem kernel_rowSum (v : FVec Ideal Cert.KernelIdeal.S3000x64 .f32) (h : Cert.KernelIdeal.S3000x64.Reduces [1] Cert.KernelIdeal.S3000)
    (hφ : FKind.Formats .f32) (hacc : (0x00000000#32 : BitVec 32) = 0x00000000#32) (p : Fin 3000) :
    multiReduction .add [1] Cert.KernelIdeal.S3000 v 0x00000000#32 h hφ hacc (ix1 p) = ∑ k : Fin 64, v (ix2 p k) :=
  RowSumBroadcast.rowSum v h hφ hacc p

/-- The host's sum along axis 1 of the [150000, 64] table from the constant zero, at row `r`: the sum of the row's entries. -/
theorem host_rowSum (x : Arr Cert.ReferenceIdeal.S150000x64) (h' : Cert.ReferenceIdeal.S150000x64.ReducesTo [1] Cert.ReferenceIdeal.S150000)
    (hu : 0 < Cert.ReferenceIdeal.S_.numel) (r : Fin 150000) :
    Host.reduceAdd (F := Ideal) x (constant (F := Ideal) Cert.ReferenceIdeal.S_ .f32 0x00000000#32) h' hu (ix1 r) = ∑ k : Fin 64, x (ix2 r k) := by
  refine (HostRow.hostReduceAdd_cols x _ h' (by decide) hu r).trans ?_
  rw [constant_apply, Ideal.ofBits_zero_f32, zero_add]

/-! ## The normalisation body -/

/-- The kernel's normalisation body at entry `(p, q)` is the row formula of the block's row `p`. -/
theorem k1_pay1_apply (x0 : Vec Ideal Cert.KernelIdeal.S3000x64 .f32) (p : Fin 3000) (q : Fin 64) :
    Cert.KernelIdeal.Gen.k1_pay1 (F := Ideal) x0 (ix2 p q) = l2Row (fun k => x0 (ix2 p k)) q := by
  unfold Cert.KernelIdeal.Gen.k1_pay1
  simp only [shapeCast_self]
  unfold l2Row
  refine (divf_apply _ _ _).trans (congrArg (Ideal.div (x0 (ix2 p q))) ?_)
  refine (Column.broadcastTo_a1_ab_apply _ _ p q).trans ?_
  refine (maximumf_apply _ _ _).trans (congrArg₂ max ?_ rfl)
  refine (sqrt_apply _ _).trans (congrArg Ideal.sqrt ?_)
  refine (Column.shapeCast_a_a1_apply _ _ p 0).trans ?_
  exact kernel_rowSum _ _ _ _ p

/-- The whole-table normalisation at entry `(r, q)` is the row formula of the table's row `r`. -/
theorem rowNormalise_apply (x : Arr Cert.ReferenceIdeal.S150000x64) (r : Fin 150000) (q : Fin 64) :
    rowNormalise x (ix2 r q) = l2Row (fun k => x (ix2 r k)) q := by
  unfold rowNormalise l2Row
  refine (hostDivf_apply _ _ _).trans (congrArg (Ideal.div (x (ix2 r q))) ?_)
  refine (HostRow.bcast_a1_ab_apply _ _ r q).trans ?_
  refine (maximumf_apply _ _ _).trans (congrArg₂ max ?_ ?_)
  · refine (hostSqrt_apply _ _).trans (congrArg Ideal.sqrt ?_)
    refine (HostRow.bcast_a_a1_apply _ _ r 0).trans ?_
    exact host_rowSum _ _ _ r
  · exact broadcastInDim_scalar_apply _ _ _

/-- The normalisation body on block `t` is the whole-table normalisation at the block's rows. -/
theorem l2_block (x : Arr Cert.ReferenceIdeal.S150000x64) (x0 : Vec Ideal Cert.KernelIdeal.S3000x64 .f32) (t : Fin 50)
    (h0 : ∀ (p : Fin 3000) (q : Fin 64), x0 (ix2 p q) = x (ix2 (row3000 t p) q)) (p : Fin 3000) (q : Fin 64) :
    Cert.KernelIdeal.Gen.k1_pay1 (F := Ideal) x0 (ix2 p q) = rowNormalise x (ix2 (row3000 t p) q) := by
  rw [k1_pay1_apply, rowNormalise_apply]
  exact congrArg (fun f => l2Row f q) (funext fun k => h0 p k)

/-! ## The reweighting body -/

/-- A row's Euclidean norm kept above the f32 word `0x322BCC77` (1e-8). -/
def norm8 (f : Fin 64 → EReal) : EReal :=
  max (Ideal.sqrt (∑ k : Fin 64, f k * f k)) (Ideal.ofBits .f32 0x322BCC77#32)

/-- The cosine similarity of two rows: their inner product over the product of their guarded norms. -/
def cosWeight (f g : Fin 64 → EReal) : EReal :=
  Ideal.div (∑ k : Fin 64, f k * g k) (norm8 f * norm8 g)

/-- The kernel's guarded norm of the rows of a block, at row `p`. -/
theorem kernel_norm8 (v : FVec Ideal Cert.KernelIdeal.S3000x64 .f32) (h : Cert.KernelIdeal.S3000x64.Reduces [1] Cert.KernelIdeal.S3000)
    (hφ : FKind.Formats .f32) (hacc : (0x00000000#32 : BitVec 32) = 0x00000000#32) (p : Fin 3000) :
    maximumf (sqrt (multiReduction .add [1] Cert.KernelIdeal.S3000 (mulf v v) 0x00000000#32 h hφ hacc))
        (broadcast Cert.KernelIdeal.S3000 (FloatOps.ofBits (F := Ideal) .f32 0x322BCC77#32)) (ix1 p)
      = norm8 (fun k => v (ix2 p k)) := by
  unfold norm8
  refine (maximumf_apply _ _ _).trans (congrArg₂ max ?_ rfl)
  refine (sqrt_apply _ _).trans (congrArg Ideal.sqrt ?_)
  exact kernel_rowSum _ _ _ _ p

/-- The host's guarded norm of the rows of the table, at row `r`. -/
theorem rowNorm8_apply (a : Arr Cert.ReferenceIdeal.S150000x64) (r : Fin 150000) :
    rowNorm8 a (ix1 r) = norm8 (fun k => a (ix2 r k)) := by
  unfold rowNorm8 norm8
  refine (maximumf_apply _ _ _).trans (congrArg₂ max ?_ ?_)
  · refine (hostSqrt_apply _ _).trans (congrArg Ideal.sqrt ?_)
    exact host_rowSum _ _ _ r
  · exact broadcastInDim_scalar_apply _ _ _

/-- The kernel's reweighting body at entry `(p, q)`: the entry times the cosine similarity of the two blocks' rows `p`. -/
theorem k2_pay1_apply (x0 x1 : Vec Ideal Cert.KernelIdeal.S3000x64 .f32) (p : Fin 3000) (q : Fin 64) :
    Cert.KernelIdeal.Gen.k2_pay1 (F := Ideal) x0 x1 (ix2 p q)
      = x0 (ix2 p q) * cosWeight (fun k => x0 (ix2 p k)) (fun k => x1 (ix2 p k)) := by
  unfold Cert.KernelIdeal.Gen.k2_pay1
  simp only [shapeCast_self]
  unfold cosWeight
  refine (mulf_apply _ _ _).trans (congrArg (x0 (ix2 p q) * ·) ?_)
  refine (Column.broadcastTo_a1_ab_apply _ _ p q).trans ?_
  refine (Column.shapeCast_a_a1_apply _ _ p 0).trans ?_
  refine (divf_apply _ _ _).trans (congrArg₂ Ideal.div ?_ ?_)
  · exact kernel_rowSum _ _ _ _ p
  · refine (mulf_apply _ _ _).trans (congrArg₂ (· * ·) ?_ ?_)
    · exact kernel_norm8 x0 _ _ _ p
    · exact kernel_norm8 x1 _ _ _ p

/-- The whole-table cosine scaling at entry `(r, q)`: the cosine similarity of the two tables' rows `r` times the entry. -/
theorem cosineScale_apply (a e : Arr Cert.ReferenceIdeal.S150000x64) (r : Fin 150000) (q : Fin 64) :
    cosineScale a e (ix2 r q) = cosWeight (fun k => a (ix2 r k)) (fun k => e (ix2 r k)) * a (ix2 r q) := by
  unfold cosineScale cosWeight
  refine (mulf_apply _ _ _).trans (congrArg (· * a (ix2 r q)) ?_)
  refine (HostRow.bcast_a_ab_apply _ _ _ r q).trans ?_
  refine (hostDivf_apply _ _ _).trans (congrArg₂ Ideal.div ?_ ?_)
  · exact host_rowSum _ _ _ r
  · refine (mulf_apply _ _ _).trans (congrArg₂ (· * ·) ?_ ?_)
    · exact rowNorm8_apply a r
    · exact rowNorm8_apply e r

/-- The reweighting body's first value on block `t` is the whole-table cosine scaling at the block's rows. -/
theorem cos_block (a e : Arr Cert.ReferenceIdeal.S150000x64) (x0 x1 : Vec Ideal Cert.KernelIdeal.S3000x64 .f32) (t : Fin 50)
    (h0 : ∀ (p : Fin 3000) (q : Fin 64), x0 (ix2 p q) = a (ix2 (row3000 t p) q))
    (h1 : ∀ (p : Fin 3000) (q : Fin 64), x1 (ix2 p q) = e (ix2 (row3000 t p) q)) (p : Fin 3000) (q : Fin 64) :
    Cert.KernelIdeal.Gen.k2_pay1 (F := Ideal) x0 x1 (ix2 p q) = cosineScale a e (ix2 (row3000 t p) q) := by
  rw [k2_pay1_apply, cosineScale_apply, mul_comm, h0 p q]
  exact congrArg (· * a (ix2 (row3000 t p) q))
    (congrArg₂ cosWeight (funext fun k => h0 p k) (funext fun k => h1 p k))

/-- The reweighting body's second value on block `t`: the running total plus the cosine scaling. -/
theorem tot_block (a e s : Arr Cert.ReferenceIdeal.S150000x64) (x0 x1 x2 : Vec Ideal Cert.KernelIdeal.S3000x64 .f32) (t : Fin 50)
    (h0 : ∀ (p : Fin 3000) (q : Fin 64), x0 (ix2 p q) = a (ix2 (row3000 t p) q))
    (h1 : ∀ (p : Fin 3000) (q : Fin 64), x1 (ix2 p q) = e (ix2 (row3000 t p) q))
    (h2 : ∀ (p : Fin 3000) (q : Fin 64), x2 (ix2 p q) = s (ix2 (row3000 t p) q)) (p : Fin 3000) (q : Fin 64) :
    Cert.KernelIdeal.Gen.k2_pay2 (F := Ideal) x0 x1 x2 (ix2 p q) = addf s (cosineScale a e) (ix2 (row3000 t p) q) := by
  unfold Cert.KernelIdeal.Gen.k2_pay2
  simp only [shapeCast_self]
  refine (addf_apply _ _ _).trans ((congrArg₂ (· + ·) (h2 p q) (cos_block a e x0 x1 t h0 h1 p q)).trans ?_)
  exact (addf_apply _ _ _).symm

/-- The three reweighting regions run one body. -/
theorem k3_pay1_eq : @Cert.KernelIdeal.Gen.k3_pay1 Ideal _ = @Cert.KernelIdeal.Gen.k2_pay1 Ideal _ := rfl
theorem k4_pay1_eq : @Cert.KernelIdeal.Gen.k4_pay1 Ideal _ = @Cert.KernelIdeal.Gen.k2_pay1 Ideal _ := rfl
theorem k3_pay2_eq : @Cert.KernelIdeal.Gen.k3_pay2 Ideal _ = @Cert.KernelIdeal.Gen.k2_pay2 Ideal _ := rfl
theorem k4_pay2_eq : @Cert.KernelIdeal.Gen.k4_pay2 Ideal _ = @Cert.KernelIdeal.Gen.k2_pay2 Ideal _ := rfl

end Cert.Bridge

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«120298_j9921374454291_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«120298_j9921374454291_1_alg».proof.Proof.LibPlainDot
import proofs.«120298_j9921374454291_1_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.MathItem.lean ====
/-
  The item network on a block of 1000 rows against the item network on all 50000 rows: every operation reads one row
  of the features and of the id embeddings (and the whole of the weights and biases), so an entry of the block's value
  is the whole-table value at the same row. The block's body multiplies by 0.5 where the host divides by 2.

  Both spellings are two dense layers "rows times weights plus bias row" with the leaky rectifier (slope 0.01) between
  them, followed entry by entry by  sqrt |(e^2 + h^2) / 2 + 1e-8|  with e the id embedding and h the second layer's value.
  A dense layer's entry (p, q) is a sum over the contracted coordinate of row p times column q, plus the bias at q, so
  it reads row p only; the rectifier and the final combination act entry by entry. The single law between the sides is
  x * (1/2) = x / 2 on every extended real.
-/
import proofs.«120298_j9921374454291_1_alg».proof.Proof.Spec
import proofs.«120298_j9921374454291_1_alg».proof.Proof.Gen.KernelIdeal.Skeleton
import Idealize.ShloMosaic.Lib.ValueIdx
import Idealize.ShloMosaic.PureOps.Ideal.Laws
import proofs.«120298_j9921374454291_1_alg».proof.Proof.LibSoftplusLayers

noncomputable section

namespace Cert.Bridge

open Idealize.ShloMosaic Idealize.ShloMosaic.ValueIdx Cert.Spec
open Idealize.ShloMosaic.Affine Idealize.ShloMosaic.SoftplusLayers

/-! ## The constants, kept as words; only 1/2 and 2 are evaluated -/

/-- The f32 word of 0.0 (the rectifier's threshold), never evaluated. -/
def zeroWord : EReal := Ideal.ofBits .f32 0x00000000#32
/-- The f32 word of the slope (the float nearest 0.01), never evaluated. -/
def slopeWord : EReal := Ideal.ofBits .f32 0x3C23D70A#32
/-- The f32 word of the offset under the root (the float nearest 1e-8), never evaluated. -/
def epsWord : EReal := Ideal.ofBits .f32 0x322BCC77#32
/-- The f32 word of 0.5. -/
def halfWord : EReal := Ideal.ofBits .f32 0x3F000000#32
/-- The f32 word of 2.0. -/
def twoWord : EReal := Ideal.ofBits .f32 0x40000000#32

/-- The word 0x3F000000 denotes the real 1/2. -/
theorem halfWord_eq : halfWord = (((1 / 2 : ℝ)) : EReal) := by
  unfold halfWord
  simp [Ideal.ofBits, Ideal.ieee, -EReal.coe_mul]; norm_num

/-- The word 0x40000000 denotes the real 2. -/
theorem twoWord_eq : twoWord = ((2 : ℝ) : EReal) := by
  unfold twoWord
  simp [Ideal.ofBits, Ideal.ieee, -EReal.coe_mul]; norm_num

/-- Dividing by 2 is multiplying by 1/2, on every extended real. -/
theorem div_two_eq_mul_half (x : EReal) : Ideal.div x twoWord = x * halfWord := by
  rw [twoWord_eq, halfWord_eq]
  exact Ideal.div_coe (by norm_num : (2 : ℝ) ≠ 0) x

/-! ## The two entrywise functions -/

/-- The leaky rectifier: x where x ≥ 0, slope · x elsewhere. -/
def leaky (x : EReal) : EReal := Scalar.select (Ideal.cmp .oge x zeroWord) x (slopeWord * x)

/-- sqrt |(e² + h²) · (1/2) + eps|. -/
def combine (e h : EReal) : EReal :=
  Ideal.sqrt (max ((e * e + h * h) * halfWord + epsWord) (-((e * e + h * h) * halfWord + epsWord)))

/-! ## The two spellings of the rectifier and of the final combination, on arrays -/

section Arrays

variable {s : Shape}

/-- The rectifier applied to every entry. -/
def leakyV (x : FVec Ideal s .f32) : FVec Ideal s .f32 := fun i => leaky (x i)

/-- A kernel body's spelling: scalar constants splat to the shape. -/
def leakyK (x : FVec Ideal s .f32) : FVec Ideal s .f32 :=
  select (cmpf .oge x (broadcast s (Scalar.ofBits (F := Ideal) .f32 0x00000000#32))) x
    (mulf (broadcast s (Scalar.ofBits (F := Ideal) .f32 0x3C23D70A#32)) x)

theorem leakyK_eq (x : FVec Ideal s .f32) : leakyK x = leakyV x := rfl

/-- The host's spelling: rank-0 constants broadcast to the shape. -/
def leakyH (h0 : (⟨0, ![]⟩ : Shape).BroadcastsInDim s ![]) (x : FVec Ideal s .f32) : FVec Ideal s .f32 :=
  select (cmpf .oge x (broadcastInDim s ![] h0 (constant (F := Ideal) ⟨0, ![]⟩ .f32 0x00000000#32))) x
    (mulf (broadcastInDim s ![] h0 (constant (F := Ideal) ⟨0, ![]⟩ .f32 0x3C23D70A#32)) x)

theorem leakyH_eq (h0 : (⟨0, ![]⟩ : Shape).BroadcastsInDim s ![]) (x : FVec Ideal s .f32) : leakyH h0 x = leakyV x := rfl

/-- The final combination applied to every entry. -/
def combineV (e h : FVec Ideal s .f32) : FVec Ideal s .f32 := fun i => combine (e i) (h i)

/-- A kernel body's spelling: the product with the splat word of 0.5. -/
def combineK (e h : FVec Ideal s .f32) : FVec Ideal s .f32 :=
  sqrt (absf (addf (mulf (addf (mulf e e) (mulf h h)) (broadcast s (Scalar.ofBits (F := Ideal) .f32 0x3F000000#32)))
    (broadcast s (Scalar.ofBits (F := Ideal) .f32 0x322BCC77#32))))

theorem combineK_eq (e h : FVec Ideal s .f32) : combineK e h = combineV e h := rfl

/-- The host's spelling: the quotient by the broadcast word of 2.0. -/
def combineH (h0 : (⟨0, ![]⟩ : Shape).BroadcastsInDim s ![]) (e h : FVec Ideal s .f32) : FVec Ideal s .f32 :=
  Host.sqrt (F := Ideal) (Host.absf (F := Ideal) (addf (Host.divf (F := Ideal) (addf (mulf e e) (mulf h h))
      (broadcastInDim s ![] h0 (constant (F := Ideal) ⟨0, ![]⟩ .f32 0x40000000#32)))
    (broadcastInDim s ![] h0 (constant (F := Ideal) ⟨0, ![]⟩ .f32 0x322BCC77#32))))

theorem combineH_eq (h0 : (⟨0, ![]⟩ : Shape).BroadcastsInDim s ![]) (e h : FVec Ideal s .f32) : combineH h0 e h = combineV e h := by
  funext i
  show Ideal.sqrt (max (Ideal.div (e i * e i + h i * h i) twoWord + epsWord) (-(Ideal.div (e i * e i + h i * h i) twoWord + epsWord)))
    = combine (e i) (h i)
  rw [div_two_eq_mul_half]
  rfl

end Arrays

/-! ## A dense layer's entry from entries that agree -/

section Network

variable {A A' K H M : Nat}

/-- Entry (p, q) of "rows times weights plus bias row" reads row p of the rows, column q of the weights and entry q of the
    bias: two layers whose operands agree there have equal entries. -/
theorem affine_ext {φw : FTy} (Xb : FVec Ideal ⟨2, ![A, K]⟩ .f32) (X : FVec Ideal ⟨2, ![A', K]⟩ .f32)
    (Wb W : FVec Ideal ⟨2, ![K, M]⟩ φw) (bb b : FVec Ideal ⟨2, ![1, M]⟩ .f32) (p : Fin A) (r : Fin A') (q : Fin M)
    (hX : ∀ k : Fin K, Xb (ix2 p k) = X (ix2 r k)) (hW : ∀ k : Fin K, Wb (ix2 k q) = W (ix2 k q))
    (hb : bb (ix2 (0 : Fin 1) q) = b (ix2 (0 : Fin 1) q)) :
    affine Xb Wb bb (ix2 p q) = affine X W b (ix2 r q) := by
  rw [affine_ix2, affine_ix2, hb]
  congr 1
  exact Finset.sum_congr rfl fun k _ => by rw [hX k, hW k]

/-- The item network as a kernel body spells it on a block of rows. -/
def itemK (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x : FVec Ideal ⟨2, ![A, K]⟩ .f32) (w1 : FVec Ideal ⟨2, ![K, H]⟩ .f32) (b1 : FVec Ideal ⟨2, ![1, H]⟩ .f32)
    (w2 : FVec Ideal ⟨2, ![H, M]⟩ .f32) (b2 : FVec Ideal ⟨2, ![1, M]⟩ .f32) (e : FVec Ideal ⟨2, ![A, M]⟩ .f32) :
    FVec Ideal ⟨2, ![A, M]⟩ .f32 :=
  combineK e (denseK d2 ht hc2 hb2 (leakyK (denseK d1 ht hc1 hb1 x w1 b1)) w2 b2)

/-- The item network as the host spells it on all the rows. -/
def itemH (d1 : DotDims ⟨2, ![A', K]⟩ ⟨2, ![K, H]⟩ ⟨2, ![A', H]⟩) (d2 : DotDims ⟨2, ![A', H]⟩ ⟨2, ![H, M]⟩ ⟨2, ![A', M]⟩)
    (g1 : (⟨1, ![H]⟩ : Shape).BroadcastsInDim ⟨2, ![1, H]⟩ ![1])
    (g2 : (⟨2, ![1, H]⟩ : Shape).BroadcastsInDim ⟨2, ![A', H]⟩ ![0, 1])
    (g3 : (⟨1, ![M]⟩ : Shape).BroadcastsInDim ⟨2, ![1, M]⟩ ![1])
    (g4 : (⟨2, ![1, M]⟩ : Shape).BroadcastsInDim ⟨2, ![A', M]⟩ ![0, 1])
    (z1 : (⟨0, ![]⟩ : Shape).BroadcastsInDim ⟨2, ![A', H]⟩ ![]) (z2 : (⟨0, ![]⟩ : Shape).BroadcastsInDim ⟨2, ![A', M]⟩ ![])
    (X : FVec Ideal ⟨2, ![A', K]⟩ .f32) (W1 : FVec Ideal ⟨2, ![K, H]⟩ .f32) (B1 : FVec Ideal ⟨1, ![H]⟩ .f32)
    (W2 : FVec Ideal ⟨2, ![H, M]⟩ .f32) (B2 : FVec Ideal ⟨1, ![M]⟩ .f32) (E : FVec Ideal ⟨2, ![A', M]⟩ .f32) :
    FVec Ideal ⟨2, ![A', M]⟩ .f32 :=
  combineH z2 E (denseH d2 g3 g4 (leakyH z1 (denseH d1 g1 g2 X W1 B1)) W2 B2)

/-- Entry (p, q) of the block's body is entry (r, q) of the host's network when row p of the block's features and id
    embeddings is row r of the tables, the weights are the host's, and the bias rows hold the host's bias vectors. -/
theorem itemK_eq_itemH
    {d1 : DotDims ⟨2, ![A, K]⟩ ⟨2, ![K, H]⟩ ⟨2, ![A, H]⟩} {d2 : DotDims ⟨2, ![A, H]⟩ ⟨2, ![H, M]⟩ ⟨2, ![A, M]⟩}
    {d1' : DotDims ⟨2, ![A', K]⟩ ⟨2, ![K, H]⟩ ⟨2, ![A', H]⟩} {d2' : DotDims ⟨2, ![A', H]⟩ ⟨2, ![H, M]⟩ ⟨2, ![A', M]⟩}
    (hd1 : d1 = DotDims.plain A K H) (hd2 : d2 = DotDims.plain A H M)
    (hd1' : d1' = DotDims.plain A' K H) (hd2' : d2' = DotDims.plain A' H M)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (c1 : (⟨1, ![H]⟩ : Shape).ShapeCasts ⟨2, ![1, H]⟩) (c2 : (⟨1, ![M]⟩ : Shape).ShapeCasts ⟨2, ![1, M]⟩)
    (g1 : (⟨1, ![H]⟩ : Shape).BroadcastsInDim ⟨2, ![1, H]⟩ ![1])
    (g2 : (⟨2, ![1, H]⟩ : Shape).BroadcastsInDim ⟨2, ![A', H]⟩ ![0, 1])
    (g3 : (⟨1, ![M]⟩ : Shape).BroadcastsInDim ⟨2, ![1, M]⟩ ![1])
    (g4 : (⟨2, ![1, M]⟩ : Shape).BroadcastsInDim ⟨2, ![A', M]⟩ ![0, 1])
    (z1 : (⟨0, ![]⟩ : Shape).BroadcastsInDim ⟨2, ![A', H]⟩ ![]) (z2 : (⟨0, ![]⟩ : Shape).BroadcastsInDim ⟨2, ![A', M]⟩ ![])
    (x : FVec Ideal ⟨2, ![A, K]⟩ .f32) (w1 : FVec Ideal ⟨2, ![K, H]⟩ .f32) (b1 : FVec Ideal ⟨2, ![1, H]⟩ .f32)
    (w2 : FVec Ideal ⟨2, ![H, M]⟩ .f32) (b2 : FVec Ideal ⟨2, ![1, M]⟩ .f32) (e : FVec Ideal ⟨2, ![A, M]⟩ .f32)
    (X : FVec Ideal ⟨2, ![A', K]⟩ .f32) (W1 : FVec Ideal ⟨2, ![K, H]⟩ .f32) (B1 : FVec Ideal ⟨1, ![H]⟩ .f32)
    (W2 : FVec Ideal ⟨2, ![H, M]⟩ .f32) (B2 : FVec Ideal ⟨1, ![M]⟩ .f32) (E : FVec Ideal ⟨2, ![A', M]⟩ .f32)
    (p : Fin A) (r : Fin A') (q : Fin M)
    (hx : ∀ k : Fin K, x (ix2 p k) = X (ix2 r k))
    (hw1 : ∀ (k : Fin K) (j : Fin H), w1 (ix2 k j) = W1 (ix2 k j))
    (hB1 : ∀ j : Fin H, b1 (ix2 (0 : Fin 1) j) = B1 (ix1 j))
    (hw2 : ∀ (j : Fin H) (c : Fin M), w2 (ix2 j c) = W2 (ix2 j c))
    (hB2 : ∀ c : Fin M, b2 (ix2 (0 : Fin 1) c) = B2 (ix1 c))
    (he : e (ix2 p q) = E (ix2 r q)) :
    itemK d1 d2 ht hc1 hb1 hc2 hb2 x w1 b1 w2 b2 e (ix2 p q) = itemH d1' d2' g1 g2 g3 g4 z1 z2 X W1 B1 W2 B2 E (ix2 r q) := by
  unfold itemK itemH
  rw [combineK_eq, combineH_eq, denseK_eq hd1, denseK_eq hd2, leakyK_eq, leakyH_eq, denseH_eq hd1' g1 g2 ht c1,
    denseH_eq hd2' g3 g4 ht c2]
  show combine (e (ix2 p q)) _ = combine (E (ix2 r q)) _
  refine congrArg₂ combine he ?_
  refine affine_ext _ _ _ _ _ _ p r q (fun j => congrArg leaky ?_) (fun j => hw2 j q) ?_
  · exact affine_ext _ _ _ _ _ _ p r j hx (fun k => hw1 k j) ((hB1 j).trans (shapeCast_a_1a_apply B1 c1 0 j).symm)
  · exact (hB2 q).trans (shapeCast_a_1a_apply B2 c2 0 q).symm

end Network

/-! ## The block's body against the whole-table item network -/

/-- The item-network body on block `t` is the whole-table item network at the block's rows. -/
theorem item_block (x0 : Arr Cert.ReferenceIdeal.S50000x1280) (x1 : Arr Cert.ReferenceIdeal.S50000x64) (x6 : Arr Cert.ReferenceIdeal.S1280x256)
    (x7 : Arr Cert.ReferenceIdeal.S256) (x8 : Arr Cert.ReferenceIdeal.S256x64) (x9 : Arr Cert.ReferenceIdeal.S64)
    (v0 : Vec Ideal Cert.KernelIdeal.S1000x1280 .f32) (v2 : Vec Ideal Cert.KernelIdeal.S1280x256 .f32) (v5 : Vec Ideal Cert.KernelIdeal.S1x256 .f32)
    (v15 : Vec Ideal Cert.KernelIdeal.S256x64 .f32) (v18 : Vec Ideal Cert.KernelIdeal.S1x64 .f32) (v22 : Vec Ideal Cert.KernelIdeal.S1000x64 .f32) (t : Fin 50)
    (h0 : ∀ (p : Fin 1000) (k : Fin 1280), v0 (ix2 p k) = x0 (ix2 (row1000 t p) k))
    (h2 : ∀ (k : Fin 1280) (j : Fin 256), v2 (ix2 k j) = x6 (ix2 k j))
    (h5 : ∀ (j : Fin 256), v5 (ix2 (0 : Fin 1) j) = x7 (ix1 j))
    (h15 : ∀ (j : Fin 256) (q : Fin 64), v15 (ix2 j q) = x8 (ix2 j q))
    (h18 : ∀ (q : Fin 64), v18 (ix2 (0 : Fin 1) q) = x9 (ix1 q))
    (h22 : ∀ (p : Fin 1000) (q : Fin 64), v22 (ix2 p q) = x1 (ix2 (row1000 t p) q)) (p : Fin 1000) (q : Fin 64) :
    Cert.KernelIdeal.Gen.k0_pay1 (F := Ideal) v0 v2 v5 v15 v18 v22 (ix2 p q) = itemNet x0 x1 x6 x7 x8 x9 (ix2 (row1000 t p) q) :=
  itemK_eq_itemH (A := 1000) (A' := 50000) (K := 1280) (H := 256) (M := 64)
    (d1 := Cert.KernelIdeal.dot_S1000x1280_S1280x256_S1000x256_1_0_0_1_n_n)
    (d2 := Cert.KernelIdeal.dot_S1000x256_S256x64_S1000x64_1_0_0_1_n_n)
    (d1' := Cert.ReferenceIdeal.dot_S50000x1280_S1280x256_S50000x256_1_0_0_1_n_n)
    (d2' := Cert.ReferenceIdeal.dot_S50000x256_S256x64_S50000x64_1_0_0_1_n_n)
    rfl rfl rfl rfl _ _ _ _ _ rfl rfl _ _ _ _ _ _
    v0 v2 v5 v15 v18 v22 x0 x6 x7 x8 x9 x1 p (row1000 t p) q
    (h0 p) h2 h5 h15 h18 (h22 p q)

end Cert.Bridge

end
-- ==== Proof.IVal.lean ====
/-
  From blocks to arrays, at the exact extended reals: what each kernel region leaves in its output arrays, as ONE
  function of the arrays the region finds. A grid point writes back one block of rows; the block is the
  specification's function of the input arrays restricted to those rows, because every operation of the body
  reads one row (the row lemmas); the blocks of the fifty points tile the output array; so the array ends holding
  the specification's function of the input arrays. The index arithmetic is the same everywhere: block t is rows
  B t … B t + B - 1 (B = 1000 for the item network, 3000 elsewhere), all columns; the weights and biases are one block.
-/
import proofs.«120298_j9921374454291_1_alg».proof.Proof.IReg0
import proofs.«120298_j9921374454291_1_alg».proof.Proof.IReg1
import proofs.«120298_j9921374454291_1_alg».proof.Proof.IReg2
import proofs.«120298_j9921374454291_1_alg».proof.Proof.IReg3
import proofs.«120298_j9921374454291_1_alg».proof.Proof.IReg4
import proofs.«120298_j9921374454291_1_alg».proof.Proof.Spec
import proofs.«120298_j9921374454291_1_alg».proof.Proof.MathRows
import proofs.«120298_j9921374454291_1_alg».proof.Proof.MathItem
import Idealize.ShloMosaic.Lib.ValueIdx
import Idealize.ShloMosaic.Lib.Pipeline.Value

set_option maxRecDepth 16384

noncomputable section

namespace Cert.KernelIdeal.Reg

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl

/-! ## Region 0: the item network -/

/-- The printed index maps over the grid: the feature, id-embedding and output windows move by blocks of 1000 rows;
    the weights and biases are one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point as a block number. -/
abbrev pt0 (t : Fin cfg0.N) : Fin 50 := t.cast N_0

theorem emb0_0 (t : Fin cfg0.N) (p : Fin 1000) (q : Fin 1280) :
    ((cfg0.win 0).blk t).view.emb (ix2 p q) = ix2 (row1000 (pt0 t) p) q := by
  have e := idx0 t
  funext a; apply Fin.ext
  match a with
  | ⟨0, _⟩ => show win0_0.index t (0 : Fin 2) * 1000 + 1 * p.val = 1000 * t.val + p.val; omega
  | ⟨1, _⟩ => show win0_0.index t (1 : Fin 2) * 1280 + 1 * q.val = q.val; omega

theorem emb0_1 (t : Fin cfg0.N) (p : Fin 1000) (q : Fin 64) :
    ((cfg0.win 1).blk t).view.emb (ix2 p q) = ix2 (row1000 (pt0 t) p) q := by
  have e := idx0 t
  funext a; apply Fin.ext
  match a with
  | ⟨0, _⟩ => show win0_1.index t (0 : Fin 2) * 1000 + 1 * p.val = 1000 * t.val + p.val; omega
  | ⟨1, _⟩ => show win0_1.index t (1 : Fin 2) * 64 + 1 * q.val = q.val; omega

theorem emb0_2 (t : Fin cfg0.N) (p : Fin 1280) (q : Fin 256) :
    ((cfg0.win 2).blk t).view.emb (ix2 p q) = ix2 p q := by
  have e := idx0 t
  funext a; apply Fin.ext
  match a with
  | ⟨0, _⟩ => show win0_2.index t (0 : Fin 2) * 1280 + 1 * p.val = p.val; omega
  | ⟨1, _⟩ => show win0_2.index t (1 : Fin 2) * 256 + 1 * q.val = q.val; omega

theorem emb0_3 (t : Fin cfg0.N) (p : Fin 1) (q : Fin 256) :
    ((cfg0.win 3).blk t).view.emb (ix2 p q) = ix2 p q := by
  have e := idx0 t
  funext a; apply Fin.ext
  match a with
  | ⟨0, _⟩ => show win0_3.index t (0 : Fin 2) * 1 + 1 * p.val = p.val; omega
  | ⟨1, _⟩ => show win0_3.index t (1 : Fin 2) * 256 + 1 * q.val = q.val; omega

theorem emb0_4 (t : Fin cfg0.N) (p : Fin 256) (q : Fin 64) :
    ((cfg0.win 4).blk t).view.emb (ix2 p q) = ix2 p q := by
  have e := idx0 t
  funext a; apply Fin.ext
  match a with
  | ⟨0, _⟩ => show win0_4.index t (0 : Fin 2) * 256 + 1 * p.val = p.val; omega
  | ⟨1, _⟩ => show win0_4.index t (1 : Fin 2) * 64 + 1 * q.val = q.val; omega

theorem emb0_5 (t : Fin cfg0.N) (p : Fin 1) (q : Fin 64) :
    ((cfg0.win 5).blk t).view.emb (ix2 p q) = ix2 p q := by
  have e := idx0 t
  funext a; apply Fin.ext
  match a with
  | ⟨0, _⟩ => show win0_5.index t (0 : Fin 2) * 1 + 1 * p.val = p.val; omega
  | ⟨1, _⟩ => show win0_5.index t (1 : Fin 2) * 64 + 1 * q.val = q.val; omega

theorem emb0_6 (t : Fin cfg0.N) (p : Fin 1000) (q : Fin 64) :
    ((cfg0.win 6).blk t).view.emb (ix2 p q) = ix2 (row1000 (pt0 t) p) q := by
  have e := idx0 t
  funext a; apply Fin.ext
  match a with
  | ⟨0, _⟩ => show win0_6.index t (0 : Fin 2) * 1000 + 1 * p.val = 1000 * t.val + p.val; omega
  | ⟨1, _⟩ => show win0_6.index t (1 : Fin 2) * 64 + 1 * q.val = q.val; omega

theorem iblk0_0_apply (c : Dev nD) (t : Fin cfg0.N) (p : Fin 1000) (q : Fin 1280) :
    iblk0 V c 0 t (ix2 p q) = V c (Pipeline.arrRef spec0 0) (ix2 (row1000 (pt0 t) p) q) := by
  show V c (Pipeline.arrRef spec0 0) (((cfg0.win 0).blk t).view.emb (ix2 p q)) = _
  rw [emb0_0]

theorem iblk0_1_apply (c : Dev nD) (t : Fin cfg0.N) (p : Fin 1000) (q : Fin 64) :
    iblk0 V c 1 t (ix2 p q) = V c (Pipeline.arrRef spec0 1) (ix2 (row1000 (pt0 t) p) q) := by
  show V c (Pipeline.arrRef spec0 1) (((cfg0.win 1).blk t).view.emb (ix2 p q)) = _
  rw [emb0_1]

theorem iblk0_2_apply (c : Dev nD) (t : Fin cfg0.N) (p : Fin 1280) (q : Fin 256) :
    iblk0 V c 2 t (ix2 p q) = V c (Pipeline.arrRef spec0 2) (ix2 p q) := by
  show V c (Pipeline.arrRef spec0 2) (((cfg0.win 2).blk t).view.emb (ix2 p q)) = _
  rw [emb0_2]

theorem iblk0_3_apply (c : Dev nD) (t : Fin cfg0.N) (p : Fin 1) (q : Fin 256) :
    iblk0 V c 3 t (ix2 p q) = V c (Pipeline.arrRef spec0 3) (ix2 p q) := by
  show V c (Pipeline.arrRef spec0 3) (((cfg0.win 3).blk t).view.emb (ix2 p q)) = _
  rw [emb0_3]

theorem iblk0_4_apply (c : Dev nD) (t : Fin cfg0.N) (p : Fin 256) (q : Fin 64) :
    iblk0 V c 4 t (ix2 p q) = V c (Pipeline.arrRef spec0 4) (ix2 p q) := by
  show V c (Pipeline.arrRef spec0 4) (((cfg0.win 4).blk t).view.emb (ix2 p q)) = _
  rw [emb0_4]

theorem iblk0_5_apply (c : Dev nD) (t : Fin cfg0.N) (p : Fin 1) (q : Fin 64) :
    iblk0 V c 5 t (ix2 p q) = V c (Pipeline.arrRef spec0 5) (ix2 p q) := by
  show V c (Pipeline.arrRef spec0 5) (((cfg0.win 5).blk t).view.emb (ix2 p q)) = _
  rw [emb0_5]

/-- What point `t` writes back: block `t` of the item network of the input tables, the two bias rows read as the
    bias vectors `x7`, `x9` they hold. -/
theorem flushed0_eq (c : Dev nD) (x7 : Arr Cert.ReferenceIdeal.S256) (x9 : Arr Cert.ReferenceIdeal.S64)
    (h7 : ∀ j : Fin 256, V c (Pipeline.arrRef spec0 3) (ix2 (0 : Fin 1) j) = x7 (ix1 j))
    (h9 : ∀ q : Fin 64, V c (Pipeline.arrRef spec0 5) (ix2 (0 : Fin 1) q) = x9 (ix1 q)) (t : Fin cfg0.N) :
    (dat0 V c).flushed 6 t = ((cfg0.win 6).blk t).view.read (Elt Ideal)
      (itemNet (V c (Pipeline.arrRef spec0 0)) (V c (Pipeline.arrRef spec0 1)) (V c (Pipeline.arrRef spec0 2)) x7 (V c (Pipeline.arrRef spec0 4)) x9) := by
  show (cfg0.win 6).cut (grid0.coords t) ((dat0 V c).after 6 t) = _
  rw [after0_6]
  unfold out0_6
  rw [View.canon_unit_zero hz2]
  simp only [View.ld_unit_zero (S := S1000x1280) hz2, View.ld_unit_zero (S := S1000x64) hz2, View.ld_unit_zero (S := S1280x256) hz2,
    View.ld_unit_zero (S := S1x256) hz2, View.ld_unit_zero (S := S256x64) hz2, View.ld_unit_zero (S := S1x64) hz2]
  funext j
  obtain ⟨p, q, rfl⟩ : ∃ (p : Fin 1000) (q : Fin 64), j = ix2 p q := ⟨j 0, j 1, eq_ix2 j⟩
  show k0_pay1 (F := Ideal) (iblk0 V c 0 t) (iblk0 V c 2 t) (iblk0 V c 3 t) (iblk0 V c 4 t) (iblk0 V c 5 t) (iblk0 V c 1 t) (ix2 p q)
    = itemNet (V c (Pipeline.arrRef spec0 0)) (V c (Pipeline.arrRef spec0 1)) (V c (Pipeline.arrRef spec0 2)) x7 (V c (Pipeline.arrRef spec0 4)) x9 (((cfg0.win 6).blk t).view.emb (ix2 p q))
  rw [emb0_6]
  exact Cert.Bridge.item_block _ _ _ x7 _ x9 _ _ _ _ _ _ (pt0 t) (fun p k => iblk0_0_apply V c t p k) (fun k j => iblk0_2_apply V c t k j)
    (fun j => (iblk0_3_apply V c t 0 j).trans (h7 j)) (fun j q => iblk0_4_apply V c t j q) (fun q => (iblk0_5_apply V c t 0 q).trans (h9 q))
    (fun p q => iblk0_1_apply V c t p q) p q

theorem mem_blk0_6 (t : Fin cfg0.N) (i : S50000x64.Idx) :
    i ∈ ((cfg0.win 6).blk t).view.set ↔ ∀ a : Fin 2, win0_6.index t a * S1000x64.size a ≤ (i a).val ∧ (i a).val < win0_6.index t a * S1000x64.size a + S1000x64.size a := by
  show i ∈ ((View.whole main_v2).slice (win0_6.rect t)).set ↔ _
  rw [View.set_slice_whole, Rect.mem_set_unit]
  exact Iff.rfl

/-- Every row of the array lies in the block of the point numbered by the row's block. -/
theorem tiles0_6 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  let t : Fin cfg0.N := (⟨(i 0).val / 1000, by omega⟩ : Fin 50).cast N_0.symm
  have e := idx0 t
  have ht : t.val = (i 0).val / 1000 := rfl
  refine ⟨t, flush0_6 t, ?_⟩
  rw [mem_blk0_6]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 64 ≤ (i 1).val ∧ (i 1).val < win0_6.index t (1 : Fin 2) * 64 + 64; omega

/-- Region 0's output array after the region: the item network of its input tables. -/
theorem final0 (c : Dev nD) (x7 : Arr Cert.ReferenceIdeal.S256) (x9 : Arr Cert.ReferenceIdeal.S64)
    (h7 : ∀ j : Fin 256, V c (Pipeline.arrRef spec0 3) (ix2 (0 : Fin 1) j) = x7 (ix1 j))
    (h9 : ∀ q : Fin 64, V c (Pipeline.arrRef spec0 5) (ix2 (0 : Fin 1) q) = x9 (ix1 q)) :
    (dat0 V c).arrAt 6 cfg0.N
      = itemNet (V c (Pipeline.arrRef spec0 0)) (V c (Pipeline.arrRef spec0 1)) (V c (Pipeline.arrRef spec0 2)) x7 (V c (Pipeline.arrRef spec0 4)) x9 :=
  (dat0 V c).arrAt_eq_of_cover 6 _ (fun t _ => flushed0_eq V c x7 x9 h7 h9 t) tiles0_6

/-! ## Region 1: the row normalisation -/

/-- The printed index maps over the grid: block t of either window is rows 3000 t … 3000 t + 2999, all columns. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- A grid point as a block number. -/
abbrev pt1 (t : Fin cfg1.N) : Fin 50 := t.cast N_1

theorem emb1_0 (t : Fin cfg1.N) (p : Fin 3000) (q : Fin 64) :
    ((cfg1.win 0).blk t).view.emb (ix2 p q) = ix2 (row3000 (pt1 t) p) q := by
  have e := idx1 t
  funext a; apply Fin.ext
  match a with
  | ⟨0, _⟩ => show win1_0.index t (0 : Fin 2) * 3000 + 1 * p.val = 3000 * t.val + p.val; omega
  | ⟨1, _⟩ => show win1_0.index t (1 : Fin 2) * 64 + 1 * q.val = q.val; omega

theorem emb1_1 (t : Fin cfg1.N) (p : Fin 3000) (q : Fin 64) :
    ((cfg1.win 1).blk t).view.emb (ix2 p q) = ix2 (row3000 (pt1 t) p) q := by
  have e := idx1 t
  funext a; apply Fin.ext
  match a with
  | ⟨0, _⟩ => show win1_1.index t (0 : Fin 2) * 3000 + 1 * p.val = 3000 * t.val + p.val; omega
  | ⟨1, _⟩ => show win1_1.index t (1 : Fin 2) * 64 + 1 * q.val = q.val; omega

theorem iblk1_0_apply (c : Dev nD) (t : Fin cfg1.N) (p : Fin 3000) (q : Fin 64) :
    iblk1 V c 0 t (ix2 p q) = V c (Pipeline.arrRef spec1 0) (ix2 (row3000 (pt1 t) p) q) := by
  show V c (Pipeline.arrRef spec1 0) (((cfg1.win 0).blk t).view.emb (ix2 p q)) = _
  rw [emb1_0]

/-- What point `t` writes back: block `t` of the row normalisation of the input table. -/
theorem flushed1_eq (c : Dev nD) (t : Fin cfg1.N) :
    (dat1 V c).flushed 1 t = ((cfg1.win 1).blk t).view.read (Elt Ideal) (rowNormalise (V c (Pipeline.arrRef spec1 0))) := by
  show (cfg1.win 1).cut (grid1.coords t) ((dat1 V c).after 1 t) = _
  rw [after1_1]
  unfold out1_1
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k1_pay1 (F := Ideal) (iblk1 V c 0 t) (ix2 p q) = rowNormalise (V c (Pipeline.arrRef spec1 0)) (((cfg1.win 1).blk t).view.emb (ix2 p q))
  rw [emb1_1]
  exact Cert.Bridge.l2_block _ _ (pt1 t) (fun p q => iblk1_0_apply V c t p q) p q

theorem mem_blk1_1 (t : Fin cfg1.N) (i : S150000x64.Idx) :
    i ∈ ((cfg1.win 1).blk t).view.set ↔ ∀ a : Fin 2, win1_1.index t a * S3000x64.size a ≤ (i a).val ∧ (i a).val < win1_1.index t a * S3000x64.size a + S3000x64.size a := by
  show i ∈ ((View.whole main_v4).slice (win1_1.rect t)).set ↔ _
  rw [View.set_slice_whole, Rect.mem_set_unit]
  exact Iff.rfl

/-- Every row of the array lies in the block of the point numbered by the row's block. -/
theorem tiles1_1 (i : S150000x64.Idx) : ∃ t : Fin cfg1.N, (cfg1.win 1).flush t = true ∧ i ∈ ((cfg1.win 1).blk t).view.set := by
  have hi0 : (i 0).val < 150000 := (i 0).isLt
  have hi1 : (i 1).val < 64 := (i 1).isLt
  let t : Fin cfg1.N := (⟨(i 0).val / 3000, by omega⟩ : Fin 50).cast N_1.symm
  have e := idx1 t
  have ht : t.val = (i 0).val / 3000 := rfl
  refine ⟨t, flush1_1 t, ?_⟩
  rw [mem_blk1_1]
  intro a
  match a with
  | ⟨0, _⟩ => show win1_1.index t (0 : Fin 2) * 3000 ≤ (i 0).val ∧ (i 0).val < win1_1.index t (0 : Fin 2) * 3000 + 3000; omega
  | ⟨1, _⟩ => show win1_1.index t (1 : Fin 2) * 64 ≤ (i 1).val ∧ (i 1).val < win1_1.index t (1 : Fin 2) * 64 + 64; omega

/-- Region 1's output array after the region: the row normalisation of its input array. -/
theorem final1 (c : Dev nD) : (dat1 V c).arrAt 1 cfg1.N = rowNormalise (V c (Pipeline.arrRef spec1 0)) :=
  (dat1 V c).arrAt_eq_of_cover 1 _ (fun t _ => flushed1_eq V c t) tiles1_1

/-! ## Region 2: the cosine reweighting -/

/-- The printed index maps over the grid: block t of every window is rows 3000 t … 3000 t + 2999, all columns. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A grid point as a block number. -/
abbrev pt2 (t : Fin cfg2.N) : Fin 50 := t.cast N_2

theorem emb2_0 (t : Fin cfg2.N) (p : Fin 3000) (q : Fin 64) :
    ((cfg2.win 0).blk t).view.emb (ix2 p q) = ix2 (row3000 (pt2 t) p) q := by
  have e := idx2 t
  funext a; apply Fin.ext
  match a with
  | ⟨0, _⟩ => show win2_0.index t (0 : Fin 2) * 3000 + 1 * p.val = 3000 * t.val + p.val; omega
  | ⟨1, _⟩ => show win2_0.index t (1 : Fin 2) * 64 + 1 * q.val = q.val; omega

theorem emb2_1 (t : Fin cfg2.N) (p : Fin 3000) (q : Fin 64) :
    ((cfg2.win 1).blk t).view.emb (ix2 p q) = ix2 (row3000 (pt2 t) p) q := by
  have e := idx2 t
  funext a; apply Fin.ext
  match a with
  | ⟨0, _⟩ => show win2_1.index t (0 : Fin 2) * 3000 + 1 * p.val = 3000 * t.val + p.val; omega
  | ⟨1, _⟩ => show win2_1.index t (1 : Fin 2) * 64 + 1 * q.val = q.val; omega

theorem emb2_2 (t : Fin cfg2.N) (p : Fin 3000) (q : Fin 64) :
    ((cfg2.win 2).blk t).view.emb (ix2 p q) = ix2 (row3000 (pt2 t) p) q := by
  have e := idx2 t
  funext a; apply Fin.ext
  match a with
  | ⟨0, _⟩ => show win2_2.index t (0 : Fin 2) * 3000 + 1 * p.val = 3000 * t.val + p.val; omega
  | ⟨1, _⟩ => show win2_2.index t (1 : Fin 2) * 64 + 1 * q.val = q.val; omega

theorem emb2_3 (t : Fin cfg2.N) (p : Fin 3000) (q : Fin 64) :
    ((cfg2.win 3).blk t).view.emb (ix2 p q) = ix2 (row3000 (pt2 t) p) q := by
  have e := idx2 t
  funext a; apply Fin.ext
  match a with
  | ⟨0, _⟩ => show win2_3.index t (0 : Fin 2) * 3000 + 1 * p.val = 3000 * t.val + p.val; omega
  | ⟨1, _⟩ => show win2_3.index t (1 : Fin 2) * 64 + 1 * q.val = q.val; omega

theorem emb2_4 (t : Fin cfg2.N) (p : Fin 3000) (q : Fin 64) :
    ((cfg2.win 4).blk t).view.emb (ix2 p q) = ix2 (row3000 (pt2 t) p) q := by
  have e := idx2 t
  funext a; apply Fin.ext
  match a with
  | ⟨0, _⟩ => show win2_4.index t (0 : Fin 2) * 3000 + 1 * p.val = 3000 * t.val + p.val; omega
  | ⟨1, _⟩ => show win2_4.index t (1 : Fin 2) * 64 + 1 * q.val = q.val; omega

theorem iblk2_0_apply (c : Dev nD) (t : Fin cfg2.N) (p : Fin 3000) (q : Fin 64) :
    iblk2 V c 0 t (ix2 p q) = V c (Pipeline.arrRef spec2 0) (ix2 (row3000 (pt2 t) p) q) := by
  show V c (Pipeline.arrRef spec2 0) (((cfg2.win 0).blk t).view.emb (ix2 p q)) = _
  rw [emb2_0]

theorem iblk2_1_apply (c : Dev nD) (t : Fin cfg2.N) (p : Fin 3000) (q : Fin 64) :
    iblk2 V c 1 t (ix2 p q) = V c (Pipeline.arrRef spec2 1) (ix2 (row3000 (pt2 t) p) q) := by
  show V c (Pipeline.arrRef spec2 1) (((cfg2.win 1).blk t).view.emb (ix2 p q)) = _
  rw [emb2_1]

theorem iblk2_2_apply (c : Dev nD) (t : Fin cfg2.N) (p : Fin 3000) (q : Fin 64) :
    iblk2 V c 2 t (ix2 p q) = V c (Pipeline.arrRef spec2 2) (ix2 (row3000 (pt2 t) p) q) := by
  show V c (Pipeline.arrRef spec2 2) (((cfg2.win 2).blk t).view.emb (ix2 p q)) = _
  rw [emb2_2]

/-- What point `t` writes back into the first output: block `t` of the cosine scaling of the two input tables. -/
theorem flushed2_3_eq (c : Dev nD) (t : Fin cfg2.N) :
    (dat2 V c).flushed 3 t = ((cfg2.win 3).blk t).view.read (Elt Ideal) (cosineScale (V c (Pipeline.arrRef spec2 0)) (V c (Pipeline.arrRef spec2 1))) := by
  show (cfg2.win 3).cut (grid2.coords t) ((dat2 V c).after 3 t) = _
  rw [after2_3]
  unfold out2_3
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k2_pay1 (F := Ideal) (iblk2 V c 0 t) (iblk2 V c 1 t) (ix2 p q)
    = cosineScale (V c (Pipeline.arrRef spec2 0)) (V c (Pipeline.arrRef spec2 1)) (((cfg2.win 3).blk t).view.emb (ix2 p q))
  rw [emb2_3]
  exact Cert.Bridge.cos_block _ _ _ _ (pt2 t) (fun p q => iblk2_0_apply V c t p q) (fun p q => iblk2_1_apply V c t p q) p q

/-- What point `t` writes back into the second output: block `t` of the running total plus the cosine scaling. -/
theorem flushed2_4_eq (c : Dev nD) (t : Fin cfg2.N) :
    (dat2 V c).flushed 4 t = ((cfg2.win 4).blk t).view.read (Elt Ideal)
      (addf (V c (Pipeline.arrRef spec2 2)) (cosineScale (V c (Pipeline.arrRef spec2 0)) (V c (Pipeline.arrRef spec2 1)))) := by
  show (cfg2.win 4).cut (grid2.coords t) ((dat2 V c).after 4 t) = _
  rw [after2_4]
  unfold out2_4
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k2_pay2 (F := Ideal) (iblk2 V c 0 t) (iblk2 V c 1 t) (iblk2 V c 2 t) (ix2 p q)
    = addf (V c (Pipeline.arrRef spec2 2)) (cosineScale (V c (Pipeline.arrRef spec2 0)) (V c (Pipeline.arrRef spec2 1))) (((cfg2.win 4).blk t).view.emb (ix2 p q))
  rw [emb2_4]
  exact Cert.Bridge.tot_block _ _ _ _ _ _ (pt2 t) (fun p q => iblk2_0_apply V c t p q) (fun p q => iblk2_1_apply V c t p q) (fun p q => iblk2_2_apply V c t p q) p q

theorem mem_blk2_3 (t : Fin cfg2.N) (i : S150000x64.Idx) :
    i ∈ ((cfg2.win 3).blk t).view.set ↔ ∀ a : Fin 2, win2_3.index t a * S3000x64.size a ≤ (i a).val ∧ (i a).val < win2_3.index t a * S3000x64.size a + S3000x64.size a := by
  show i ∈ ((View.whole main_v18_0).slice (win2_3.rect t)).set ↔ _
  rw [View.set_slice_whole, Rect.mem_set_unit]
  exact Iff.rfl

/-- Every row of the array lies in the block of the point numbered by the row's block. -/
theorem tiles2_3 (i : S150000x64.Idx) : ∃ t : Fin cfg2.N, (cfg2.win 3).flush t = true ∧ i ∈ ((cfg2.win 3).blk t).view.set := by
  have hi0 : (i 0).val < 150000 := (i 0).isLt
  have hi1 : (i 1).val < 64 := (i 1).isLt
  let t : Fin cfg2.N := (⟨(i 0).val / 3000, by omega⟩ : Fin 50).cast N_2.symm
  have e := idx2 t
  have ht : t.val = (i 0).val / 3000 := rfl
  refine ⟨t, flush2_3 t, ?_⟩
  rw [mem_blk2_3]
  intro a
  match a with
  | ⟨0, _⟩ => show win2_3.index t (0 : Fin 2) * 3000 ≤ (i 0).val ∧ (i 0).val < win2_3.index t (0 : Fin 2) * 3000 + 3000; omega
  | ⟨1, _⟩ => show win2_3.index t (1 : Fin 2) * 64 ≤ (i 1).val ∧ (i 1).val < win2_3.index t (1 : Fin 2) * 64 + 64; omega

theorem mem_blk2_4 (t : Fin cfg2.N) (i : S150000x64.Idx) :
    i ∈ ((cfg2.win 4).blk t).view.set ↔ ∀ a : Fin 2, win2_4.index t a * S3000x64.size a ≤ (i a).val ∧ (i a).val < win2_4.index t a * S3000x64.size a + S3000x64.size a := by
  show i ∈ ((View.whole main_v18_1).slice (win2_4.rect t)).set ↔ _
  rw [View.set_slice_whole, Rect.mem_set_unit]
  exact Iff.rfl

/-- Every row of the array lies in the block of the point numbered by the row's block. -/
theorem tiles2_4 (i : S150000x64.Idx) : ∃ t : Fin cfg2.N, (cfg2.win 4).flush t = true ∧ i ∈ ((cfg2.win 4).blk t).view.set := by
  have hi0 : (i 0).val < 150000 := (i 0).isLt
  have hi1 : (i 1).val < 64 := (i 1).isLt
  let t : Fin cfg2.N := (⟨(i 0).val / 3000, by omega⟩ : Fin 50).cast N_2.symm
  have e := idx2 t
  have ht : t.val = (i 0).val / 3000 := rfl
  refine ⟨t, flush2_4 t, ?_⟩
  rw [mem_blk2_4]
  intro a
  match a with
  | ⟨0, _⟩ => show win2_4.index t (0 : Fin 2) * 3000 ≤ (i 0).val ∧ (i 0).val < win2_4.index t (0 : Fin 2) * 3000 + 3000; omega
  | ⟨1, _⟩ => show win2_4.index t (1 : Fin 2) * 64 ≤ (i 1).val ∧ (i 1).val < win2_4.index t (1 : Fin 2) * 64 + 64; omega

/-- Region 2's first output array after the region: the cosine scaling of its first input against its second. -/
theorem final2_3 (c : Dev nD) : (dat2 V c).arrAt 3 cfg2.N = cosineScale (V c (Pipeline.arrRef spec2 0)) (V c (Pipeline.arrRef spec2 1)) :=
  (dat2 V c).arrAt_eq_of_cover 3 _ (fun t _ => flushed2_3_eq V c t) tiles2_3

/-- Region 2's second output array after the region: its third input plus that scaling. -/
theorem final2_4 (c : Dev nD) : (dat2 V c).arrAt 4 cfg2.N
    = addf (V c (Pipeline.arrRef spec2 2)) (cosineScale (V c (Pipeline.arrRef spec2 0)) (V c (Pipeline.arrRef spec2 1))) :=
  (dat2 V c).arrAt_eq_of_cover 4 _ (fun t _ => flushed2_4_eq V c t) tiles2_4

/-! ## Region 3: the cosine reweighting -/

/-- The printed index maps over the grid: block t of every window is rows 3000 t … 3000 t + 2999, all columns. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- A grid point as a block number. -/
abbrev pt3 (t : Fin cfg3.N) : Fin 50 := t.cast N_3

theorem emb3_0 (t : Fin cfg3.N) (p : Fin 3000) (q : Fin 64) :
    ((cfg3.win 0).blk t).view.emb (ix2 p q) = ix2 (row3000 (pt3 t) p) q := by
  have e := idx3 t
  funext a; apply Fin.ext
  match a with
  | ⟨0, _⟩ => show win3_0.index t (0 : Fin 2) * 3000 + 1 * p.val = 3000 * t.val + p.val; omega
  | ⟨1, _⟩ => show win3_0.index t (1 : Fin 2) * 64 + 1 * q.val = q.val; omega

theorem emb3_1 (t : Fin cfg3.N) (p : Fin 3000) (q : Fin 64) :
    ((cfg3.win 1).blk t).view.emb (ix2 p q) = ix2 (row3000 (pt3 t) p) q := by
  have e := idx3 t
  funext a; apply Fin.ext
  match a with
  | ⟨0, _⟩ => show win3_1.index t (0 : Fin 2) * 3000 + 1 * p.val = 3000 * t.val + p.val; omega
  | ⟨1, _⟩ => show win3_1.index t (1 : Fin 2) * 64 + 1 * q.val = q.val; omega

theorem emb3_2 (t : Fin cfg3.N) (p : Fin 3000) (q : Fin 64) :
    ((cfg3.win 2).blk t).view.emb (ix2 p q) = ix2 (row3000 (pt3 t) p) q := by
  have e := idx3 t
  funext a; apply Fin.ext
  match a with
  | ⟨0, _⟩ => show win3_2.index t (0 : Fin 2) * 3000 + 1 * p.val = 3000 * t.val + p.val; omega
  | ⟨1, _⟩ => show win3_2.index t (1 : Fin 2) * 64 + 1 * q.val = q.val; omega

theorem emb3_3 (t : Fin cfg3.N) (p : Fin 3000) (q : Fin 64) :
    ((cfg3.win 3).blk t).view.emb (ix2 p q) = ix2 (row3000 (pt3 t) p) q := by
  have e := idx3 t
  funext a; apply Fin.ext
  match a with
  | ⟨0, _⟩ => show win3_3.index t (0 : Fin 2) * 3000 + 1 * p.val = 3000 * t.val + p.val; omega
  | ⟨1, _⟩ => show win3_3.index t (1 : Fin 2) * 64 + 1 * q.val = q.val; omega

theorem emb3_4 (t : Fin cfg3.N) (p : Fin 3000) (q : Fin 64) :
    ((cfg3.win 4).blk t).view.emb (ix2 p q) = ix2 (row3000 (pt3 t) p) q := by
  have e := idx3 t
  funext a; apply Fin.ext
  match a with
  | ⟨0, _⟩ => show win3_4.index t (0 : Fin 2) * 3000 + 1 * p.val = 3000 * t.val + p.val; omega
  | ⟨1, _⟩ => show win3_4.index t (1 : Fin 2) * 64 + 1 * q.val = q.val; omega

theorem iblk3_0_apply (c : Dev nD) (t : Fin cfg3.N) (p : Fin 3000) (q : Fin 64) :
    iblk3 V c 0 t (ix2 p q) = V c (Pipeline.arrRef spec3 0) (ix2 (row3000 (pt3 t) p) q) := by
  show V c (Pipeline.arrRef spec3 0) (((cfg3.win 0).blk t).view.emb (ix2 p q)) = _
  rw [emb3_0]

theorem iblk3_1_apply (c : Dev nD) (t : Fin cfg3.N) (p : Fin 3000) (q : Fin 64) :
    iblk3 V c 1 t (ix2 p q) = V c (Pipeline.arrRef spec3 1) (ix2 (row3000 (pt3 t) p) q) := by
  show V c (Pipeline.arrRef spec3 1) (((cfg3.win 1).blk t).view.emb (ix2 p q)) = _
  rw [emb3_1]

theorem iblk3_2_apply (c : Dev nD) (t : Fin cfg3.N) (p : Fin 3000) (q : Fin 64) :
    iblk3 V c 2 t (ix2 p q) = V c (Pipeline.arrRef spec3 2) (ix2 (row3000 (pt3 t) p) q) := by
  show V c (Pipeline.arrRef spec3 2) (((cfg3.win 2).blk t).view.emb (ix2 p q)) = _
  rw [emb3_2]

/-- What point `t` writes back into the first output: block `t` of the cosine scaling of the two input tables. -/
theorem flushed3_3_eq (c : Dev nD) (t : Fin cfg3.N) :
    (dat3 V c).flushed 3 t = ((cfg3.win 3).blk t).view.read (Elt Ideal) (cosineScale (V c (Pipeline.arrRef spec3 0)) (V c (Pipeline.arrRef spec3 1))) := by
  show (cfg3.win 3).cut (grid3.coords t) ((dat3 V c).after 3 t) = _
  rw [after3_3]
  unfold out3_3
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k2_pay1 (F := Ideal) (iblk3 V c 0 t) (iblk3 V c 1 t) (ix2 p q)
    = cosineScale (V c (Pipeline.arrRef spec3 0)) (V c (Pipeline.arrRef spec3 1)) (((cfg3.win 3).blk t).view.emb (ix2 p q))
  rw [emb3_3]
  exact Cert.Bridge.cos_block _ _ _ _ (pt3 t) (fun p q => iblk3_0_apply V c t p q) (fun p q => iblk3_1_apply V c t p q) p q

/-- What point `t` writes back into the second output: block `t` of the running total plus the cosine scaling. -/
theorem flushed3_4_eq (c : Dev nD) (t : Fin cfg3.N) :
    (dat3 V c).flushed 4 t = ((cfg3.win 4).blk t).view.read (Elt Ideal)
      (addf (V c (Pipeline.arrRef spec3 2)) (cosineScale (V c (Pipeline.arrRef spec3 0)) (V c (Pipeline.arrRef spec3 1)))) := by
  show (cfg3.win 4).cut (grid3.coords t) ((dat3 V c).after 4 t) = _
  rw [after3_4]
  unfold out3_4
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k2_pay2 (F := Ideal) (iblk3 V c 0 t) (iblk3 V c 1 t) (iblk3 V c 2 t) (ix2 p q)
    = addf (V c (Pipeline.arrRef spec3 2)) (cosineScale (V c (Pipeline.arrRef spec3 0)) (V c (Pipeline.arrRef spec3 1))) (((cfg3.win 4).blk t).view.emb (ix2 p q))
  rw [emb3_4]
  exact Cert.Bridge.tot_block _ _ _ _ _ _ (pt3 t) (fun p q => iblk3_0_apply V c t p q) (fun p q => iblk3_1_apply V c t p q) (fun p q => iblk3_2_apply V c t p q) p q

theorem mem_blk3_3 (t : Fin cfg3.N) (i : S150000x64.Idx) :
    i ∈ ((cfg3.win 3).blk t).view.set ↔ ∀ a : Fin 2, win3_3.index t a * S3000x64.size a ≤ (i a).val ∧ (i a).val < win3_3.index t a * S3000x64.size a + S3000x64.size a := by
  show i ∈ ((View.whole main_v32_0).slice (win3_3.rect t)).set ↔ _
  rw [View.set_slice_whole, Rect.mem_set_unit]
  exact Iff.rfl

/-- Every row of the array lies in the block of the point numbered by the row's block. -/
theorem tiles3_3 (i : S150000x64.Idx) : ∃ t : Fin cfg3.N, (cfg3.win 3).flush t = true ∧ i ∈ ((cfg3.win 3).blk t).view.set := by
  have hi0 : (i 0).val < 150000 := (i 0).isLt
  have hi1 : (i 1).val < 64 := (i 1).isLt
  let t : Fin cfg3.N := (⟨(i 0).val / 3000, by omega⟩ : Fin 50).cast N_3.symm
  have e := idx3 t
  have ht : t.val = (i 0).val / 3000 := rfl
  refine ⟨t, flush3_3 t, ?_⟩
  rw [mem_blk3_3]
  intro a
  match a with
  | ⟨0, _⟩ => show win3_3.index t (0 : Fin 2) * 3000 ≤ (i 0).val ∧ (i 0).val < win3_3.index t (0 : Fin 2) * 3000 + 3000; omega
  | ⟨1, _⟩ => show win3_3.index t (1 : Fin 2) * 64 ≤ (i 1).val ∧ (i 1).val < win3_3.index t (1 : Fin 2) * 64 + 64; omega

theorem mem_blk3_4 (t : Fin cfg3.N) (i : S150000x64.Idx) :
    i ∈ ((cfg3.win 4).blk t).view.set ↔ ∀ a : Fin 2, win3_4.index t a * S3000x64.size a ≤ (i a).val ∧ (i a).val < win3_4.index t a * S3000x64.size a + S3000x64.size a := by
  show i ∈ ((View.whole main_v32_1).slice (win3_4.rect t)).set ↔ _
  rw [View.set_slice_whole, Rect.mem_set_unit]
  exact Iff.rfl

/-- Every row of the array lies in the block of the point numbered by the row's block. -/
theorem tiles3_4 (i : S150000x64.Idx) : ∃ t : Fin cfg3.N, (cfg3.win 4).flush t = true ∧ i ∈ ((cfg3.win 4).blk t).view.set := by
  have hi0 : (i 0).val < 150000 := (i 0).isLt
  have hi1 : (i 1).val < 64 := (i 1).isLt
  let t : Fin cfg3.N := (⟨(i 0).val / 3000, by omega⟩ : Fin 50).cast N_3.symm
  have e := idx3 t
  have ht : t.val = (i 0).val / 3000 := rfl
  refine ⟨t, flush3_4 t, ?_⟩
  rw [mem_blk3_4]
  intro a
  match a with
  | ⟨0, _⟩ => show win3_4.index t (0 : Fin 2) * 3000 ≤ (i 0).val ∧ (i 0).val < win3_4.index t (0 : Fin 2) * 3000 + 3000; omega
  | ⟨1, _⟩ => show win3_4.index t (1 : Fin 2) * 64 ≤ (i 1).val ∧ (i 1).val < win3_4.index t (1 : Fin 2) * 64 + 64; omega

/-- Region 3's first output array after the region: the cosine scaling of its first input against its second. -/
theorem final3_3 (c : Dev nD) : (dat3 V c).arrAt 3 cfg3.N = cosineScale (V c (Pipeline.arrRef spec3 0)) (V c (Pipeline.arrRef spec3 1)) :=
  (dat3 V c).arrAt_eq_of_cover 3 _ (fun t _ => flushed3_3_eq V c t) tiles3_3

/-- Region 3's second output array after the region: its third input plus that scaling. -/
theorem final3_4 (c : Dev nD) : (dat3 V c).arrAt 4 cfg3.N
    = addf (V c (Pipeline.arrRef spec3 2)) (cosineScale (V c (Pipeline.arrRef spec3 0)) (V c (Pipeline.arrRef spec3 1))) :=
  (dat3 V c).arrAt_eq_of_cover 4 _ (fun t _ => flushed3_4_eq V c t) tiles3_4

/-! ## Region 4: the cosine reweighting -/

/-- The printed index maps over the grid: block t of every window is rows 3000 t … 3000 t + 2999, all columns. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- A grid point as a block number. -/
abbrev pt4 (t : Fin cfg4.N) : Fin 50 := t.cast N_4

theorem emb4_0 (t : Fin cfg4.N) (p : Fin 3000) (q : Fin 64) :
    ((cfg4.win 0).blk t).view.emb (ix2 p q) = ix2 (row3000 (pt4 t) p) q := by
  have e := idx4 t
  funext a; apply Fin.ext
  match a with
  | ⟨0, _⟩ => show win4_0.index t (0 : Fin 2) * 3000 + 1 * p.val = 3000 * t.val + p.val; omega
  | ⟨1, _⟩ => show win4_0.index t (1 : Fin 2) * 64 + 1 * q.val = q.val; omega

theorem emb4_1 (t : Fin cfg4.N) (p : Fin 3000) (q : Fin 64) :
    ((cfg4.win 1).blk t).view.emb (ix2 p q) = ix2 (row3000 (pt4 t) p) q := by
  have e := idx4 t
  funext a; apply Fin.ext
  match a with
  | ⟨0, _⟩ => show win4_1.index t (0 : Fin 2) * 3000 + 1 * p.val = 3000 * t.val + p.val; omega
  | ⟨1, _⟩ => show win4_1.index t (1 : Fin 2) * 64 + 1 * q.val = q.val; omega

theorem emb4_2 (t : Fin cfg4.N) (p : Fin 3000) (q : Fin 64) :
    ((cfg4.win 2).blk t).view.emb (ix2 p q) = ix2 (row3000 (pt4 t) p) q := by
  have e := idx4 t
  funext a; apply Fin.ext
  match a with
  | ⟨0, _⟩ => show win4_2.index t (0 : Fin 2) * 3000 + 1 * p.val = 3000 * t.val + p.val; omega
  | ⟨1, _⟩ => show win4_2.index t (1 : Fin 2) * 64 + 1 * q.val = q.val; omega

theorem emb4_3 (t : Fin cfg4.N) (p : Fin 3000) (q : Fin 64) :
    ((cfg4.win 3).blk t).view.emb (ix2 p q) = ix2 (row3000 (pt4 t) p) q := by
  have e := idx4 t
  funext a; apply Fin.ext
  match a with
  | ⟨0, _⟩ => show win4_3.index t (0 : Fin 2) * 3000 + 1 * p.val = 3000 * t.val + p.val; omega
  | ⟨1, _⟩ => show win4_3.index t (1 : Fin 2) * 64 + 1 * q.val = q.val; omega

theorem emb4_4 (t : Fin cfg4.N) (p : Fin 3000) (q : Fin 64) :
    ((cfg4.win 4).blk t).view.emb (ix2 p q) = ix2 (row3000 (pt4 t) p) q := by
  have e := idx4 t
  funext a; apply Fin.ext
  match a with
  | ⟨0, _⟩ => show win4_4.index t (0 : Fin 2) * 3000 + 1 * p.val = 3000 * t.val + p.val; omega
  | ⟨1, _⟩ => show win4_4.index t (1 : Fin 2) * 64 + 1 * q.val = q.val; omega

theorem iblk4_0_apply (c : Dev nD) (t : Fin cfg4.N) (p : Fin 3000) (q : Fin 64) :
    iblk4 V c 0 t (ix2 p q) = V c (Pipeline.arrRef spec4 0) (ix2 (row3000 (pt4 t) p) q) := by
  show V c (Pipeline.arrRef spec4 0) (((cfg4.win 0).blk t).view.emb (ix2 p q)) = _
  rw [emb4_0]

theorem iblk4_1_apply (c : Dev nD) (t : Fin cfg4.N) (p : Fin 3000) (q : Fin 64) :
    iblk4 V c 1 t (ix2 p q) = V c (Pipeline.arrRef spec4 1) (ix2 (row3000 (pt4 t) p) q) := by
  show V c (Pipeline.arrRef spec4 1) (((cfg4.win 1).blk t).view.emb (ix2 p q)) = _
  rw [emb4_1]

theorem iblk4_2_apply (c : Dev nD) (t : Fin cfg4.N) (p : Fin 3000) (q : Fin 64) :
    iblk4 V c 2 t (ix2 p q) = V c (Pipeline.arrRef spec4 2) (ix2 (row3000 (pt4 t) p) q) := by
  show V c (Pipeline.arrRef spec4 2) (((cfg4.win 2).blk t).view.emb (ix2 p q)) = _
  rw [emb4_2]

/-- What point `t` writes back into the first output: block `t` of the cosine scaling of the two input tables. -/
theorem flushed4_3_eq (c : Dev nD) (t : Fin cfg4.N) :
    (dat4 V c).flushed 3 t = ((cfg4.win 3).blk t).view.read (Elt Ideal) (cosineScale (V c (Pipeline.arrRef spec4 0)) (V c (Pipeline.arrRef spec4 1))) := by
  show (cfg4.win 3).cut (grid4.coords t) ((dat4 V c).after 3 t) = _
  rw [after4_3]
  unfold out4_3
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k2_pay1 (F := Ideal) (iblk4 V c 0 t) (iblk4 V c 1 t) (ix2 p q)
    = cosineScale (V c (Pipeline.arrRef spec4 0)) (V c (Pipeline.arrRef spec4 1)) (((cfg4.win 3).blk t).view.emb (ix2 p q))
  rw [emb4_3]
  exact Cert.Bridge.cos_block _ _ _ _ (pt4 t) (fun p q => iblk4_0_apply V c t p q) (fun p q => iblk4_1_apply V c t p q) p q

/-- What point `t` writes back into the second output: block `t` of the running total plus the cosine scaling. -/
theorem flushed4_4_eq (c : Dev nD) (t : Fin cfg4.N) :
    (dat4 V c).flushed 4 t = ((cfg4.win 4).blk t).view.read (Elt Ideal)
      (addf (V c (Pipeline.arrRef spec4 2)) (cosineScale (V c (Pipeline.arrRef spec4 0)) (V c (Pipeline.arrRef spec4 1)))) := by
  show (cfg4.win 4).cut (grid4.coords t) ((dat4 V c).after 4 t) = _
  rw [after4_4]
  unfold out4_4
  rw [View.canon_unit_zero hz2]
  simp only [View.ld_unit_zero (S := S3000x64) hz2]
  funext j
  obtain ⟨p, q, rfl⟩ : ∃ (p : Fin 3000) (q : Fin 64), j = ix2 p q := ⟨j 0, j 1, eq_ix2 j⟩
  show k2_pay2 (F := Ideal) (iblk4 V c 0 t) (iblk4 V c 1 t) (iblk4 V c 2 t) (ix2 p q)
    = addf (V c (Pipeline.arrRef spec4 2)) (cosineScale (V c (Pipeline.arrRef spec4 0)) (V c (Pipeline.arrRef spec4 1))) (((cfg4.win 4).blk t).view.emb (ix2 p q))
  rw [emb4_4]
  exact Cert.Bridge.tot_block _ _ _ _ _ _ (pt4 t) (fun p q => iblk4_0_apply V c t p q) (fun p q => iblk4_1_apply V c t p q) (fun p q => iblk4_2_apply V c t p q) p q

theorem mem_blk4_3 (t : Fin cfg4.N) (i : S150000x64.Idx) :
    i ∈ ((cfg4.win 3).blk t).view.set ↔ ∀ a : Fin 2, win4_3.index t a * S3000x64.size a ≤ (i a).val ∧ (i a).val < win4_3.index t a * S3000x64.size a + S3000x64.size a := by
  show i ∈ ((View.whole main_v46_0).slice (win4_3.rect t)).set ↔ _
  rw [View.set_slice_whole, Rect.mem_set_unit]
  exact Iff.rfl

/-- Every row of the array lies in the block of the point numbered by the row's block. -/
theorem tiles4_3 (i : S150000x64.Idx) : ∃ t : Fin cfg4.N, (cfg4.win 3).flush t = true ∧ i ∈ ((cfg4.win 3).blk t).view.set := by
  have hi0 : (i 0).val < 150000 := (i 0).isLt
  have hi1 : (i 1).val < 64 := (i 1).isLt
  let t : Fin cfg4.N := (⟨(i 0).val / 3000, by omega⟩ : Fin 50).cast N_4.symm
  have e := idx4 t
  have ht : t.val = (i 0).val / 3000 := rfl
  refine ⟨t, flush4_3 t, ?_⟩
  rw [mem_blk4_3]
  intro a
  match a with
  | ⟨0, _⟩ => show win4_3.index t (0 : Fin 2) * 3000 ≤ (i 0).val ∧ (i 0).val < win4_3.index t (0 : Fin 2) * 3000 + 3000; omega
  | ⟨1, _⟩ => show win4_3.index t (1 : Fin 2) * 64 ≤ (i 1).val ∧ (i 1).val < win4_3.index t (1 : Fin 2) * 64 + 64; omega

theorem mem_blk4_4 (t : Fin cfg4.N) (i : S150000x64.Idx) :
    i ∈ ((cfg4.win 4).blk t).view.set ↔ ∀ a : Fin 2, win4_4.index t a * S3000x64.size a ≤ (i a).val ∧ (i a).val < win4_4.index t a * S3000x64.size a + S3000x64.size a := by
  show i ∈ ((View.whole main_v46_1).slice (win4_4.rect t)).set ↔ _
  rw [View.set_slice_whole, Rect.mem_set_unit]
  exact Iff.rfl

/-- Every row of the array lies in the block of the point numbered by the row's block. -/
theorem tiles4_4 (i : S150000x64.Idx) : ∃ t : Fin cfg4.N, (cfg4.win 4).flush t = true ∧ i ∈ ((cfg4.win 4).blk t).view.set := by
  have hi0 : (i 0).val < 150000 := (i 0).isLt
  have hi1 : (i 1).val < 64 := (i 1).isLt
  let t : Fin cfg4.N := (⟨(i 0).val / 3000, by omega⟩ : Fin 50).cast N_4.symm
  have e := idx4 t
  have ht : t.val = (i 0).val / 3000 := rfl
  refine ⟨t, flush4_4 t, ?_⟩
  rw [mem_blk4_4]
  intro a
  match a with
  | ⟨0, _⟩ => show win4_4.index t (0 : Fin 2) * 3000 ≤ (i 0).val ∧ (i 0).val < win4_4.index t (0 : Fin 2) * 3000 + 3000; omega
  | ⟨1, _⟩ => show win4_4.index t (1 : Fin 2) * 64 ≤ (i 1).val ∧ (i 1).val < win4_4.index t (1 : Fin 2) * 64 + 64; omega

/-- Region 4's first output array after the region: the cosine scaling of its first input against its second. -/
theorem final4_3 (c : Dev nD) : (dat4 V c).arrAt 3 cfg4.N = cosineScale (V c (Pipeline.arrRef spec4 0)) (V c (Pipeline.arrRef spec4 1)) :=
  (dat4 V c).arrAt_eq_of_cover 3 _ (fun t _ => flushed4_3_eq V c t) tiles4_3

/-- Region 4's second output array after the region: its third input plus that scaling. -/
theorem final4_4 (c : Dev nD) : (dat4 V c).arrAt 4 cfg4.N
    = addf (V c (Pipeline.arrRef spec4 2)) (cosineScale (V c (Pipeline.arrRef spec4 0)) (V c (Pipeline.arrRef spec4 1))) :=
  (dat4 V c).arrAt_eq_of_cover 4 _ (fun t _ => flushed4_4_eq V c t) tiles4_4

end Cert.KernelIdeal.Reg

end
-- ==== Proof.IRun.lean ====
/-
  The whole run of the five-region program, at any float instance: the contents of every buffer the host
  can see at each boundary between a stretch of host operations and a kernel region, as a fold from the launch
  memory; each region's record over the thread state "every such buffer at the boundary's contents"; and the
  run: every weakly fair execution terminates without a fault, in a state whose buffers hold the last
  boundary's contents. Region 2 reads one array through two windows, so its entry splits that array's
  ownership into two halves and its exit joins them again (the two lemmas below the boundaries).
-/
import proofs.«120298_j9921374454291_1_alg».proof.Proof.IReg0
import proofs.«120298_j9921374454291_1_alg».proof.Proof.IReg1
import proofs.«120298_j9921374454291_1_alg».proof.Proof.IReg2
import proofs.«120298_j9921374454291_1_alg».proof.Proof.IReg3
import proofs.«120298_j9921374454291_1_alg».proof.Proof.IReg4

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the next stretch of host operations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the next stretch of host operations (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its two output arrays at what the pipeline leaves, every other buffer (its three inputs'
    two arrays among them) as entered. -/
def W6 (c : Dev nD) : Valuation τ sig (Elt F) :=
  Function.update (Function.update (W5 m ρ c) (Proc.devRef .tc main_v18_0) ((dat2 (V5 m ρ) c).arrAt 3 cfg2.N))
    (Proc.devRef .tc main_v18_1) ((dat2 (V5 m ρ) c).arrAt 4 cfg2.N)
abbrev V6 : (c : Dev nD) → (b : Ref sig .tc) → Buf (Elt F) ((c : Thread nD τ).loc b) := fun c b => W6 m ρ c b
theorem W6_of_ne (c : Dev nD) (b : Ref sig .tc) (h0 : b ≠ main_v18_0) (h1 : b ≠ main_v18_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
theorem hF2 (c : Dev nD) : ∀ w : Fin cfg2.W, (dat2 (V5 m ρ) c).arrAt w cfg2.N = V6 m ρ c (Pipeline.arrRef spec2 w)
  | ⟨0, _⟩ => (((dat2 (V5 m ρ) c).arrAt_in 0 rfl _).trans (A_eq2 (V5 m ρ) c 0)).trans (W6_of_ne m ρ c _ (by decide) (by decide)).symm
  | ⟨1, _⟩ => (((dat2 (V5 m ρ) c).arrAt_in 1 rfl _).trans (A_eq2 (V5 m ρ) c 1)).trans (W6_of_ne m ρ c _ (by decide) (by decide)).symm
  | ⟨2, _⟩ => (((dat2 (V5 m ρ) c).arrAt_in 2 rfl _).trans (A_eq2 (V5 m ρ) c 2)).trans (W6_of_ne m ρ c _ (by decide) (by decide)).symm
  | ⟨3, _⟩ => by
      show _ = W6 m ρ c (Proc.devRef .tc main_v18_0)
      unfold W6
      rw [Function.update_of_ne (StableHlo.devRef_ne_of_ne (by decide)), Function.update_self]
      rfl
  | ⟨4, _⟩ => by
      show _ = W6 m ρ c (Proc.devRef .tc main_v18_1)
      unfold W6
      rw [Function.update_self]
      rfl
theorem hrest2 (c : Dev nD) : ∀ b, b ∉ Finset.univ.image (Pipeline.arrRef spec2) → V6 m ρ c b = V5 m ρ c b :=
  fun b hb => W6_of_ne m ρ c b
    (fun e => hb (Finset.mem_image.mpr ⟨3, Finset.mem_univ _, e.symm⟩))
    (fun e => hb (Finset.mem_image.mpr ⟨4, Finset.mem_univ _, e.symm⟩))

/-- After the fourth stretch of host operations (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the next stretch of host operations (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## Region 2's arrays among the core's buffers: one array behind two windows -/

theorem share2_0 (V : (c : Dev nD) → (b : Ref sig .tc) → Buf (Elt F) ((c : Thread nD τ).loc b)) (c : Dev nD) : (dat2 V c).share 0 = fullShare := rfl
theorem share2_1 (V : (c : Dev nD) → (b : Ref sig .tc) → Buf (Elt F) ((c : Thread nD τ).loc b)) (c : Dev nD) : (dat2 V c).share 1 = PosShare.left fullShare := rfl
theorem share2_2 (V : (c : Dev nD) → (b : Ref sig .tc) → Buf (Elt F) ((c : Thread nD τ).loc b)) (c : Dev nD) : (dat2 V c).share 2 = PosShare.right fullShare := rfl
theorem share2_3 (V : (c : Dev nD) → (b : Ref sig .tc) → Buf (Elt F) ((c : Thread nD τ).loc b)) (c : Dev nD) : (dat2 V c).share 3 = fullShare := rfl
theorem share2_4 (V : (c : Dev nD) → (b : Ref sig .tc) → Buf (Elt F) ((c : Thread nD τ).loc b)) (c : Dev nD) : (dat2 V c).share 4 = fullShare := rfl

/-- The four buffers behind region 2's five windows. -/
theorem image2 : (Finset.univ.image (Pipeline.arrRef spec2) : Finset (Ref sig .tc)) = {main_v17, main_v4, main_v18_0, main_v18_1} := by decide

/-- Those four buffers, whole, one by one. -/
theorem arrBufs2_eq (c : Dev nD) (U : (b : Ref sig .tc) → Buf (Elt F) ((c.tc : Thread nD τ).loc b)) :
    (Pipeline.arrBufs spec2 c U : sProp 𝕄) = iprop((((c.tc : Thread nD τ).loc main_v17) ↦{fullShare} U main_v17) ∗ (((c.tc : Thread nD τ).loc main_v4) ↦{fullShare} U main_v4)
      ∗ (((c.tc : Thread nD τ).loc main_v18_0) ↦{fullShare} U main_v18_0) ∗ (((c.tc : Thread nD τ).loc main_v18_1) ↦{fullShare} U main_v18_1)) := by
  unfold Pipeline.arrBufs
  rw [image2, bigSep_insert (by decide), bigSep_insert (by decide), bigSep_insert (by decide), bigSep_singleton]
  rfl

/-- The four buffers whole at contents `U` are the five windows' arrays at `A`, when `A` reads `U` at each
    window's array: the shared array's ownership is its two halves. -/
theorem arrays2_iff (V : (c : Dev nD) → (b : Ref sig .tc) → Buf (Elt F) ((c : Thread nD τ).loc b)) (c : Dev nD)
    (U : (b : Ref sig .tc) → Buf (Elt F) ((c.tc : Thread nD τ).loc b))
    (A : (w : Fin cfg2.W) → Buf (Elt F) ((cfg2.win w).arr.view.loc (c.tc : Thread nD τ)))
    (hA : ∀ w, A w = U (Pipeline.arrRef spec2 w)) :
    ((dat2 V c).arrays A : sProp 𝕄) ⊣⊢ Pipeline.arrBufs spec2 c U := by
  unfold Dat.arrays
  rw [arrBufs2_eq, bigSep_W2,
    (arr_whole2 0).set_eq_univ, (arr_whole2 1).set_eq_univ, (arr_whole2 3).set_eq_univ, (arr_whole2 4).set_eq_univ,
    share2_0, share2_1, share2_2, share2_3, share2_4, hA 0, hA 1, hA 2, hA 3, hA 4]
  constructor
  · iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · iintro ⟨H0, H12, H3, H4⟩
    ihave H := (pointsTo_share (PosShare.mem_left_op_right fullShare)).1 $$ H12
    icases H with ⟨H1, H2⟩
    isplitl [H0]; · iexact H0
    isplitl [H1]; · iexact H1
    isplitl [H2]; · iexact H2
    isplitl [H3]; · iexact H3
    iexact H4

/-! ## The proof data family and the thread state -/

/-- No pallas_call has a prefetched table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; the array its second
    and third window share enters as two halves and leaves joined. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit : (unscopedBufs c (V5 m ρ c) : sProp 𝕄) ⊢ iprop((pdats m ρ 2 c).arrays ((pdats m ρ 2 c).arrAt · 0) ∗ Pipeline.unscopedRest spec2 c (V5 m ρ c)) := by
      rw [Pipeline.unscopedBufs_split₀ (Ix := Unit) (Name := ℕ) (U := UR sig nD τ) (Lvl := ℕ) cfgs 2 winFacts₀2.arr_unscoped c (V5 m ρ c)]
      exact sep_mono (arrays2_iff (V5 m ρ) c (V5 m ρ c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V5 m ρ c)) ⊢ (unscopedBufs c (V6 m ρ c) : sProp 𝕄) := by
      rw [Pipeline.unscopedBufs_split₀ (Ix := Unit) (Name := ℕ) (U := UR sig nD τ) (Lvl := ℕ) cfgs 2 winFacts₀2.arr_unscoped c (V6 m ρ c)]
      refine sep_mono (arrays2_iff (V5 m ρ) c (V6 m ρ c) _ (hF2 m ρ c)).1 (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- @main's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each buffer the host can see holds the last boundary's contents `W10`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Reg

end
-- ==== Proof.IKeep.lean ====
/-
  What each stretch of host operations and each kernel region leaves alone: a buffer that a stretch does not write,
  or that is not an output of a region, holds after it what it held before. Hence every argument array ends the run
  holding its launch contents (no operation writes one, and a region only reads it through an input window), which
  is the program's frame.
-/
import proofs.«120298_j9921374454291_1_alg».proof.Proof.IRun
import proofs.«120298_j9921374454291_1_alg».proof.Proof.Gen.KernelIdeal.Regions

set_option maxRecDepth 16384

noncomputable section

namespace Cert.KernelIdeal.Reg

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The stretch of host operations writes its own results only. -/
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h

/-- Region 0 changes its output only: every other buffer keeps its contents. -/
theorem W2_keep (c : Dev nD) (b : Ref sig .tc) (h0 : b ≠ main_v2) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact ((dat0 (V1 m ρ) c).arrAt_in 3 rfl _).trans (A_eq0 (V1 m ρ) c 3)
    | ⟨4, _⟩ => exact ((dat0 (V1 m ρ) c).arrAt_in 4 rfl _).trans (A_eq0 (V1 m ρ) c 4)
    | ⟨5, _⟩ => exact ((dat0 (V1 m ρ) c).arrAt_in 5 rfl _).trans (A_eq0 (V1 m ρ) c 5)
    | ⟨6, _⟩ => exact absurd rfl h0
  · exact W2_of_ne m ρ c b fun w e => h ⟨w, e⟩

/-- The stretch of host operations writes its own results only. -/
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h

/-- Region 1 changes its output only: every other buffer keeps its contents. -/
theorem W4_keep (c : Dev nD) (b : Ref sig .tc) (h0 : b ≠ main_v4) :
    W4 m ρ c (Proc.devRef .tc b) = W3 m ρ c (Proc.devRef .tc b) := by
  by_cases h : ∃ w, Pipeline.arrRef spec1 w = b
  · obtain ⟨w, rfl⟩ := h
    rw [W4_arr]
    match w with
    | ⟨0, _⟩ => exact ((dat1 (V3 m ρ) c).arrAt_in 0 rfl _).trans (A_eq1 (V3 m ρ) c 0)
    | ⟨1, _⟩ => exact absurd rfl h0
  · exact W4_of_ne m ρ c b fun w e => h ⟨w, e⟩

/-- The stretch of host operations writes its own results only. -/
theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h

/-- The stretch of host operations writes its own results only. -/
theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h

/-- Region 3 changes its outputs only: every other buffer keeps its contents. -/
theorem W8_keep (c : Dev nD) (b : Ref sig .tc) (h0 : b ≠ main_v32_0) (h1 : b ≠ main_v32_1) :
    W8 m ρ c (Proc.devRef .tc b) = W7 m ρ c (Proc.devRef .tc b) := by
  by_cases h : ∃ w, Pipeline.arrRef spec3 w = b
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact absurd rfl h0
    | ⟨4, _⟩ => exact absurd rfl h1
  · exact W8_of_ne m ρ c b fun w e => h ⟨w, e⟩

/-- The stretch of host operations writes its own results only. -/
theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h

/-- Region 4 changes its outputs only: every other buffer keeps its contents. -/
theorem W10_keep (c : Dev nD) (b : Ref sig .tc) (h0 : b ≠ main_v46_0) (h1 : b ≠ main_v46_1) :
    W10 m ρ c (Proc.devRef .tc b) = W9 m ρ c (Proc.devRef .tc b) := by
  by_cases h : ∃ w, Pipeline.arrRef spec4 w = b
  · obtain ⟨w, rfl⟩ := h
    rw [W10_arr]
    match w with
    | ⟨0, _⟩ => exact ((dat4 (V9 m ρ) c).arrAt_in 0 rfl _).trans (A_eq4 (V9 m ρ) c 0)
    | ⟨1, _⟩ => exact ((dat4 (V9 m ρ) c).arrAt_in 1 rfl _).trans (A_eq4 (V9 m ρ) c 1)
    | ⟨2, _⟩ => exact ((dat4 (V9 m ρ) c).arrAt_in 2 rfl _).trans (A_eq4 (V9 m ρ) c 2)
    | ⟨3, _⟩ => exact absurd rfl h0
    | ⟨4, _⟩ => exact absurd rfl h1
  · exact W10_of_ne m ρ c b fun w e => h ⟨w, e⟩

/-! ## The arguments end as launched -/

/-- Argument 0 reaches the end as launched. -/
theorem W10_main_arg0 (c : Dev nD) : W10 m ρ c (Proc.devRef .tc main_arg0) = m ((c : Thread nD τ).loc main_arg0) :=
  (W10_keep m ρ c main_arg0 (by decide) (by decide)).trans <| (W9_keep m ρ c main_arg0 (by decide)).trans <| (W8_keep m ρ c main_arg0 (by decide) (by decide)).trans <|
  (W7_keep m ρ c main_arg0 (by decide)).trans <| (W6_of_ne m ρ c main_arg0 (by decide) (by decide)).trans <| (W5_keep m ρ c main_arg0 (by decide)).trans <|
  (W4_keep m ρ c main_arg0 (by decide)).trans <| (W3_keep m ρ c main_arg0 (by decide)).trans <| (W2_keep m ρ c main_arg0 (by decide)).trans <|
  (W1_keep m ρ c main_arg0 (by decide)).trans rfl

/-- Argument 1 reaches the end as launched. -/
theorem W10_main_arg1 (c : Dev nD) : W10 m ρ c (Proc.devRef .tc main_arg1) = m ((c : Thread nD τ).loc main_arg1) :=
  (W10_keep m ρ c main_arg1 (by decide) (by decide)).trans <| (W9_keep m ρ c main_arg1 (by decide)).trans <| (W8_keep m ρ c main_arg1 (by decide) (by decide)).trans <|
  (W7_keep m ρ c main_arg1 (by decide)).trans <| (W6_of_ne m ρ c main_arg1 (by decide) (by decide)).trans <| (W5_keep m ρ c main_arg1 (by decide)).trans <|
  (W4_keep m ρ c main_arg1 (by decide)).trans <| (W3_keep m ρ c main_arg1 (by decide)).trans <| (W2_keep m ρ c main_arg1 (by decide)).trans <|
  (W1_keep m ρ c main_arg1 (by decide)).trans rfl

/-- Argument 2 reaches the end as launched. -/
theorem W10_main_arg2 (c : Dev nD) : W10 m ρ c (Proc.devRef .tc main_arg2) = m ((c : Thread nD τ).loc main_arg2) :=
  (W10_keep m ρ c main_arg2 (by decide) (by decide)).trans <| (W9_keep m ρ c main_arg2 (by decide)).trans <| (W8_keep m ρ c main_arg2 (by decide) (by decide)).trans <|
  (W7_keep m ρ c main_arg2 (by decide)).trans <| (W6_of_ne m ρ c main_arg2 (by decide) (by decide)).trans <| (W5_keep m ρ c main_arg2 (by decide)).trans <|
  (W4_keep m ρ c main_arg2 (by decide)).trans <| (W3_keep m ρ c main_arg2 (by decide)).trans <| (W2_keep m ρ c main_arg2 (by decide)).trans <|
  (W1_keep m ρ c main_arg2 (by decide)).trans rfl

/-- Argument 3 reaches the end as launched. -/
theorem W10_main_arg3 (c : Dev nD) : W10 m ρ c (Proc.devRef .tc main_arg3) = m ((c : Thread nD τ).loc main_arg3) :=
  (W10_keep m ρ c main_arg3 (by decide) (by decide)).trans <| (W9_keep m ρ c main_arg3 (by decide)).trans <| (W8_keep m ρ c main_arg3 (by decide) (by decide)).trans <|
  (W7_keep m ρ c main_arg3 (by decide)).trans <| (W6_of_ne m ρ c main_arg3 (by decide) (by decide)).trans <| (W5_keep m ρ c main_arg3 (by decide)).trans <|
  (W4_keep m ρ c main_arg3 (by decide)).trans <| (W3_keep m ρ c main_arg3 (by decide)).trans <| (W2_keep m ρ c main_arg3 (by decide)).trans <|
  (W1_keep m ρ c main_arg3 (by decide)).trans rfl

/-- Argument 4 reaches the end as launched. -/
theorem W10_main_arg4 (c : Dev nD) : W10 m ρ c (Proc.devRef .tc main_arg4) = m ((c : Thread nD τ).loc main_arg4) :=
  (W10_keep m ρ c main_arg4 (by decide) (by decide)).trans <| (W9_keep m ρ c main_arg4 (by decide)).trans <| (W8_keep m ρ c main_arg4 (by decide) (by decide)).trans <|
  (W7_keep m ρ c main_arg4 (by decide)).trans <| (W6_of_ne m ρ c main_arg4 (by decide) (by decide)).trans <| (W5_keep m ρ c main_arg4 (by decide)).trans <|
  (W4_keep m ρ c main_arg4 (by decide)).trans <| (W3_keep m ρ c main_arg4 (by decide)).trans <| (W2_keep m ρ c main_arg4 (by decide)).trans <|
  (W1_keep m ρ c main_arg4 (by decide)).trans rfl

/-- Argument 5 reaches the end as launched. -/
theorem W10_main_arg5 (c : Dev nD) : W10 m ρ c (Proc.devRef .tc main_arg5) = m ((c : Thread nD τ).loc main_arg5) :=
  (W10_keep m ρ c main_arg5 (by decide) (by decide)).trans <| (W9_keep m ρ c main_arg5 (by decide)).trans <| (W8_keep m ρ c main_arg5 (by decide) (by decide)).trans <|
  (W7_keep m ρ c main_arg5 (by decide)).trans <| (W6_of_ne m ρ c main_arg5 (by decide) (by decide)).trans <| (W5_keep m ρ c main_arg5 (by decide)).trans <|
  (W4_keep m ρ c main_arg5 (by decide)).trans <| (W3_keep m ρ c main_arg5 (by decide)).trans <| (W2_keep m ρ c main_arg5 (by decide)).trans <|
  (W1_keep m ρ c main_arg5 (by decide)).trans rfl

/-- Argument 6 reaches the end as launched. -/
theorem W10_main_arg6 (c : Dev nD) : W10 m ρ c (Proc.devRef .tc main_arg6) = m ((c : Thread nD τ).loc main_arg6) :=
  (W10_keep m ρ c main_arg6 (by decide) (by decide)).trans <| (W9_keep m ρ c main_arg6 (by decide)).trans <| (W8_keep m ρ c main_arg6 (by decide) (by decide)).trans <|
  (W7_keep m ρ c main_arg6 (by decide)).trans <| (W6_of_ne m ρ c main_arg6 (by decide) (by decide)).trans <| (W5_keep m ρ c main_arg6 (by decide)).trans <|
  (W4_keep m ρ c main_arg6 (by decide)).trans <| (W3_keep m ρ c main_arg6 (by decide)).trans <| (W2_keep m ρ c main_arg6 (by decide)).trans <|
  (W1_keep m ρ c main_arg6 (by decide)).trans rfl

/-- Argument 7 reaches the end as launched. -/
theorem W10_main_arg7 (c : Dev nD) : W10 m ρ c (Proc.devRef .tc main_arg7) = m ((c : Thread nD τ).loc main_arg7) :=
  (W10_keep m ρ c main_arg7 (by decide) (by decide)).trans <| (W9_keep m ρ c main_arg7 (by decide)).trans <| (W8_keep m ρ c main_arg7 (by decide) (by decide)).trans <|
  (W7_keep m ρ c main_arg7 (by decide)).trans <| (W6_of_ne m ρ c main_arg7 (by decide) (by decide)).trans <| (W5_keep m ρ c main_arg7 (by decide)).trans <|
  (W4_keep m ρ c main_arg7 (by decide)).trans <| (W3_keep m ρ c main_arg7 (by decide)).trans <| (W2_keep m ρ c main_arg7 (by decide)).trans <|
  (W1_keep m ρ c main_arg7 (by decide)).trans rfl

/-- Argument 8 reaches the end as launched. -/
theorem W10_main_arg8 (c : Dev nD) : W10 m ρ c (Proc.devRef .tc main_arg8) = m ((c : Thread nD τ).loc main_arg8) :=
  (W10_keep m ρ c main_arg8 (by decide) (by decide)).trans <| (W9_keep m ρ c main_arg8 (by decide)).trans <| (W8_keep m ρ c main_arg8 (by decide) (by decide)).trans <|
  (W7_keep m ρ c main_arg8 (by decide)).trans <| (W6_of_ne m ρ c main_arg8 (by decide) (by decide)).trans <| (W5_keep m ρ c main_arg8 (by decide)).trans <|
  (W4_keep m ρ c main_arg8 (by decide)).trans <| (W3_keep m ρ c main_arg8 (by decide)).trans <| (W2_keep m ρ c main_arg8 (by decide)).trans <|
  (W1_keep m ρ c main_arg8 (by decide)).trans rfl

/-- Argument 9 reaches the end as launched. -/
theorem W10_main_arg9 (c : Dev nD) : W10 m ρ c (Proc.devRef .tc main_arg9) = m ((c : Thread nD τ).loc main_arg9) :=
  (W10_keep m ρ c main_arg9 (by decide) (by decide)).trans <| (W9_keep m ρ c main_arg9 (by decide)).trans <| (W8_keep m ρ c main_arg9 (by decide) (by decide)).trans <|
  (W7_keep m ρ c main_arg9 (by decide)).trans <| (W6_of_ne m ρ c main_arg9 (by decide) (by decide)).trans <| (W5_keep m ρ c main_arg9 (by decide)).trans <|
  (W4_keep m ρ c main_arg9 (by decide)).trans <| (W3_keep m ρ c main_arg9 (by decide)).trans <| (W2_keep m ρ c main_arg9 (by decide)).trans <|
  (W1_keep m ρ c main_arg9 (by decide)).trans rfl

/-- The frame: every weakly fair execution terminates, nothing faulting, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c)⟩)
    (run_main m ρ)

end Cert.KernelIdeal.Reg

end
-- ==== Proof.IHost.lean ====
/-
  What the kernel program's stretches of host operations leave, read off the fold of each stretch over the buffers as
  the stretch finds them: the two bias vectors recast as rows, the user preferences stacked over the item embeddings,
  and the sparse adjacency product before each of the three reweighting regions.

  Each stretch is a straight line of whole-array operations, every one writing its own result buffer and leaving every
  other buffer as it was. What one buffer holds after the stretch is therefore the composition of the operations that
  lead to it, applied to the buffers as the stretch finds them: for a bias row, the bias vector recast to one row,
  whose entry (0, j) is the vector's entry j; for the stacked table, the concatenation along the rows; for the
  adjacency product, the sixteen operations that gather the edges' source rows (negative columns wrapped by the number
  of nodes), scale them by the edge values and scatter-add them at the edges' target rows into zeros.
-/
import proofs.«120298_j9921374454291_1_alg».proof.Proof.IRun
import proofs.«120298_j9921374454291_1_alg».proof.Proof.Spec
import Idealize.ShloMosaic.Lib.ValueIdx
import Idealize.ShloMosaic.Lib.StableHlo.Run
import Idealize.ShloMosaic.Lib.ValueLayout

set_option maxRecDepth 16384

noncomputable section

namespace Cert.KernelIdeal.Reg

open Idealize.ShloMosaic Idealize.ShloMosaic.TcCoe Idealize.ShloMosaic.ValueIdx
open Idealize.SL Idealize.SL.Sem
open Cert.KernelIdeal Cert.KernelIdeal.Gen Cert.Spec

variable (m : (ℓ : Loc nD τ sig) → Buf (Elt Ideal) ℓ) (ρ : Dev nD → PrngReg)

/-- The first bias row, as region 0 finds it, holds the bias vector. -/
theorem host0_b1 (c : Dev nD) (j : Fin 256) :
    V1 m ρ c main_v0 (ix2 (0 : Fin 1) j) = W0 m ρ c (Proc.devRef .tc main_arg7) (ix1 j) := by
  show StableHlo.after hostOps0 (W0 m ρ c) (Proc.devRef .tc main_v0) (ix2 (0 : Fin 1) j) = _
  generalize W0 m ρ c = W
  after_results
  exact shapeCast_a_1a_apply (W (Proc.devRef .tc main_arg7)) shapeCasts_S256_S1x256 0 j

/-- The second bias row, as region 0 finds it, holds the bias vector. -/
theorem host0_b2 (c : Dev nD) (q : Fin 64) :
    V1 m ρ c main_v1 (ix2 (0 : Fin 1) q) = W0 m ρ c (Proc.devRef .tc main_arg9) (ix1 q) := by
  show StableHlo.after hostOps0 (W0 m ρ c) (Proc.devRef .tc main_v1) (ix2 (0 : Fin 1) q) = _
  generalize W0 m ρ c = W
  after_results
  exact shapeCast_a_1a_apply (W (Proc.devRef .tc main_arg9)) shapeCasts_S64_S1x64 0 q

/-- Region 1 finds the user preferences stacked over region 0's output. -/
theorem host1 (c : Dev nD) :
    W3 m ρ c (Proc.devRef .tc main_v3) = stack (W2 m ρ c (Proc.devRef .tc main_arg5)) (W2 m ρ c (Proc.devRef .tc main_v2)) := by
  show StableHlo.after hostOps1 (W2 m ρ c) (Proc.devRef .tc main_v3) = _
  generalize W2 m ρ c = W
  after_results
  rfl

/-- Region 2 finds the sparse adjacency product of region 1's output. -/
theorem host2 (c : Dev nD) :
    W5 m ρ c (Proc.devRef .tc main_v17) = neighbourSum (W4 m ρ c (Proc.devRef .tc main_arg2)) (W4 m ρ c (Proc.devRef .tc main_arg3))
      (W4 m ρ c (Proc.devRef .tc main_arg4)) (W4 m ρ c (Proc.devRef .tc main_v4)) := by
  show StableHlo.after hostOps2 (W4 m ρ c) (Proc.devRef .tc main_v17) = _
  generalize W4 m ρ c = W
  after_results_simp
  unfold neighbourSum
  rfl

/-- Region 3 finds the sparse adjacency product of region 2's first output. -/
theorem host3 (c : Dev nD) :
    W7 m ρ c (Proc.devRef .tc main_v31) = neighbourSum (W6 m ρ c (Proc.devRef .tc main_arg2)) (W6 m ρ c (Proc.devRef .tc main_arg3))
      (W6 m ρ c (Proc.devRef .tc main_arg4)) (W6 m ρ c (Proc.devRef .tc main_v18_0)) := by
  show StableHlo.after hostOps3 (W6 m ρ c) (Proc.devRef .tc main_v31) = _
  generalize W6 m ρ c = W
  after_results_simp
  unfold neighbourSum
  rfl

/-- Region 4 finds the sparse adjacency product of region 3's first output. -/
theorem host4 (c : Dev nD) :
    W9 m ρ c (Proc.devRef .tc main_v45) = neighbourSum (W8 m ρ c (Proc.devRef .tc main_arg2)) (W8 m ρ c (Proc.devRef .tc main_arg3))
      (W8 m ρ c (Proc.devRef .tc main_arg4)) (W8 m ρ c (Proc.devRef .tc main_v32_0)) := by
  show StableHlo.after hostOps4 (W8 m ρ c) (Proc.devRef .tc main_v45) = _
  generalize W8 m ρ c = W
  after_results_simp
  unfold neighbourSum
  rfl

end Cert.KernelIdeal.Reg

end
-- ==== Proof.IChain.lean ====
/-
  The kernel program's value, followed through its ten boundaries: the item network of the arguments, stacked under
  the user preferences and normalised row by row (the table e), then three times the sparse adjacency product
  rescaled against e, the running total starting at e. Each region's output array is the specification's function of
  the arrays it finds (blocks to arrays); each stretch of host operations is read off its fold; between them a buffer
  nobody writes keeps its contents. At the end the second output of the last region holds e + p1 + p2 + p3: the
  specification's function of the arguments.
-/
import proofs.«120298_j9921374454291_1_alg».proof.Proof.IVal
import proofs.«120298_j9921374454291_1_alg».proof.Proof.IKeep
import proofs.«120298_j9921374454291_1_alg».proof.Proof.IHost

set_option maxRecDepth 16384

noncomputable section

namespace Cert.KernelIdeal.Reg

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-! ## Names: the arguments as launched on core `c`, the normalised table and the three layers -/

abbrev A0 (c : Dev nD) : Arr Cert.ReferenceIdeal.S50000x1280 := W0 m ρ c (Proc.devRef .tc main_arg0)
abbrev A1 (c : Dev nD) : Arr Cert.ReferenceIdeal.S50000x64 := W0 m ρ c (Proc.devRef .tc main_arg1)
abbrev A2 (c : Dev nD) : IArr Cert.ReferenceIdeal.S3000000 := W0 m ρ c (Proc.devRef .tc main_arg2)
abbrev A3 (c : Dev nD) : IArr Cert.ReferenceIdeal.S3000000 := W0 m ρ c (Proc.devRef .tc main_arg3)
abbrev A4 (c : Dev nD) : Arr Cert.ReferenceIdeal.S3000000 := W0 m ρ c (Proc.devRef .tc main_arg4)
abbrev A5 (c : Dev nD) : Arr Cert.ReferenceIdeal.S100000x64 := W0 m ρ c (Proc.devRef .tc main_arg5)
abbrev A6 (c : Dev nD) : Arr Cert.ReferenceIdeal.S1280x256 := W0 m ρ c (Proc.devRef .tc main_arg6)
abbrev A7 (c : Dev nD) : Arr Cert.ReferenceIdeal.S256 := W0 m ρ c (Proc.devRef .tc main_arg7)
abbrev A8 (c : Dev nD) : Arr Cert.ReferenceIdeal.S256x64 := W0 m ρ c (Proc.devRef .tc main_arg8)
abbrev A9 (c : Dev nD) : Arr Cert.ReferenceIdeal.S64 := W0 m ρ c (Proc.devRef .tc main_arg9)
/-- The normalised node table. -/
abbrev E (c : Dev nD) : Arr Cert.ReferenceIdeal.S150000x64 := ego (A0 m ρ c) (A1 m ρ c) (A5 m ρ c) (A6 m ρ c) (A7 m ρ c) (A8 m ρ c) (A9 m ρ c)
abbrev P1 (c : Dev nD) : Arr Cert.ReferenceIdeal.S150000x64 := layer (A2 m ρ c) (A3 m ρ c) (A4 m ρ c) (E m ρ c) (E m ρ c)
abbrev P2 (c : Dev nD) : Arr Cert.ReferenceIdeal.S150000x64 := layer (A2 m ρ c) (A3 m ρ c) (A4 m ρ c) (E m ρ c) (P1 m ρ c)
abbrev P3 (c : Dev nD) : Arr Cert.ReferenceIdeal.S150000x64 := layer (A2 m ρ c) (A3 m ρ c) (A4 m ρ c) (E m ρ c) (P2 m ρ c)

/-! ## The item network, the stacking, the normalisation -/

theorem ker_item (c : Dev nD) : W2 m ρ c (Proc.devRef .tc main_v2) = itemNet (A0 m ρ c) (A1 m ρ c) (A6 m ρ c) (A7 m ρ c) (A8 m ρ c) (A9 m ρ c) := by
  refine (W2_arr m ρ c 6).trans <| (final0 (V1 m ρ) c (A7 m ρ c) (A9 m ρ c) (host0_b1 m ρ c) (host0_b2 m ρ c)).trans ?_
  have h0 : V1 m ρ c (Pipeline.arrRef spec0 0) = A0 m ρ c := W1_keep m ρ c main_arg0 (by decide)
  have h1 : V1 m ρ c (Pipeline.arrRef spec0 1) = A1 m ρ c := W1_keep m ρ c main_arg1 (by decide)
  have h2 : V1 m ρ c (Pipeline.arrRef spec0 2) = A6 m ρ c := W1_keep m ρ c main_arg6 (by decide)
  have h4 : V1 m ρ c (Pipeline.arrRef spec0 4) = A8 m ρ c := W1_keep m ρ c main_arg8 (by decide)
  rw [h0, h1, h2, h4]

theorem ker_stack (c : Dev nD) : W3 m ρ c (Proc.devRef .tc main_v3) = stack (A5 m ρ c) (itemNet (A0 m ρ c) (A1 m ρ c) (A6 m ρ c) (A7 m ρ c) (A8 m ρ c) (A9 m ρ c)) := by
  refine (host1 m ρ c).trans ?_
  have h5 : W2 m ρ c (Proc.devRef .tc main_arg5) = A5 m ρ c := (W2_keep m ρ c main_arg5 (by decide)).trans <| (W1_keep m ρ c main_arg5 (by decide))
  rw [h5, ker_item]

theorem ker_ego (c : Dev nD) : W4 m ρ c (Proc.devRef .tc main_v4) = E m ρ c := by
  refine (W4_arr m ρ c 1).trans <| (final1 (V3 m ρ) c).trans ?_
  have h : V3 m ρ c (Pipeline.arrRef spec1 0) = stack (A5 m ρ c) (itemNet (A0 m ρ c) (A1 m ρ c) (A6 m ρ c) (A7 m ρ c) (A8 m ρ c) (A9 m ρ c)) := ker_stack m ρ c
  rw [h]
  rfl

/-- The normalised table stays where region 1 left it until the end. -/
theorem ego_at (c : Dev nD) : W5 m ρ c (Proc.devRef .tc main_v4) = E m ρ c ∧ W7 m ρ c (Proc.devRef .tc main_v4) = E m ρ c
    ∧ W9 m ρ c (Proc.devRef .tc main_v4) = E m ρ c :=
  ⟨((W5_keep m ρ c main_v4 (by decide))).trans (ker_ego m ρ c),
   ((W7_keep m ρ c main_v4 (by decide)).trans <| (W6_of_ne m ρ c main_v4 (by decide) (by decide)).trans <| (W5_keep m ρ c main_v4 (by decide))).trans (ker_ego m ρ c),
   ((W9_keep m ρ c main_v4 (by decide)).trans <| (W8_keep m ρ c main_v4 (by decide) (by decide)).trans <| (W7_keep m ρ c main_v4 (by decide)).trans <| (W6_of_ne m ρ c main_v4 (by decide) (by decide)).trans <| (W5_keep m ρ c main_v4 (by decide))).trans (ker_ego m ρ c)⟩

/-- The edge arrays are the arguments' at every stretch that reads them. -/
theorem edges_at (c : Dev nD) :
    (W4 m ρ c (Proc.devRef .tc main_arg2) = A2 m ρ c ∧ W4 m ρ c (Proc.devRef .tc main_arg3) = A3 m ρ c ∧ W4 m ρ c (Proc.devRef .tc main_arg4) = A4 m ρ c)
    ∧ (W6 m ρ c (Proc.devRef .tc main_arg2) = A2 m ρ c ∧ W6 m ρ c (Proc.devRef .tc main_arg3) = A3 m ρ c ∧ W6 m ρ c (Proc.devRef .tc main_arg4) = A4 m ρ c)
    ∧ (W8 m ρ c (Proc.devRef .tc main_arg2) = A2 m ρ c ∧ W8 m ρ c (Proc.devRef .tc main_arg3) = A3 m ρ c ∧ W8 m ρ c (Proc.devRef .tc main_arg4) = A4 m ρ c) :=
  ⟨⟨(W4_keep m ρ c main_arg2 (by decide)).trans <| (W3_keep m ρ c main_arg2 (by decide)).trans <| (W2_keep m ρ c main_arg2 (by decide)).trans <| (W1_keep m ρ c main_arg2 (by decide)), (W4_keep m ρ c main_arg3 (by decide)).trans <| (W3_keep m ρ c main_arg3 (by decide)).trans <| (W2_keep m ρ c main_arg3 (by decide)).trans <| (W1_keep m ρ c main_arg3 (by decide)), (W4_keep m ρ c main_arg4 (by decide)).trans <| (W3_keep m ρ c main_arg4 (by decide)).trans <| (W2_keep m ρ c main_arg4 (by decide)).trans <| (W1_keep m ρ c main_arg4 (by decide))⟩,
   ⟨(W6_of_ne m ρ c main_arg2 (by decide) (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)), (W6_of_ne m ρ c main_arg3 (by decide) (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)), (W6_of_ne m ρ c main_arg4 (by decide) (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide))⟩,
   ⟨(W8_keep m ρ c main_arg2 (by decide) (by decide)).trans <| (W7_keep m ρ c main_arg2 (by decide)).trans <| (W6_of_ne m ρ c main_arg2 (by decide) (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)), (W8_keep m ρ c main_arg3 (by decide) (by decide)).trans <| (W7_keep m ρ c main_arg3 (by decide)).trans <| (W6_of_ne m ρ c main_arg3 (by decide) (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)), (W8_keep m ρ c main_arg4 (by decide) (by decide)).trans <| (W7_keep m ρ c main_arg4 (by decide)).trans <| (W6_of_ne m ρ c main_arg4 (by decide) (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide))⟩⟩

/-! ## The first layer -/

theorem ker_sum1 (c : Dev nD) : W5 m ρ c (Proc.devRef .tc main_v17) = neighbourSum (A2 m ρ c) (A3 m ρ c) (A4 m ρ c) (E m ρ c) := by
  refine (host2 m ρ c).trans ?_
  obtain ⟨⟨h2, h3, h4⟩, -, -⟩ := edges_at m ρ c
  rw [h2, h3, h4, ker_ego]

theorem ker_p1 (c : Dev nD) : W6 m ρ c (Proc.devRef .tc main_v18_0) = P1 m ρ c := by
  refine (hF2 m ρ c 3).symm.trans <| (final2_3 (V5 m ρ) c).trans ?_
  have h0 : V5 m ρ c (Pipeline.arrRef spec2 0) = neighbourSum (A2 m ρ c) (A3 m ρ c) (A4 m ρ c) (E m ρ c) := ker_sum1 m ρ c
  have h1 : V5 m ρ c (Pipeline.arrRef spec2 1) = E m ρ c := (ego_at m ρ c).1
  rw [h0, h1]
  rfl

theorem ker_t1 (c : Dev nD) : W6 m ρ c (Proc.devRef .tc main_v18_1) = addf (E m ρ c) (P1 m ρ c) := by
  refine (hF2 m ρ c 4).symm.trans <| (final2_4 (V5 m ρ) c).trans ?_
  have h0 : V5 m ρ c (Pipeline.arrRef spec2 0) = neighbourSum (A2 m ρ c) (A3 m ρ c) (A4 m ρ c) (E m ρ c) := ker_sum1 m ρ c
  have h1 : V5 m ρ c (Pipeline.arrRef spec2 1) = E m ρ c := (ego_at m ρ c).1
  rw [h0, h1]
  rfl

/-! ## The second layer -/

theorem ker_sum2 (c : Dev nD) : W7 m ρ c (Proc.devRef .tc main_v31) = neighbourSum (A2 m ρ c) (A3 m ρ c) (A4 m ρ c) (P1 m ρ c) := by
  refine (host3 m ρ c).trans ?_
  obtain ⟨-, ⟨h2, h3, h4⟩, -⟩ := edges_at m ρ c
  rw [h2, h3, h4, ker_p1]

theorem ker_p2 (c : Dev nD) : W8 m ρ c (Proc.devRef .tc main_v32_0) = P2 m ρ c := by
  refine (W8_arr m ρ c 3).trans <| (final3_3 (V7 m ρ) c).trans ?_
  have h0 : V7 m ρ c (Pipeline.arrRef spec3 0) = neighbourSum (A2 m ρ c) (A3 m ρ c) (A4 m ρ c) (P1 m ρ c) := ker_sum2 m ρ c
  have h1 : V7 m ρ c (Pipeline.arrRef spec3 1) = E m ρ c := (ego_at m ρ c).2.1
  rw [h0, h1]
  rfl

theorem ker_t2 (c : Dev nD) : W8 m ρ c (Proc.devRef .tc main_v32_1) = addf (addf (E m ρ c) (P1 m ρ c)) (P2 m ρ c) := by
  refine (W8_arr m ρ c 4).trans <| (final3_4 (V7 m ρ) c).trans ?_
  have h0 : V7 m ρ c (Pipeline.arrRef spec3 0) = neighbourSum (A2 m ρ c) (A3 m ρ c) (A4 m ρ c) (P1 m ρ c) := ker_sum2 m ρ c
  have h1 : V7 m ρ c (Pipeline.arrRef spec3 1) = E m ρ c := (ego_at m ρ c).2.1
  have h2 : V7 m ρ c (Pipeline.arrRef spec3 2) = addf (E m ρ c) (P1 m ρ c) := ((W7_keep m ρ c main_v18_1 (by decide))).trans (ker_t1 m ρ c)
  rw [h0, h1, h2]
  rfl

/-! ## The third layer -/

theorem ker_sum3 (c : Dev nD) : W9 m ρ c (Proc.devRef .tc main_v45) = neighbourSum (A2 m ρ c) (A3 m ρ c) (A4 m ρ c) (P2 m ρ c) := by
  refine (host4 m ρ c).trans ?_
  obtain ⟨-, -, ⟨h2, h3, h4⟩⟩ := edges_at m ρ c
  rw [h2, h3, h4, ker_p2]

/-- THE KERNEL PROGRAM'S RESULT: after the last region its second output holds the specification's function of the arguments. -/
theorem kernel_value (c : Dev nD) : W10 m ρ c (Proc.devRef .tc main_v46_1)
    = refSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 4).trans <| (final4_4 (V9 m ρ) c).trans ?_
  have h0 : V9 m ρ c (Pipeline.arrRef spec4 0) = neighbourSum (A2 m ρ c) (A3 m ρ c) (A4 m ρ c) (P2 m ρ c) := ker_sum3 m ρ c
  have h1 : V9 m ρ c (Pipeline.arrRef spec4 1) = E m ρ c := (ego_at m ρ c).2.2
  have h2 : V9 m ρ c (Pipeline.arrRef spec4 2) = addf (addf (E m ρ c) (P1 m ρ c)) (P2 m ρ c) := ((W9_keep m ρ c main_v32_1 (by decide))).trans (ker_t2 m ρ c)
  rw [h0, h1, h2]
  rfl

/-- The kernel program's run, with its result named: every weakly fair execution terminates, nothing faulting, the
    result buffer at the specification's function of the arguments, every argument as launched. -/
theorem run_value : θ_run defs (onTc (τ := τ) (main (F := Ideal))) ⟨m, fun _ => 0, ρ⟩ (fun r => ∀ c : Dev nD,
      r.2.mem ((c.tc : Thread nD τ).loc main_v46_1) = refSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg5) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v46_1 (by decide))).trans (kernel_value m ρ c),
    (h c _ (mem_uc main_arg5 (by decide))).trans (W10_main_arg5 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c)⟩)
    (run_main m ρ)

end Cert.KernelIdeal.Reg

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.RefRun.lean ====
/-
  The reference program's run: every weakly fair execution of its @main terminates without a fault, its result buffer
  holding the specification's function of the argument arrays, the arguments unchanged.

  The program is a straight line of 154 host operations, so what its buffers hold at the end is a fold of the operations
  over the launch contents. The fold is read in five consecutive pieces — the item network, the stacking and row
  normalisation, and the three layers — each piece from an arbitrary valuation of the buffers: a piece's result is one of
  the specification's functions of a few buffers it reads, and it leaves the arguments and the earlier results it does not
  write as they were. The normalised table is read by all three layers; naming it once per piece keeps every term small.
-/
import proofs.«120298_j9921374454291_1_alg».proof.Proof.Spec
import proofs.«120298_j9921374454291_1_alg».proof.Proof.RefRunOps
import proofs.«120298_j9921374454291_1_alg».proof.Proof.LibFold
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefRunOps Idealize.ShloMosaic.Fold

/-- The contents of all the device's buffers, at the exact extended reals. -/
abbrev Vals := Valuation τ sig (Elt Ideal)

/-- The ten argument buffers hold in `W` what they hold in `V`. -/
structure SameArgs (V W : Vals) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)

theorem SameArgs.trans {V W X : Vals} (h : SameArgs V W) (k : SameArgs W X) : SameArgs V X :=
  ⟨k.a0.trans h.a0, k.a1.trans h.a1, k.a2.trans h.a2, k.a3.trans h.a3, k.a4.trans h.a4, k.a5.trans h.a5, k.a6.trans h.a6,
    k.a7.trans h.a7, k.a8.trans h.a8, k.a9.trans h.a9⟩

/-! ## The item network (main_v0 … main_v21) -/

/-- No operation of the piece writes an argument. -/
theorem item_args (V : Vals) : SameArgs V (after (opsItem (F := Ideal)) V) := by
  unfold opsItem
  constructor <;> after_results_simp

/-- The piece's last result is the item network of the six arrays it reads. -/
theorem item_v21 (V : Vals) :
    after (opsItem (F := Ideal)) V (Proc.devRef .tc main_v21)
      = Cert.Spec.itemNet (V (Proc.devRef .tc main_arg0)) (V (Proc.devRef .tc main_arg1)) (V (Proc.devRef .tc main_arg6)) (V (Proc.devRef .tc main_arg7)) (V (Proc.devRef .tc main_arg8)) (V (Proc.devRef .tc main_arg9)) := by
  unfold opsItem
  after_results_simp
  rfl

/-! ## Stacking and row normalisation (main_v22 … main_v30) -/

theorem norm_args (V : Vals) : SameArgs V (after (opsNorm (F := Ideal)) V) := by
  unfold opsNorm
  constructor <;> after_results_simp

/-- The normalised table, from the user rows and the item network's rows. -/
theorem norm_v30 (V : Vals) :
    after (opsNorm (F := Ideal)) V (Proc.devRef .tc main_v30)
      = Cert.Spec.rowNormalise (Cert.Spec.stack (V (Proc.devRef .tc main_arg5)) (V (Proc.devRef .tc main_v21))) := by
  unfold opsNorm
  after_results_simp
  rfl

/-! ## The three layers

Each layer reads the edges (arguments 2, 3, 4), the normalised table `main_v30`, the table it propagates and the running
sum, and writes its rescaled table and the new running sum. -/

set_option maxHeartbeats 2000000 in
theorem layer1_args (V : Vals) : SameArgs V (after (opsLayer1 (F := Ideal)) V) := by
  unfold opsLayer1
  constructor <;> after_results_simp

theorem layer1_v30 (V : Vals) : after (opsLayer1 (F := Ideal)) V (Proc.devRef .tc main_v30) = V (Proc.devRef .tc main_v30) := by
  unfold opsLayer1
  after_results_simp

set_option maxHeartbeats 1000000 in
theorem layer1_v60 (V : Vals) :
    after (opsLayer1 (F := Ideal)) V (Proc.devRef .tc main_v60)
      = Cert.Spec.layer (V (Proc.devRef .tc main_arg2)) (V (Proc.devRef .tc main_arg3)) (V (Proc.devRef .tc main_arg4)) (V (Proc.devRef .tc main_v30)) (V (Proc.devRef .tc main_v30)) := by
  unfold opsLayer1
  after_results_simp
  rfl

set_option maxHeartbeats 1000000 in
theorem layer1_v61 (V : Vals) :
    after (opsLayer1 (F := Ideal)) V (Proc.devRef .tc main_v61)
      = addf (V (Proc.devRef .tc main_v30)) (Cert.Spec.layer (V (Proc.devRef .tc main_arg2)) (V (Proc.devRef .tc main_arg3)) (V (Proc.devRef .tc main_arg4)) (V (Proc.devRef .tc main_v30)) (V (Proc.devRef .tc main_v30))) := by
  unfold opsLayer1
  after_results_simp
  rfl

set_option maxHeartbeats 2000000 in
theorem layer2_args (V : Vals) : SameArgs V (after (opsLayer2 (F := Ideal)) V) := by
  unfold opsLayer2
  constructor <;> after_results_simp

theorem layer2_v30 (V : Vals) : after (opsLayer2 (F := Ideal)) V (Proc.devRef .tc main_v30) = V (Proc.devRef .tc main_v30) := by
  unfold opsLayer2
  after_results_simp

set_option maxHeartbeats 1000000 in
theorem layer2_v91 (V : Vals) :
    after (opsLayer2 (F := Ideal)) V (Proc.devRef .tc main_v91)
      = Cert.Spec.layer (V (Proc.devRef .tc main_arg2)) (V (Proc.devRef .tc main_arg3)) (V (Proc.devRef .tc main_arg4)) (V (Proc.devRef .tc main_v30)) (V (Proc.devRef .tc main_v60)) := by
  unfold opsLayer2
  after_results_simp
  rfl

set_option maxHeartbeats 1000000 in
theorem layer2_v92 (V : Vals) :
    after (opsLayer2 (F := Ideal)) V (Proc.devRef .tc main_v92)
      = addf (V (Proc.devRef .tc main_v61)) (Cert.Spec.layer (V (Proc.devRef .tc main_arg2)) (V (Proc.devRef .tc main_arg3)) (V (Proc.devRef .tc main_arg4)) (V (Proc.devRef .tc main_v30)) (V (Proc.devRef .tc main_v60))) := by
  unfold opsLayer2
  after_results_simp
  rfl

set_option maxHeartbeats 2000000 in
theorem layer3_args (V : Vals) : SameArgs V (after (opsLayer3 (F := Ideal)) V) := by
  unfold opsLayer3
  constructor <;> after_results_simp

set_option maxHeartbeats 1000000 in
theorem layer3_v123 (V : Vals) :
    after (opsLayer3 (F := Ideal)) V (Proc.devRef .tc main_v123)
      = addf (V (Proc.devRef .tc main_v92)) (Cert.Spec.layer (V (Proc.devRef .tc main_arg2)) (V (Proc.devRef .tc main_arg3)) (V (Proc.devRef .tc main_arg4)) (V (Proc.devRef .tc main_v30)) (V (Proc.devRef .tc main_v91))) := by
  unfold opsLayer3
  after_results_simp
  rfl

/-! ## The whole line -/

/-- No operation writes an argument. -/
theorem ops_args (V : Vals) : SameArgs V (after (ops (F := Ideal)) V) := by
  rw [ops_cut, after_append, after_append, after_append, after_append]
  exact ((((item_args V).trans (norm_args _)).trans (layer1_args _)).trans (layer2_args _)).trans (layer3_args _)

/-- The result buffer after the whole line is the specification's function of the ten arguments. -/
theorem ops_v123 (V : Vals) :
    after (ops (F := Ideal)) V (Proc.devRef .tc main_v123) = Cert.Spec.refSpec (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_cut, after_append, after_append, after_append, after_append]
  -- the item network
  have i1 := item_v21 V
  have s1 := item_args V
  generalize after (opsItem (F := Ideal)) V = V1 at i1 s1 ⊢
  -- the normalised table
  have i2 := norm_v30 V1
  have s2 := norm_args V1
  generalize after (opsNorm (F := Ideal)) V1 = V2 at i2 s2 ⊢
  -- the first layer
  have e3 := layer1_v30 V2
  have p3 := layer1_v60 V2
  have t3 := layer1_v61 V2
  have s3 := layer1_args V2
  generalize after (opsLayer1 (F := Ideal)) V2 = V3 at e3 p3 t3 s3 ⊢
  -- the second layer
  have e4 := layer2_v30 V3
  have p4 := layer2_v91 V3
  have t4 := layer2_v92 V3
  have s4 := layer2_args V3
  generalize after (opsLayer2 (F := Ideal)) V3 = V4 at e4 p4 t4 s4 ⊢
  -- the third layer, then everything back to the arguments
  rw [layer3_v123 V4, t4, p4, e4, s4.a2, s4.a3, s4.a4, t3, p3, e3, s3.a2, s3.a3, s3.a4, i2, s2.a2, s2.a3, s2.a4, i1,
    s1.a2, s1.a3, s1.a4, s1.a5]
  rfl

/-! ## The run -/

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v123) = Cert.Spec.refSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg5) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have A := ops_args (launchContents m c)
      ⟨(h c main_v123).trans (ops_v123 (launchContents m c)), (h c main_arg5).trans A.a5,
        (h c main_arg0).trans A.a0, (h c main_arg1).trans A.a1, (h c main_arg2).trans A.a2, (h c main_arg3).trans A.a3, (h c main_arg4).trans A.a4, (h c main_arg5).trans A.a5, (h c main_arg6).trans A.a6, (h c main_arg7).trans A.a7, (h c main_arg8).trans A.a8, (h c main_arg9).trans A.a9⟩)
    (run_seq scopedRefs_eq scopedSems_eq defs main (fun _ => ops) main_eq (fun _ => ops_sub) m ρ)

end Cert.ReferenceIdeal.RefRun

end
-- ==== Proof.lean ====
/-
  A graph-convolution layer on a table of 150000 nodes (100000 users, 50000 items) with 64 features, written as five
  kernel regions among stretches of host operations, against the same computation written as plain array operations.
  Both compute, at the exact extended reals:
    t   = sqrt |(id^2 + (leaky(features W1 + b1) W2 + b2)^2) / 2 + 1e-8|     the item embeddings, 50000 rows
    e   = the user preferences stacked over t, every row divided by max(its Euclidean norm, 1e-12)
    p1  = cos(A e, e) * (A e),  p2 = cos(A p1, e) * (A p1),  p3 = cos(A p2, e) * (A p2)
          where A is the sparse adjacency product (gather at the edges' columns, scale by the edge values, scatter-add
          at the edges' rows) and cos(a, e) is the row-wise <a,e> / (max(|a|,1e-8) max(|e|,1e-8))
    result = e + p1 + p2 + p3, and the user preferences returned unchanged.
  The kernel program computes t on blocks of 1000 rows (rounding the matrix products' operands to bf16, which is the
  identity at the exact reals, and multiplying by 0.5 where the host divides by 2: the same function on every
  extended real), e and each cosine rescaling on blocks of 3000 rows; every one of those operations reads one row of
  its tables, so the blocks' results are the whole tables' results at the blocks' rows, and the blocks tile the
  tables. The sparse product A is the same sixteen host operations in both programs. No finiteness of the inputs is
  used: the two sides differ only by the order of a product's factors and by x * (1/2) against x / 2.
  The three frames: each program runs to the end without a fault and leaves its arguments as it found them; for the
  kernel program this is the run through its ten segments (five stretches of host operations, five regions), the
  third region reading one array through two windows, each holding half of the array's ownership.
-/
import proofs.«120298_j9921374454291_1_alg».proof.Defs
import proofs.«120298_j9921374454291_1_alg».proof.Proof.Gen.Kernel
import proofs.«120298_j9921374454291_1_alg».proof.Proof.Gen.KernelIdeal
import proofs.«120298_j9921374454291_1_alg».proof.Proof.Gen.ReferenceIdeal
import proofs.«120298_j9921374454291_1_alg».proof.Proof.Gen.Pre_finite_inputs
import proofs.«120298_j9921374454291_1_alg».proof.Proof.BKeep
import proofs.«120298_j9921374454291_1_alg».proof.Proof.IChain
import proofs.«120298_j9921374454291_1_alg».proof.Proof.RefRun

noncomputable section

namespace Cert.Proof

open Idealize.ShloMosaic Idealize.ShloMosaic.TcCoe Idealize.SL.Sem

/-- The word-level kernel program runs to the end, nothing faulting, its arguments unchanged. -/
theorem frame_p : Cert.frame_Kernel := fun m ρ _ => Cert.Kernel.Reg.frame (F := Bits) m ρ

/-- The same of the program read at the exact extended reals. -/
theorem frame_pi : Cert.frame_KernelIdeal := fun m ρ _ => Cert.KernelIdeal.Reg.frame (F := Ideal) m ρ

/-- The reference's frame is its run with the result dropped. -/
theorem frame_ri : Cert.frame_ReferenceIdeal := fun m ρ _ =>
  (θ_run Cert.ReferenceIdeal.defs _ _).mono (fun _ h c => (h c).2.2) (Cert.ReferenceIdeal.RefRun.run_spec m ρ)

/-- The idealization rewrote no operation: nothing to preserve. -/
theorem preserves : Cert.preserves_Kernel_KernelIdeal := trivial

/-- From memories agreeing on the arguments both programs end with the specification's function of the arguments in
    their result buffer and the user preferences unchanged. -/
theorem algebraic : Cert.algebraic_KernelIdeal_ReferenceIdeal := by
  intro m ρ m' ρ' _ hagree
  refine ⟨fun c => Cert.Spec.refSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => m ((c.tc : Thread Cert.KernelIdeal.nD Cert.KernelIdeal.τ).loc Cert.KernelIdeal.main_arg5),
    Cert.KernelIdeal.Reg.run_value m ρ, ?_⟩
  refine (θ_run Cert.ReferenceIdeal.defs _ _).mono (fun _ h c => ?_) (Cert.ReferenceIdeal.RefRun.run_spec m' ρ')
  obtain ⟨a0, a1, a2, a3, a4, a5, a6, a7, a8, a9⟩ := hagree c
  refine ⟨?_, ?_, (h c).2.2⟩
  · rw [(h c).1, a0, a1, a2, a3, a4, a5, a6, a7, a8, a9]
  · rw [(h c).2.1, a5]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
